-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S8x4096x4096 : Shape := ⟨3, ![8, 4096, 4096]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg6 : FVec F S3x64 .f32) (main_arg7 : FVec F S3x64x64 .f32) (main_arg8 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  main_v33

def fn {F : FTy → Type} [FloatOps F] (main_arg0 : IVec S8x2048 32) (main_arg1 : IVec S8x2048 32) (main_arg2 : FVec F S8x4096x4096 .f32) (main_arg3 : FVec F S100000x64 .f32) (main_arg4 : FVec F S100000x64 .f32) (main_arg5 : FVec F S3x64x64 .f32) (main_arg6 : FVec F S3x64 .f32) (main_arg7 : FVec F S3x64x64 .f32) (main_arg8 : FVec F S3x64 .f32) : IVec S_ 1 :=
  let main_v0 : FVec F S8x4096x4096 .f32 := Host.absf main_arg2
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S8x2048 : Shape := ⟨2, ![8, 2048]⟩
abbrev S8x4096x4096 : Shape := ⟨3, ![8, 4096, 4096]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩
abbrev S8x2048x1 : Shape := ⟨3, ![8, 2048, 1]⟩
abbrev S8x2048x64 : Shape := ⟨3, ![8, 2048, 64]⟩
abbrev S8x4096x64 : Shape := ⟨3, ![8, 4096, 64]⟩
abbrev S3x1x64 : Shape := ⟨3, ![3, 1, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S1x256x4096 : Shape := ⟨3, ![1, 256, 4096]⟩
abbrev S1x4096x64 : Shape := ⟨3, ![1, 4096, 64]⟩
abbrev S1x256x64 : Shape := ⟨3, ![1, 256, 64]⟩
abbrev S256x4096 : Shape := ⟨2, ![256, 4096]⟩
abbrev S4096x64 : Shape := ⟨2, ![4096, 64]⟩
abbrev S256x64 : Shape := ⟨2, ![256, 64]⟩
abbrev S1x512x4096 : Shape := ⟨3, ![1, 512, 4096]⟩
abbrev S1x512x64 : Shape := ⟨3, ![1, 512, 64]⟩
abbrev S512x4096 : Shape := ⟨2, ![512, 4096]⟩
abbrev S512x64 : Shape := ⟨2, ![512, 64]⟩
abbrev S16384x1 : Shape := ⟨2, ![16384, 1]⟩

abbrev nBuf : Space → Nat
  | .hbm => 80
  | .vmem => 38
  | .smem => 0
  | _ => 0

abbrev bufTy : (tb : Table) → Fin (tcTables nBuf tb) → BufTy
  | .hbm, ⟨0, _⟩ => ⟨S8x2048, .i32⟩
  | .hbm, ⟨1, _⟩ => ⟨S8x2048, .i32⟩
  | .hbm, ⟨2, _⟩ => ⟨S8x4096x4096, .f32⟩
  | .hbm, ⟨3, _⟩ => ⟨S100000x64, .f32⟩
  | .hbm, ⟨4, _⟩ => ⟨S100000x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S_, .i32⟩
  | .hbm, ⟨10, _⟩ => ⟨S8x2048, .i32⟩
  | .hbm, ⟨11, _⟩ => ⟨S8x2048, .i1⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S8x2048, .i32⟩
  | .hbm, ⟨16, _⟩ => ⟨S8x2048x1, .i32⟩
  | .hbm, ⟨17, _⟩ => ⟨S8x2048x64, .f32⟩
  | .hbm, ⟨18, _⟩ => ⟨S_, .i32⟩
  | .hbm, ⟨19, _⟩ => ⟨S8x2048, .i32⟩
  | .hbm, ⟨20, _⟩ => ⟨S8x2048, .i1⟩
  | .hbm, ⟨21, _⟩ => ⟨S_, .i32⟩
  | .hbm, ⟨22, _⟩ => ⟨S8x2048, .i32⟩
  | .hbm, ⟨23, _⟩ => ⟨S8x2048, .i32⟩
  | .hbm, ⟨24, _⟩ => ⟨S8x2048, .i32⟩
  | .hbm, ⟨25, _⟩ => ⟨S8x2048x1, .i32⟩
  | .hbm, ⟨26, _⟩ => ⟨S8x2048x64, .f32⟩
  | .hbm, ⟨27, _⟩ => ⟨S8x4096x64, .f32⟩
  | .hbm, ⟨28, _⟩ => ⟨S3x64x64, .f32⟩
  | .hbm, ⟨29, _⟩ => ⟨S3x64x64, .f32⟩
  | .hbm, ⟨30, _⟩ => ⟨S3x1x64, .f32⟩
  | .hbm, ⟨31, _⟩ => ⟨S3x1x64, .f32⟩
  | .hbm, ⟨32, _⟩ => ⟨S1x64x64, .f32⟩
  | .hbm, ⟨33, _⟩ => ⟨S64x64, .f32⟩
  | .hbm, ⟨34, _⟩ => ⟨S1x1x64, .f32⟩
  | .hbm, ⟨35, _⟩ => ⟨S1x64, .f32⟩
  | .hbm, ⟨36, _⟩ => ⟨S1x64x64, .f32⟩
  | .hbm, ⟨37, _⟩ => ⟨S64x64, .f32⟩
  | .hbm, ⟨38, _⟩ => ⟨S1x1x64, .f32⟩
  | .hbm, ⟨39, _⟩ => ⟨S1x64, .f32⟩
  | .hbm, ⟨40, _⟩ => ⟨S8x4096x64, .f32⟩
  | .hbm, ⟨41, _⟩ => ⟨S8x4096x4096, .bf16⟩
  | .hbm, ⟨42, _⟩ => ⟨S1x64x64, .f32⟩
  | .hbm, ⟨43, _⟩ => ⟨S64x64, .f32⟩
  | .hbm, ⟨44, _⟩ => ⟨S1x1x64, .f32⟩
  | .hbm, ⟨45, _⟩ => ⟨S1x64, .f32⟩
  | .hbm, ⟨46, _⟩ => ⟨S1x64x64, .f32⟩
  | .hbm, ⟨47, _⟩ => ⟨S64x64, .f32⟩
  | .hbm, ⟨48, _⟩ => ⟨S1x1x64, .f32⟩
  | .hbm, ⟨49, _⟩ => ⟨S1x64, .f32⟩
  | .hbm, ⟨50, _⟩ => ⟨S8x4096x64, .f32⟩
  | .hbm, ⟨51, _⟩ => ⟨S1x64x64, .f32⟩
  | .hbm, ⟨52, _⟩ => ⟨S64x64, .f32⟩
  | .hbm, ⟨53, _⟩ => ⟨S1x1x64, .f32⟩
  | .hbm, ⟨54, _⟩ => ⟨S1x64, .f32⟩
  | .hbm, ⟨55, _⟩ => ⟨S1x64x64, .f32⟩
  | .hbm, ⟨56, _⟩ => ⟨S64x64, .f32⟩
  | .hbm, ⟨57, _⟩ => ⟨S1x1x64, .f32⟩
  | .hbm, ⟨58, _⟩ => ⟨S1x64, .f32⟩
  | .hbm, ⟨59, _⟩ => ⟨S8x4096x64, .f32⟩
  | .hbm, ⟨60, _⟩ => ⟨S8x2048x64, .f32⟩
  | .hbm, ⟨61, _⟩ => ⟨S8x2048x64, .f32⟩
  | .hbm, ⟨62, _⟩ => ⟨S8x2048x64, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048, .f32⟩
  | .hbm, ⟨68, _⟩ => ⟨S_, .f32⟩
  | .hbm, ⟨69, _⟩ => ⟨S8x2048, .f32⟩
  | .hbm, ⟨70, _⟩ => ⟨S8x2048, .f32⟩
  | .hbm, ⟨71, _⟩ => ⟨S8x2048x1, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S8x2048x1, .f32⟩
  | .hbm, ⟨78, _⟩ => ⟨S8x2048x1, .f32⟩
  | .hbm, ⟨79, _⟩ => ⟨S16384x1, .f32⟩
  | .local _ .vmem, ⟨0, _⟩ => ⟨S1x256x4096, .f32⟩
  | .local _ .vmem, ⟨1, _⟩ => ⟨S1x256x4096, .f32⟩
  | .local _ .vmem, ⟨2, _⟩ => ⟨S1x4096x64, .f32⟩
  | .local _ .vmem, ⟨3, _⟩ => ⟨S1x4096x64, .f32⟩
  | .local _ .vmem, ⟨4, _⟩ => ⟨S1x256x64, .f32⟩
  | .local _ .vmem, ⟨5, _⟩ => ⟨S1x256x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x256x64, .f32⟩
  | .local _ .vmem, ⟨11, _⟩ => ⟨S1x256x64, .f32⟩
  | .local _ .vmem, ⟨12, _⟩ => ⟨S1x256x4096, .bf16⟩
  | .local _ .vmem, ⟨13, _⟩ => ⟨S1x256x4096, .bf16⟩
  | .local _ .vmem, ⟨14, _⟩ => ⟨S1x512x4096, .bf16⟩
  | .local _ .vmem, ⟨15, _⟩ => ⟨S1x512x4096, .bf16⟩
  | .local _ .vmem, ⟨16, _⟩ => ⟨S1x4096x64, .f32⟩
  | .local _ .vmem, ⟨17, _⟩ => ⟨S1x4096x64, .f32⟩
  | .local _ .vmem, ⟨18, _⟩ => ⟨S1x512x64, .f32⟩
  | .local _ .vmem, ⟨19, _⟩ => ⟨S1x512x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S1x512x64, .f32⟩
  | .local _ .vmem, ⟨25, _⟩ => ⟨S1x512x64, .f32⟩
  | .local _ .vmem, ⟨26, _⟩ => ⟨S1x512x4096, .bf16⟩
  | .local _ .vmem, ⟨27, _⟩ => ⟨S1x512x4096, .bf16⟩
  | .local _ .vmem, ⟨28, _⟩ => ⟨S1x4096x64, .f32⟩
  | .local _ .vmem, ⟨29, _⟩ => ⟨S1x4096x64, .f32⟩
  | .local _ .vmem, ⟨30, _⟩ => ⟨S1x512x64, .f32⟩
  | .local _ .vmem, ⟨31, _⟩ => ⟨S1x512x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S1x512x64, .f32⟩
  | .local _ .vmem, ⟨37, _⟩ => ⟨S1x512x64, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst : Ref sig .tc := ⟨.hbm, 63, rfl⟩
abbrev main_v49 : Ref sig .tc := ⟨.hbm, 64, rfl⟩
abbrev main_v50 : Ref sig .tc := ⟨.hbm, 65, rfl⟩
abbrev main_call0_cst : Ref sig .tc := ⟨.hbm, 66, rfl⟩
abbrev main_call0_v0 : Ref sig .tc := ⟨.hbm, 67, rfl⟩
abbrev main_call0_cst_0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_cst_1 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x512x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  concatenates_S8x2048x64_S8x2048x64_S8x4096x64_d1 : Shape.Concatenates [S8x2048x64, S8x2048x64] S8x4096x64 1
  transposes_S3x64x64_S3x64x64_0_2_1 : S3x64x64.Transposes [0, 2, 1] S3x64x64
  shapeCasts_S3x64_S3x1x64 : S3x64.ShapeCasts S3x1x64
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  shapeCasts_S256x64_S1x256x64 : S256x64.ShapeCasts S1x256x64
  slices_S3x64x64_S1x64x64_1_0_0 : S3x64x64.Slices ![1, 0, 0] S1x64x64
  slices_S3x1x64_S1x1x64_1_0_0 : S3x1x64.Slices ![1, 0, 0] S1x1x64
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  broadcasts_S1x64_S512x64 : S1x64.Broadcasts S512x64
  shapeCasts_S512x64_S1x512x64 : S512x64.ShapeCasts S1x512x64
  slices_S3x64x64_S1x64x64_2_0_0 : S3x64x64.Slices ![2, 0, 0] S1x64x64
  slices_S3x1x64_S1x1x64_2_0_0 : S3x1x64.Slices ![2, 0, 0] S1x1x64
  slices_S8x4096x64_S8x2048x64_0_0_0 : S8x4096x64.Slices ![0, 0, 0] S8x2048x64
  slices_S8x4096x64_S8x2048x64_0_2048_0 : S8x4096x64.Slices ![0, 2048, 0] S8x2048x64
  reducesTo_S8x2048x64_S8x2048_d2 : S8x2048x64.ReducesTo [2] S8x2048
  h_S_ : 0 < S_.numel
  reducesTo_S8x2048x1_S8x2048_d2 : S8x2048x1.ReducesTo [2] S8x2048
  shapeCasts_S8x2048x1_S16384x1 : S8x2048x1.ShapeCasts S16384x1
  gather_S100000x64_S8x2048x1_S8x2048x64_2_0_n_n_0_2_164_wf : GatherDims.WF S100000x64 S8x2048x1 S8x2048x64 [2] [0] [] [0] [] 2 ![1, 64]
  dot_S256x4096_S4096x64_S256x64_1_0_0_1_n_n_wf : DotDims.WF S256x4096 S4096x64 S256x64 [1] [0] [0] [1] [] []
  dot_S256x64_S64x64_S256x64_1_0_0_1_n_n_wf : DotDims.WF S256x64 S64x64 S256x64 [1] [0] [0] [1] [] []
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x4096x4096.size a
  hwx0_0 : ∀ i : grid0.Coords, EltTy.bits .f32 = 32 ∨ (Rect.block (s := S8x4096x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S8x4096x64.size a
  hwx0_2 : ∀ i : grid0.Coords, EltTy.bits .f32 = 32 ∨ (Rect.block (s := S8x4096x64) S1x256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x64.size a ≤ S8x4096x64.size a
  hwx0_7 : ∀ i : grid0.Coords, EltTy.bits .f32 = 32 ∨ (Rect.block (s := S8x4096x64) S1x256x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x4096.size a ≤ S8x4096x4096.size a
  hwx0_8 : ∀ i : grid0.Coords, EltTy.bits .bf16 = 32 ∨ (Rect.block (s := S8x4096x4096) S1x256x4096.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x4096x4096.size a
  hwx1_0 : ∀ i : grid1.Coords, EltTy.bits .bf16 = 32 ∨ (Rect.block (s := S8x4096x4096) S1x512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S8x4096x64.size a
  hwx1_1 : ∀ i : grid1.Coords, EltTy.bits .f32 = 32 ∨ (Rect.block (s := S8x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S8x4096x64.size a
  hwx1_2 : ∀ i : grid1.Coords, EltTy.bits .f32 = 32 ∨ (Rect.block (s := S8x4096x64) S1x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x64.size a ≤ S8x4096x64.size a
  hwx1_7 : ∀ i : grid1.Coords, EltTy.bits .f32 = 32 ∨ (Rect.block (s := S8x4096x64) S1x512x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x4096.size a ≤ S8x4096x4096.size a
  hwx2_0 : ∀ i : grid2.Coords, EltTy.bits .bf16 = 32 ∨ (Rect.block (s := S8x4096x4096) S1x512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x64.size a ≤ S8x4096x64.size a
  hwx2_1 : ∀ i : grid2.Coords, EltTy.bits .f32 = 32 ∨ (Rect.block (s := S8x4096x64) S1x4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x64.size a ≤ S8x4096x64.size a
  hwx2_2 : ∀ i : grid2.Coords, EltTy.bits .f32 = 32 ∨ (Rect.block (s := S8x4096x64) S1x512x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512x64.size a ≤ S8x4096x64.size a
  hwx2_7 : ∀ i : grid2.Coords, EltTy.bits .f32 = 32 ∨ (Rect.block (s := S8x4096x64) S1x512x64.size (cc2_transform_7 i) (hinb2_7 i)).WholeWords (EltTy.packing .f32)

variable [Facts₀]

def gather_S100000x64_S8x2048x1_S8x2048x64_2_0_n_n_0_2_164 : GatherDims S100000x64 S8x2048x1 S8x2048x64 where
  offsetDims := [2]
  collapsedSliceDims := [0]
  operandBatchingDims := []
  startIndicesBatchingDims := []
  startIndexMap := [0]
  indexVectorDim := 2
  sliceSizes := ![1, 64]
  wf := gather_S100000x64_S8x2048x1_S8x2048x64_2_0_n_n_0_2_164_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg2) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S1x256x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S1x256x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27_1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_0) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27_0) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27_1) S1x512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S1x512x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x2048 : Shape := ⟨2, ![8, 2048]⟩
abbrev S8x4096x4096 : Shape := ⟨3, ![8, 4096, 4096]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩
abbrev S8x2048x1 : Shape := ⟨3, ![8, 2048, 1]⟩
abbrev S8x2048x64 : Shape := ⟨3, ![8, 2048, 64]⟩
abbrev S8x4096x64 : Shape := ⟨3, ![8, 4096, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1x64 : Shape := ⟨3, ![1, 1, 64]⟩
abbrev S16384x1 : Shape := ⟨2, ![16384, 1]⟩

abbrev nBuf : Space → Nat
  | .hbm => 147
  | .vmem => 0
  | .smem => 0
  | _ => 0

abbrev hbmTy0_0 (i : Nat) : BufTy := match i % 128 with
  | 0 => ⟨S8x2048, .i32⟩
  | 1 => ⟨S8x2048, .i32⟩
  | 2 => ⟨S8x4096x4096, .f32⟩
  | 3 => ⟨S100000x64, .f32⟩
  | 4 => ⟨S100000x64, .f32⟩
  | 5 => ⟨S3x64x64, .f32⟩
  | 6 => ⟨S3x64, .f32⟩
  | 7 => ⟨S3x64x64, .f32⟩
  | 8 => ⟨S3x64, .f32⟩
  | 9 => ⟨S_, .i32⟩
  | 10 => ⟨S8x2048, .i32⟩
  | 11 => ⟨S8x2048, .i1⟩
  | 12 => ⟨S_, .i32⟩
  | 13 => ⟨S8x2048, .i32⟩
  | 14 => ⟨S8x2048, .i32⟩
  | 15 => ⟨S8x2048, .i32⟩
  | 16 => ⟨S8x2048x1, .i32⟩
  | 17 => ⟨S8x2048x64, .f32⟩
  | 18 => ⟨S_, .i32⟩
  | 19 => ⟨S8x2048, .i32⟩
  | 20 => ⟨S8x2048, .i1⟩
  | 21 => ⟨S_, .i32⟩
  | 22 => ⟨S8x2048, .i32⟩
  | 23 => ⟨S8x2048, .i32⟩
  | 24 => ⟨S8x2048, .i32⟩
  | 25 => ⟨S8x2048x1, .i32⟩
  | 26 => ⟨S8x2048x64, .f32⟩
  | 27 => ⟨S8x4096x64, .f32⟩
  | 28 => ⟨S8x4096x64, .f32⟩
  | 29 => ⟨S1x64x64, .f32⟩
  | 30 => ⟨S64x64, .f32⟩
  | 31 => ⟨S8x4096x64, .f32⟩
  | 32 => ⟨S1x64, .f32⟩
  | 33 => ⟨S64, .f32⟩
  | 34 => ⟨S1x1x64, .f32⟩
  | 35 => ⟨S8x4096x64, .f32⟩
  | 36 => ⟨S8x4096x64, .f32⟩
  | 37 => ⟨S_, .f32⟩
  | 38 => ⟨S8x4096x64, .f32⟩
  | 39 => ⟨S8x4096x64, .i1⟩
  | 40 => ⟨S_, .f32⟩
  | 41 => ⟨S8x4096x64, .f32⟩
  | 42 => ⟨S8x4096x64, .f32⟩
  | 43 => ⟨S8x4096x64, .f32⟩
  | 44 => ⟨S8x4096x64, .f32⟩
  | 45 => ⟨S1x64x64, .f32⟩
  | 46 => ⟨S64x64, .f32⟩
  | 47 => ⟨S8x4096x64, .f32⟩
  | 48 => ⟨S1x64, .f32⟩
  | 49 => ⟨S64, .f32⟩
  | 50 => ⟨S1x1x64, .f32⟩
  | 51 => ⟨S8x4096x64, .f32⟩
  | 52 => ⟨S8x4096x64, .f32⟩
  | 53 => ⟨S_, .f32⟩
  | 54 => ⟨S8x4096x64, .f32⟩
  | 55 => ⟨S8x4096x64, .i1⟩
  | 56 => ⟨S_, .f32⟩
  | 57 => ⟨S8x4096x64, .f32⟩
  | 58 => ⟨S8x4096x64, .f32⟩
  | 59 => ⟨S8x4096x64, .f32⟩
  | 60 => ⟨S8x4096x64, .f32⟩
  | 61 => ⟨S8x4096x64, .f32⟩
  | 62 => ⟨S1x64x64, .f32⟩
  | 63 => ⟨S64x64, .f32⟩
  | 64 => ⟨S8x4096x64, .f32⟩
  | 65 => ⟨S1x64, .f32⟩
  | 66 => ⟨S64, .f32⟩
  | 67 => ⟨S1x1x64, .f32⟩
  | 68 => ⟨S8x4096x64, .f32⟩
  | 69 => ⟨S8x4096x64, .f32⟩
  | 70 => ⟨S_, .f32⟩
  | 71 => ⟨S8x4096x64, .f32⟩
  | 72 => ⟨S8x4096x64, .i1⟩
  | 73 => ⟨S_, .f32⟩
  | 74 => ⟨S8x4096x64, .f32⟩
  | 75 => ⟨S8x4096x64, .f32⟩
  | 76 => ⟨S8x4096x64, .f32⟩
  | 77 => ⟨S8x4096x64, .f32⟩
  | 78 => ⟨S1x64x64, .f32⟩
  | 79 => ⟨S64x64, .f32⟩
  | 80 => ⟨S8x4096x64, .f32⟩
  | 81 => ⟨S1x64, .f32⟩
  | 82 => ⟨S64, .f32⟩
  | 83 => ⟨S1x1x64, .f32⟩
  | 84 => ⟨S8x4096x64, .f32⟩
  | 85 => ⟨S8x4096x64, .f32⟩
  | 86 => ⟨S_, .f32⟩
  | 87 => ⟨S8x4096x64, .f32⟩
  | 88 => ⟨S8x4096x64, .i1⟩
  | 89 => ⟨S_, .f32⟩
  | 90 => ⟨S8x4096x64, .f32⟩
  | 91 => ⟨S8x4096x64, .f32⟩
  | 92 => ⟨S8x4096x64, .f32⟩
  | 93 => ⟨S8x4096x64, .f32⟩
  | 94 => ⟨S8x4096x64, .f32⟩
  | 95 => ⟨S1x64x64, .f32⟩
  | 96 => ⟨S64x64, .f32⟩
  | 97 => ⟨S8x4096x64, .f32⟩
  | 98 => ⟨S1x64, .f32⟩
  | 99 => ⟨S64, .f32⟩
  | 100 => ⟨S1x1x64, .f32⟩
  | 101 => ⟨S8x4096x64, .f32⟩
  | 102 => ⟨S8x4096x64, .f32⟩
  | 103 => ⟨S_, .f32⟩
  | 104 => ⟨S8x4096x64, .f32⟩
  | 105 => ⟨S8x4096x64, .i1⟩
  | 106 => ⟨S_, .f32⟩
  | 107 => ⟨S8x4096x64, .f32⟩
  | 108 => ⟨S8x4096x64, .f32⟩
  | 109 => ⟨S8x4096x64, .f32⟩
  | 110 => ⟨S8x4096x64, .f32⟩
  | 111 => ⟨S1x64x64, .f32⟩
  | 112 => ⟨S64x64, .f32⟩
  | 113 => ⟨S8x4096x64, .f32⟩
  | 114 => ⟨S1x64, .f32⟩
  | 115 => ⟨S64, .f32⟩
  | 116 => ⟨S1x1x64, .f32⟩
  | 117 => ⟨S8x4096x64, .f32⟩
  | 118 => ⟨S8x4096x64, .f32⟩
  | 119 => ⟨S_, .f32⟩
  | 120 => ⟨S8x4096x64, .f32⟩
  | 121 => ⟨S8x4096x64, .i1⟩
  | 122 => ⟨S_, .f32⟩
  | 123 => ⟨S8x4096x64, .f32⟩
  | 124 => ⟨S8x4096x64, .f32⟩
  | 125 => ⟨S8x4096x64, .f32⟩
  | 126 => ⟨S8x4096x64, .f32⟩
  | 127 => ⟨S8x2048x64, .f32⟩
  | _ => ⟨S8x2048, .i32⟩

abbrev hbmTy0_1 (i : Nat) : BufTy := match i % 128 with
  | 0 => ⟨S8x2048x64, .f32⟩
  | 1 => ⟨S8x2048x64, .f32⟩
  | 2 => ⟨S_, .f32⟩
  | 3 => ⟨S8x2048, .f32⟩
  | 4 => ⟨S8x2048x1, .f32⟩
  | 5 => ⟨S_, .f32⟩
  | 6 => ⟨S8x2048, .f32⟩
  | 7 => ⟨S_, .f32⟩
  | 8 => ⟨S8x2048, .f32⟩
  | 9 => ⟨S8x2048, .f32⟩
  | 10 => ⟨S8x2048x1, .f32⟩
  | 11 => ⟨S8x2048x1, .f32⟩
  | 12 => ⟨S8x2048x1, .f32⟩
  | 13 => ⟨S_, .f32⟩
  | 14 => ⟨S8x2048, .f32⟩
  | 15 => ⟨S8x2048x1, .f32⟩
  | 16 => ⟨S8x2048x1, .f32⟩
  | 17 => ⟨S8x2048x1, .f32⟩
  | 18 => ⟨S16384x1, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call2_cst : Ref sig .tc := ⟨.hbm, 70, rfl⟩
abbrev main_call2_v0 : Ref sig .tc := ⟨.hbm, 71, rfl⟩
abbrev main_call2_v1 : Ref sig .tc := ⟨.hbm, 72, rfl⟩
abbrev main_call2_cst_0 : Ref sig .tc := ⟨.hbm, 73, rfl⟩
abbrev main_call2_v2 : Ref sig .tc := ⟨.hbm, 74, rfl⟩
abbrev main_call2_v3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call4_cst : Ref sig .tc := ⟨.hbm, 103, rfl⟩
abbrev main_call4_v0 : Ref sig .tc := ⟨.hbm, 104, rfl⟩
abbrev main_call4_v1 : Ref sig .tc := ⟨.hbm, 105, rfl⟩
abbrev main_call4_cst_0 : Ref sig .tc := ⟨.hbm, 106, rfl⟩
abbrev main_call4_v2 : Ref sig .tc := ⟨.hbm, 107, rfl⟩
abbrev main_call4_v3 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_call5_cst : Ref sig .tc := ⟨.hbm, 119, rfl⟩
abbrev main_call5_v0 : Ref sig .tc := ⟨.hbm, 120, rfl⟩
abbrev main_call5_v1 : Ref sig .tc := ⟨.hbm, 121, rfl⟩
abbrev main_call5_cst_0 : Ref sig .tc := ⟨.hbm, 122, rfl⟩
abbrev main_call5_v2 : Ref sig .tc := ⟨.hbm, 123, rfl⟩
abbrev main_call5_v3 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst : Ref sig .tc := ⟨.hbm, 130, rfl⟩
abbrev main_v81 : Ref sig .tc := ⟨.hbm, 131, rfl⟩
abbrev main_v82 : Ref sig .tc := ⟨.hbm, 132, rfl⟩
abbrev main_call6_cst : Ref sig .tc := ⟨.hbm, 133, rfl⟩
abbrev main_call6_v0 : Ref sig .tc := ⟨.hbm, 134, rfl⟩
abbrev main_call6_cst_0 : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_cst_1 : Ref sig .tc := ⟨.hbm, 141, rfl⟩
abbrev main_call6_v6 : Ref sig .tc := ⟨.hbm, 142, rfl⟩
abbrev main_call6_v7 : Ref sig .tc := ⟨.hbm, 143, rfl⟩
abbrev main_call6_v8 : Ref sig .tc := ⟨.hbm, 144, rfl⟩
abbrev main_v83 : Ref sig .tc := ⟨.hbm, 145, rfl⟩
abbrev main_v84 : Ref sig .tc := ⟨.hbm, 146, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  concatenates_S8x2048x64_S8x2048x64_S8x4096x64_d1 : Shape.Concatenates [S8x2048x64, S8x2048x64] S8x4096x64 1
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x64 : S_.BroadcastsInDim S8x4096x64 (![] : Fin 0 → Fin S8x4096x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S8x4096x64_S8x2048x64_0_0_0 : S8x4096x64.Slices ![0, 0, 0] S8x2048x64
  slices_S8x4096x64_S8x2048x64_0_2048_0 : S8x4096x64.Slices ![0, 2048, 0] S8x2048x64
  reducesTo_S8x2048x64_S8x2048_d2 : S8x2048x64.ReducesTo [2] S8x2048
  h_S_ : 0 < S_.numel
  reducesTo_S8x2048x1_S8x2048_d2 : S8x2048x1.ReducesTo [2] S8x2048
  shapeCasts_S8x2048x1_S16384x1 : S8x2048x1.ShapeCasts S16384x1
  gather_S100000x64_S8x2048x1_S8x2048x64_2_0_n_n_0_2_164_wf : GatherDims.WF S100000x64 S8x2048x1 S8x2048x64 [2] [0] [] [0] [] 2 ![1, 64]
  dot_S8x4096x4096_S8x4096x64_S8x4096x64_2_1_1_2_0_0_wf : DotDims.WF S8x4096x4096 S8x4096x64 S8x4096x64 [2] [1] [1] [2] [0] [0]
  dot_S8x4096x64_S64x64_S8x4096x64_2_1_01_0_n_n_wf : DotDims.WF S8x4096x64 S64x64 S8x4096x64 [2] [1] [0, 1] [0] [] []

variable [Facts₀]

def gather_S100000x64_S8x2048x1_S8x2048x64_2_0_n_n_0_2_164 : GatherDims S100000x64 S8x2048x1 S8x2048x64 where
  offsetDims := [2]
  collapsedSliceDims := [0]
  operandBatchingDims := []
  startIndicesBatchingDims := []
  startIndexMap := [0]
  indexVectorDim := 2
  sliceSizes := ![1, 64]
  wf := gather_S100000x64_S8x2048x1_S8x2048x64_2_0_n_n_0_2_164_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf
def dot_S8x4096x64_S64x64_S8x4096x64_2_1_01_0_n_n : DotDims S8x4096x64 S64x64 S8x4096x64 where
  lhsContracting := [2]
  rhsContracting := [1]
  lhsNonContracting := [0, 1]
  rhsNonContracting := [0]
  lhsBatch := []
  rhsBatch := []
  wf := dot_S8x4096x64_S64x64_S8x4096x64_2_1_01_0_n_n_wf

class Facts : Prop extends Facts₀ where

variable [Facts]
-- ==== Proof.LibSharedPair.lean ====
/-
  Two input windows on one array: how the array's full share is dealt.

  A pipeline holds window `w`'s array at the window's own share. When exactly two input windows `w₁ ≠ w₂` read one
  array and every other window's array is a buffer of its own, the distinct buffers behind the windows' arrays, each
  whole at the full share, ARE the pipeline's arrays: the common buffer's full share is the left half (window `w₁`'s)
  beside the right half (window `w₂`'s), and every other window holds its own buffer at the full share. Stated as an
  equation of assertions, for any contents `V` of the buffers and any contents `F` of the windows' arrays read off
  `V`, so that it serves at a region's entry (the entry contents) and at its exit (the final contents) alike.
-/
import Idealize.ShloMosaic.Lib.Pipeline.Launch

noncomputable section

namespace Cert.Lib.SharedPair

open Idealize.ShloMosaic Idealize.ShloMosaic.Pipeline
open Idealize.SL
open Idealize.SL.BI (sProp bigSep bigSep_congr bigSep_erase bigSep_univ_split)
open scoped Idealize.SL.BI
open Idealize.SL.BI.BIBase Idealize.SL.BI.Laws
open Idealize.SL.RA
open Idealize.ShloMosaic.TcCoe

variable {nD : Nat} {τ : Topo} {sig : RefSig} {Val : EltTy → Type} {Λ₀ : Idealize.SL.Sem.Labels}
variable {Ix : Type} [DecidableEq Ix] {Name : Type} [DecidableEq Name] {U : Type} [URA U] {Lvl : Type}

local notation "𝕄" => MT nD τ sig Ix Val Name U Lvl

/-- The windows' arrays of a pipeline in which windows `w₁` and `w₂` (two inputs, at the left and the right half
    share) read one array and no other two windows do: at contents read off `V` they are the distinct buffers behind
    the arrays, each whole at the full share at `V`. -/
theorem arrays_eq_arrBufs {cfg : Cfg sig Λ₀} {c : Dev nD} (dat : Dat τ Val Ix Name U Lvl cfg c)
    (harr : ∀ w, (cfg.spec w).arr.IsWhole) (w₁ w₂ : Fin cfg.W) (hne : w₁ ≠ w₂)
    (h12 : arrRef cfg.spec w₂ = arrRef cfg.spec w₁)
    (hinj : ∀ w w', w ≠ w₂ → w' ≠ w₂ → arrRef cfg.spec w = arrRef cfg.spec w' → w = w')
    (hs₁ : dat.share w₁ = fullShare.left) (hs₂ : dat.share w₂ = fullShare.right)
    (hs : ∀ w, w ≠ w₁ → w ≠ w₂ → dat.share w = fullShare)
    (V : (b : Ref sig .tc) → Buf Val ((c.tc : Thread nD τ).loc b))
    (F : (w : Fin cfg.W) → Buf Val ((cfg.win w).arr.view.loc (c.tc : Thread nD τ)))
    (hF : ∀ w, F w = V (arrRef cfg.spec w)) :
    (dat.arrays F : sProp 𝕄) = arrBufs cfg.spec c V := by
  classical
  -- every window's summand, read at the buffer behind its array
  let Ψ : PosShare TreeShare → Ref sig .tc → sProp 𝕄 := fun q b => ((c.tc : Thread nD τ).loc b) ↦{q} V b
  have harrays : (dat.arrays F : sProp 𝕄) = bigSep Finset.univ fun w => Ψ (dat.share w) (arrRef cfg.spec w) := by
    unfold Dat.arrays
    exact bigSep_congr fun w _ => by rw [(harr w).set_eq_univ, hF]
  -- the two halves of the common buffer make its full share
  have hhalves : (iprop(Ψ fullShare.right (arrRef cfg.spec w₂) ∗ Ψ fullShare.left (arrRef cfg.spec w₁)) : sProp 𝕄)
      = Ψ fullShare (arrRef cfg.spec w₁) := by
    rw [h12]
    have hs : (Ψ fullShare (arrRef cfg.spec w₁) : sProp 𝕄)
        ⊣⊢ iprop(Ψ fullShare.left (arrRef cfg.spec w₁) ∗ Ψ fullShare.right (arrRef cfg.spec w₁)) :=
      pointsTo_share (PosShare.mem_left_op_right fullShare)
    exact BI.Entails.antisymm (sep_comm.1.trans hs.2) (hs.1.trans sep_comm.1)
  have hw₁ : w₁ ∈ Finset.univ.erase w₂ := Finset.mem_erase.mpr ⟨hne, Finset.mem_univ _⟩
  have hrest : (bigSep ((Finset.univ.erase w₂).erase w₁) fun w => Ψ (dat.share w) (arrRef cfg.spec w))
      = bigSep ((Finset.univ.erase w₂).erase w₁) fun w => Ψ fullShare (arrRef cfg.spec w) :=
    bigSep_congr fun w hw => by
      rw [hs w (Finset.ne_of_mem_erase hw) (Finset.ne_of_mem_erase (Finset.mem_of_mem_erase hw))]
  -- the buffers behind the arrays are those of the windows other than `w₂`, on which the array reference is injective
  have himage : Finset.univ.image (arrRef cfg.spec) = (Finset.univ.erase w₂).image (arrRef cfg.spec) := by
    ext b
    constructor
    · intro hb
      obtain ⟨w, -, rfl⟩ := Finset.mem_image.mp hb
      by_cases h : w = w₂
      · exact Finset.mem_image.mpr ⟨w₁, hw₁, by rw [h, h12]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  have hbufs : (arrBufs cfg.spec c V : sProp 𝕄) = bigSep (Finset.univ.erase w₂) fun w => Ψ fullShare (arrRef cfg.spec w) := by
    unfold arrBufs
    rw [himage]
    exact Finset.fold_image fun w hw w' hw' e =>
      hinj w w' (Finset.ne_of_mem_erase hw) (Finset.ne_of_mem_erase hw') e
  rw [harrays, hbufs, bigSep_univ_split w₂, bigSep_erase hw₁, bigSep_erase hw₁, hs₁, hs₂, hrest,
    ← Std.Associative.assoc (op := (BI.sep : sProp 𝕄 → sProp 𝕄 → sProp 𝕄))]
  exact congrArg (fun X : sProp 𝕄 => BI.sep X _) hhalves

end Cert.Lib.SharedPair

end
-- ==== Proof.K.Segs.lean ====
/-
  The three kernel regions as segments of the host program's run.

  Between two items of the host program a core holds every unscoped buffer whole, at the contents the run has reached,
  beside its generator register and an empty debt. A kernel region takes the buffers behind its windows' arrays out of
  that state — the array that two input windows read is dealt to them in halves — runs its pipeline, and puts the
  arrays back at their final contents: the inputs as entered, each output at what the write-backs left. Everything
  here is stated for ANY proof data whose arrays are read off the entry contents, whose two windows on the common
  array hold its left and right half, whose invariant is the class's (the scoped rest and the generator register) and
  which owes nothing; the kernels' own proof data are put in afterwards.
-/
import proofs.«117840_j78494822302010_2_alg».proof.Proof.Gen.Kernel.Regions
import proofs.«117840_j78494822302010_2_alg».proof.Proof.LibSharedPair
import Idealize.ShloMosaic.Lib.Pipeline.Cells
import Idealize.ShloMosaic.Lib.Pipeline.Frame
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers through every item: the core's generator register at some state and its debt, empty. -/
abbrev R (c : Dev nD) : sProp 𝕄 := iprop((∃ r, prngReg c r) ∗ ∃ W, owes (c : Thread nD τ) (0 : CellTallies nD τ sig Unit) W)

variable (d0 : (c : Dev nD) → Dat τ (Elt F) Unit ℕ (UR sig nD τ) ℕ cfg0 c)
  (d1 : (c : Dev nD) → Dat τ (Elt F) Unit ℕ (UR sig nD τ) ℕ cfg1 c)
  (d2 : (c : Dev nD) → Dat τ (Elt F) Unit ℕ (UR sig nD τ) ℕ cfg2 c)

/-- The three pipelines' proof data as one family: a literal match, so that the pinned configuration at a numeral
    reduces to the printed one. -/
def pdats : (p : Fin 3) → (c : Dev nD) → Dat τ (Elt F) Unit ℕ (UR sig nD τ) ℕ (Pipeline.pin (pcfgs (F := F)) adm p) c
  | ⟨0, _⟩ => fun c => d0 c
  | ⟨1, _⟩ => fun c => d1 c
  | ⟨2, _⟩ => fun c => d2 c

/-! ## Region 0 -/

section Region0

variable (Vin Vout : Dev nD → Valuation τ sig (Elt F))
  (hA : ∀ c w, (d0 c).A w = Vin c (Proc.devRef .tc (Pipeline.arrRef spec0 w)))
  (hq1 : ∀ c, (d0 c).q 1 = fullShare.left) (hq2 : ∀ c, (d0 c).q 2 = fullShare.right)
  (hq : ∀ c w, w ≠ 1 → w ≠ 2 → (d0 c).q w = fullShare)
  (hΦ : ∀ c t, (d0 c).Φ t = Pipeline.ΦA spec0 c)
  (howed : ∀ c t, (d0 c).owed t = 0)
  (hrec : ∀ c t, (d0 c).recorded t = Set.univ)
  (hbody : ∀ c, BodyObligation (d0 c) (defs₀ (F := F)) Variants.none () Set.univ)
  (hout : ∀ c w, (d0 c).arrAt w cfg0.N = Vout c (Proc.devRef .tc (Pipeline.arrRef spec0 w)))
  (hrest : ∀ c (b : Ref sig .tc), b ∉ Finset.univ.image (Pipeline.arrRef spec0) → Vout c (Proc.devRef .tc b) = Vin c (Proc.devRef .tc b))

include hq1 hq2 hq in
/-- The windows' arrays of region 0 at contents read off `V` are the distinct buffers behind them whole at `V`:
    windows 1 and 2 read one array, at its two halves. -/
theorem arrays0 (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    ((d0 c).arrays G : sProp 𝕄) = Pipeline.arrBufs spec0 c V :=
  Cert.Lib.SharedPair.arrays_eq_arrBufs (d0 c) arr_whole0 1 2 (by decide) (by decide) (by decide)
    (by unfold Dat.share; rw [if_neg (by decide)]; exact hq1 c)
    (by unfold Dat.share; rw [if_neg (by decide)]; exact hq2 c)
    (fun w h1 h2 => by unfold Dat.share; split; · rfl
                       · exact hq c w h1 h2)
    V G hG

include hA hq1 hq2 hq hΦ howed hrec hbody hout hrest in
set_option backward.isDefEq.respectTransparency.types false in
/-- REGION 0 over the thread state: entered from every unscoped buffer at `Vin`, left at `Vout`. Its arrays are
    taken out of the unscoped buffers and put back at the exit contents; the generator register goes into the class
    invariant and comes out; nothing is owed; the kernel has no semaphore of its own. -/
def reg0 : Pipeline.RegionSeg (pcfgs (F := F)) adm (pdats d0 d1 d2) () defs₀ Variants.none L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec0 c (fun b => Vin c (Proc.devRef .tc b))
  hentry c := by
    rw [Pipeline.ownSems0_none]
    have hsplit : (StableHlo.held (c : Thread nD τ) (Pipeline.ucRefs τ sig) (Vin c) : sProp 𝕄)
        ⊢ iprop((d0 c).arrays ((d0 c).arrAt · 0) ∗ Pipeline.unscopedRest spec0 c (fun b => Vin c (Proc.devRef .tc b))) := by
      rw [← Pipeline.unscopedBufs_held, Pipeline.unscopedBufs_split₀ cfgs 0 winFacts₀0.arr_unscoped c,
        arrays0 d0 hq1 hq2 hq c (fun b => Vin c (Proc.devRef .tc b)) ((d0 c).arrAt · 0) (fun w => hA c w)]
      exact .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 0 c).recorded 0 = Set.univ from hrec c 0]; trivial)
      rw [show (pdats d0 d1 d2 0 c).owed 0 = 0 from howed c 0]
      iexact HO
    isplitl [Hp]; · iexact Hp
    iexact Hrest
  hin c := by
    rw [show (pdats d0 d1 d2 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats d0 d1 d2 0 c).Φ (Fin.last _) = Pipeline.ΦA spec0 c from hΦ c _]; unfold Pipeline.ΦA
    iintro ⟨Hr, Hp⟩
    isplitl [Hp]; · iexact Hp
    isplitr; · iempintro
    iexact Hr
  hexit c := by
    have hjoin : (iprop((d0 c).arrays ((d0 c).arrAt · cfg0.N) ∗ Pipeline.unscopedRest spec0 c (fun b => Vin c (Proc.devRef .tc b))) : sProp 𝕄)
        ⊢ StableHlo.held (c : Thread nD τ) (Pipeline.ucRefs τ sig) (Vout c) := by
      rw [← Pipeline.unscopedBufs_held, Pipeline.unscopedBufs_split₀ cfgs 0 winFacts₀0.arr_unscoped c,
        arrays0 d0 hq1 hq2 hq c (fun b => Vout c (Proc.devRef .tc b)) ((d0 c).arrAt · cfg0.N) (fun w => hout c w)]
      refine sep_mono .rfl (Entails.of_eq ?_)
      unfold Pipeline.unscopedRest
      exact bigSep_congr fun b hb => by dsimp only; rw [hrest c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats d0 d1 d2 0 c).owed (Fin.last _) = 0 from howed c _]
    iexact HO

end Region0

/-! ## Region 1 -/

section Region1

variable (Vin Vout : Dev nD → Valuation τ sig (Elt F))
  (hA : ∀ c w, (d1 c).A w = Vin c (Proc.devRef .tc (Pipeline.arrRef spec1 w)))
  (hq1 : ∀ c, (d1 c).q 1 = fullShare.left) (hq2 : ∀ c, (d1 c).q 2 = fullShare.right)
  (hq : ∀ c w, w ≠ 1 → w ≠ 2 → (d1 c).q w = fullShare)
  (hΦ : ∀ c t, (d1 c).Φ t = Pipeline.ΦA spec1 c)
  (howed : ∀ c t, (d1 c).owed t = 0)
  (hrec : ∀ c t, (d1 c).recorded t = Set.univ)
  (hbody : ∀ c, BodyObligation (d1 c) (defs₀ (F := F)) Variants.none () Set.univ)
  (hout : ∀ c w, (d1 c).arrAt w cfg1.N = Vout c (Proc.devRef .tc (Pipeline.arrRef spec1 w)))
  (hrest : ∀ c (b : Ref sig .tc), b ∉ Finset.univ.image (Pipeline.arrRef spec1) → Vout c (Proc.devRef .tc b) = Vin c (Proc.devRef .tc b))

include hq1 hq2 hq in
/-- The windows' arrays of region 1 at contents read off `V` are the distinct buffers behind them whole at `V`:
    windows 1 and 2 read one array, at its two halves. -/
theorem arrays1 (c : Dev nD) (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    ((d1 c).arrays G : sProp 𝕄) = Pipeline.arrBufs spec1 c V :=
  Cert.Lib.SharedPair.arrays_eq_arrBufs (d1 c) arr_whole1 1 2 (by decide) (by decide) (by decide)
    (by unfold Dat.share; rw [if_neg (by decide)]; exact hq1 c)
    (by unfold Dat.share; rw [if_neg (by decide)]; exact hq2 c)
    (fun w h1 h2 => by unfold Dat.share; split; · rfl
                       · exact hq c w h1 h2)
    V G hG

include hA hq1 hq2 hq hΦ howed hrec hbody hout hrest in
set_option backward.isDefEq.respectTransparency.types false in
/-- REGION 1 over the thread state: entered from every unscoped buffer at `Vin`, left at `Vout`. Its arrays are
    taken out of the unscoped buffers and put back at the exit contents; the generator register goes into the class
    invariant and comes out; nothing is owed; the kernel has no semaphore of its own. -/
def reg1 : Pipeline.RegionSeg (pcfgs (F := F)) adm (pdats d0 d1 d2) () defs₀ Variants.none L lv 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ L lv 1 fun c t => howed c t
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec1 c (fun b => Vin c (Proc.devRef .tc b))
  hentry c := by
    rw [Pipeline.ownSems0_none]
    have hsplit : (StableHlo.held (c : Thread nD τ) (Pipeline.ucRefs τ sig) (Vin c) : sProp 𝕄)
        ⊢ iprop((d1 c).arrays ((d1 c).arrAt · 0) ∗ Pipeline.unscopedRest spec1 c (fun b => Vin c (Proc.devRef .tc b))) := by
      rw [← Pipeline.unscopedBufs_held, Pipeline.unscopedBufs_split₀ cfgs 1 winFacts₀1.arr_unscoped c,
        arrays1 d1 hq1 hq2 hq c (fun b => Vin c (Proc.devRef .tc b)) ((d1 c).arrAt · 0) (fun w => hA c w)]
      exact .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 1 c).recorded 0 = Set.univ from hrec c 0]; trivial)
      rw [show (pdats d0 d1 d2 1 c).owed 0 = 0 from howed c 0]
      iexact HO
    isplitl [Hp]; · iexact Hp
    iexact Hrest
  hin c := by
    rw [show (pdats d0 d1 d2 1 c).Φ 0 = Pipeline.ΦA spec1 c from hΦ c 0]; unfold Pipeline.ΦA
    iintro ⟨Hp, -, Hr⟩
    isplitl [Hr]; · iexact Hr
    iexact Hp
  hout c := by
    rw [Pipeline.ownSems0_none, show (pdats d0 d1 d2 1 c).Φ (Fin.last _) = Pipeline.ΦA spec1 c from hΦ c _]; unfold Pipeline.ΦA
    iintro ⟨Hr, Hp⟩
    isplitl [Hp]; · iexact Hp
    isplitr; · iempintro
    iexact Hr
  hexit c := by
    have hjoin : (iprop((d1 c).arrays ((d1 c).arrAt · cfg1.N) ∗ Pipeline.unscopedRest spec1 c (fun b => Vin c (Proc.devRef .tc b))) : sProp 𝕄)
        ⊢ StableHlo.held (c : Thread nD τ) (Pipeline.ucRefs τ sig) (Vout c) := by
      rw [← Pipeline.unscopedBufs_held, Pipeline.unscopedBufs_split₀ cfgs 1 winFacts₀1.arr_unscoped c,
        arrays1 d1 hq1 hq2 hq c (fun b => Vout c (Proc.devRef .tc b)) ((d1 c).arrAt · cfg1.N) (fun w => hout c w)]
      refine sep_mono .rfl (Entails.of_eq ?_)
      unfold Pipeline.unscopedRest
      exact bigSep_congr fun b hb => by dsimp only; rw [hrest c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats d0 d1 d2 1 c).owed (Fin.last _) = 0 from howed c _]
    iexact HO

end Region1

/-! ## Region 2 -/

section Region2

variable (Vin Vout : Dev nD → Valuation τ sig (Elt F))
  (hA : ∀ c w, (d2 c).A w = Vin c (Proc.devRef .tc (Pipeline.arrRef spec2 w)))
  (hq1 : ∀ c, (d2 c).q 1 = fullShare.left) (hq2 : ∀ c, (d2 c).q 2 = fullShare.right)
  (hq : ∀ c w, w ≠ 1 → w ≠ 2 → (d2 c).q w = fullShare)
  (hΦ : ∀ c t, (d2 c).Φ t = Pipeline.ΦA spec2 c)
  (howed : ∀ c t, (d2 c).owed t = 0)
  (hrec : ∀ c t, (d2 c).recorded t = Set.univ)
  (hbody : ∀ c, BodyObligation (d2 c) (defs₀ (F := F)) Variants.none () Set.univ)
  (hout : ∀ c w, (d2 c).arrAt w cfg2.N = Vout c (Proc.devRef .tc (Pipeline.arrRef spec2 w)))
  (hrest : ∀ c (b : Ref sig .tc), b ∉ Finset.univ.image (Pipeline.arrRef spec2) → Vout c (Proc.devRef .tc b) = Vin c (Proc.devRef .tc b))

include hq1 hq2 hq in
/-- The windows' arrays of region 2 at contents read off `V` are the distinct buffers behind them whole at `V`:
    windows 1 and 2 read one array, at its two halves. -/
theorem arrays2 (c : Dev nD) (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    ((d2 c).arrays G : sProp 𝕄) = Pipeline.arrBufs spec2 c V :=
  Cert.Lib.SharedPair.arrays_eq_arrBufs (d2 c) arr_whole2 1 2 (by decide) (by decide) (by decide)
    (by unfold Dat.share; rw [if_neg (by decide)]; exact hq1 c)
    (by unfold Dat.share; rw [if_neg (by decide)]; exact hq2 c)
    (fun w h1 h2 => by unfold Dat.share; split; · rfl
                       · exact hq c w h1 h2)
    V G hG

include hA hq1 hq2 hq hΦ howed hrec hbody hout hrest in
set_option backward.isDefEq.respectTransparency.types false in
/-- REGION 2 over the thread state: entered from every unscoped buffer at `Vin`, left at `Vout`. Its arrays are
    taken out of the unscoped buffers and put back at the exit contents; the generator register goes into the class
    invariant and comes out; nothing is owed; the kernel has no semaphore of its own. -/
def reg2 : Pipeline.RegionSeg (pcfgs (F := F)) adm (pdats d0 d1 d2) () defs₀ Variants.none L lv 2 where
  win := winFacts₀2
  block_pos := block_pos2
  stage_whole := stage_whole2
  K := PEmpty
  osem k := k.elim
  ho := Pipeline.OwnSemFacts.none _
  hbody c := (hbody c).loose
  hwaits := Pipeline.hwaits_of_owed_zero _ _ _ _ L lv 2 fun c t => howed c t
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec2 c (fun b => Vin c (Proc.devRef .tc b))
  hentry c := by
    rw [Pipeline.ownSems0_none]
    have hsplit : (StableHlo.held (c : Thread nD τ) (Pipeline.ucRefs τ sig) (Vin c) : sProp 𝕄)
        ⊢ iprop((d2 c).arrays ((d2 c).arrAt · 0) ∗ Pipeline.unscopedRest spec2 c (fun b => Vin c (Proc.devRef .tc b))) := by
      rw [← Pipeline.unscopedBufs_held, Pipeline.unscopedBufs_split₀ cfgs 2 winFacts₀2.arr_unscoped c,
        arrays2 d2 hq1 hq2 hq c (fun b => Vin c (Proc.devRef .tc b)) ((d2 c).arrAt · 0) (fun w => hA c w)]
      exact .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 2 c).recorded 0 = Set.univ from hrec c 0]; trivial)
      rw [show (pdats d0 d1 d2 2 c).owed 0 = 0 from howed c 0]
      iexact HO
    isplitl [Hp]; · iexact Hp
    iexact Hrest
  hin c := by
    rw [show (pdats d0 d1 d2 2 c).Φ 0 = Pipeline.ΦA spec2 c from hΦ c 0]; unfold Pipeline.ΦA
    iintro ⟨Hp, -, Hr⟩
    isplitl [Hr]; · iexact Hr
    iexact Hp
  hout c := by
    rw [Pipeline.ownSems0_none, show (pdats d0 d1 d2 2 c).Φ (Fin.last _) = Pipeline.ΦA spec2 c from hΦ c _]; unfold Pipeline.ΦA
    iintro ⟨Hr, Hp⟩
    isplitl [Hp]; · iexact Hp
    isplitr; · iempintro
    iexact Hr
  hexit c := by
    have hjoin : (iprop((d2 c).arrays ((d2 c).arrAt · cfg2.N) ∗ Pipeline.unscopedRest spec2 c (fun b => Vin c (Proc.devRef .tc b))) : sProp 𝕄)
        ⊢ StableHlo.held (c : Thread nD τ) (Pipeline.ucRefs τ sig) (Vout c) := by
      rw [← Pipeline.unscopedBufs_held, Pipeline.unscopedBufs_split₀ cfgs 2 winFacts₀2.arr_unscoped c,
        arrays2 d2 hq1 hq2 hq c (fun b => Vout c (Proc.devRef .tc b)) ((d2 c).arrAt · cfg2.N) (fun w => hout c w)]
      refine sep_mono .rfl (Entails.of_eq ?_)
      unfold Pipeline.unscopedRest
      exact bigSep_congr fun b hb => by dsimp only; rw [hrest c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats d0 d1 d2 2 c).owed (Fin.last _) = 0 from howed c _]
    iexact HO

end Region2

end Cert.Kernel.Hand

end
-- ==== Proof.K.Run.lean ====
/-
  The run of the host program around its three kernel regions, read at EVERY unscoped buffer.

  The frame claim asks only that the nine argument arrays end as launched; the value claim also needs the result. Both
  are readings of one fact: after the last item every unscoped buffer of a core holds the last valuation of the fold
  (launch contents, each host stretch applied, each region's output arrays replaced). This module states that fact,
  given one segment record per region entered from and left at the fold's valuations.
-/
import proofs.«117840_j78494822302010_2_alg».proof.Proof.Gen.Kernel.Regions
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- the rule for a chain of host stretches and kernel regions is applied by matching its conclusion against this
-- statement; the match has to see through plain definitions in the types of the rule's own parameters
set_option backward.isDefEq.respectTransparency.types false in
/-- Given, per region, a segment record entered from the fold's valuation before it and left at the one after it,
    every weakly fair execution of the host program from memory `m` with zero counters terminates, and in every
    final memory each unscoped buffer of each core holds the fold's last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, .rfl, .rfl, sep_mono .rfl (hE3 c)⟩)
    (hinit := ?_) (QY := fun c s => ∀ b ∈ Pipeline.ucRefs τ sig, s.mem (((c : Thread nD τ)).1, b) = V9 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V9 m outs c) s')
    isplitl [Hh] <;> iassumption

end Cert.Kernel.Hand

end
-- ==== Proof.K.Dat0.lean ====
/-
  Region 0 (the first graph-convolution layer): the blocks its nine windows show the body at a grid point, what
  the body leaves in its two output windows as a closed function of the seven input blocks, and the proof data of
  the pipeline built from them. Windows 1 and 2 are two views of ONE array (the whole batch slice and a row tile
  of it), so each holds half of that array's share; every other window holds a full share.
-/
import proofs.«117840_j78494822302010_2_alg».proof.Proof.Gen.Kernel.Launch
import proofs.«117840_j78494822302010_2_alg».proof.Proof.Gen.Kernel.Skeleton
import proofs.«117840_j78494822302010_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store goes through the whole of its buffer -/

abbrev rA0 : Rect S1x256x4096 := Rect.unit (s := S1x256x4096) ![0, 0, 0] S1x256x4096.size inb_S1x256x4096_S1x256x4096_0_0_0
abbrev rE0 : Rect S1x4096x64 := Rect.unit (s := S1x4096x64) ![0, 0, 0] S1x4096x64.size inb_S1x4096x64_S1x4096x64_0_0_0
abbrev rT0 : Rect S1x256x64 := Rect.unit (s := S1x256x64) ![0, 0, 0] S1x256x64.size inb_S1x256x64_S1x256x64_0_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves in each output window's buffer -/

/-- Window 8 (the adjacency tile rounded to bf16) after the body: its one store, of the rounded tile, over the
    whole buffer. It depends on the adjacency tile alone. -/
def out0_8 (x0 : Vec F S1x256x4096 .f32) : Vec F S1x256x4096 .bf16 :=
  View.canon [⟨rA0, k0_pay3 (View.ld x0 rA0)⟩]

/-- Window 7 (the layer's output rows) after the body: its one store over the whole buffer, of the sum of two
    activated affine maps — one of the aggregated rows, one of their entrywise product with the row tile — a
    function of all seven input blocks: the adjacency tile `x0`, the whole embedding slice `x1`, its row tile
    `x2`, and the two weight matrices and two biases `x3 … x6`. -/
def out0_7 (x0 : Vec F S1x256x4096 .f32) (x1 : Vec F S1x4096x64 .f32) (x2 : Vec F S1x256x64 .f32)
    (x3 : Vec F S64x64 .f32) (x4 : Vec F S1x64 .f32) (x5 : Vec F S64x64 .f32) (x6 : Vec F S1x64 .f32) : Vec F S1x256x64 .f32 :=
  View.canon [⟨rT0, k0_pay1 (k0_pay5 (View.ld x5 rW0)) (k0_pay6 (View.ld x6 rB0))
    (k0_pay7 (View.ld x0 rA0) (View.ld x1 rE0) (View.ld x3 rW0) (View.ld x4 rB0))
    (k0_pay8 (View.ld x0 rA0) (View.ld x1 rE0) (View.ld x2 rT0))⟩]

/-! ## The pipeline's proof data -/

/-- The proof data of pipeline 0 on core `c`: the arrays as the region finds them; after the body at point `t`
    each input's buffer at its block and each output's at `out0_W` of the input blocks; the invariant "the scoped
    rest and the generator register, untouched"; nothing owed. Windows 1 and 2 read one array: the left and the
    right half of its share; the other windows hold full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by
  dsimp only [dat0]
theorem after0_8 (c : Dev nD) (t : Fin cfg0.N) : (dat0 V c).after 8 t = out0_8 (iblk0 V c 0 t) := by dsimp only [dat0]

end Cert.Kernel.Hand

end
-- ==== Proof.K.Dat1.lean ====
/- Region 1 of @main (custom_call 1, the second-kind graph-convolution layer kernel on an 8×8 grid, eight windows,
   one output): the proof data of its pipeline at a PARAMETER `V`, the TensorCore's buffer contents when the
   region is entered. Each input window's block at a point is read off its array as the region finds it; the output
   window's buffer after the body is the one whole-buffer store's value over the loaded input blocks; windows 1 and 2
   read one array and hold one half of it each. -/
import proofs.«117840_j78494822302010_2_alg».proof.Proof.Gen.Kernel.Launch
import proofs.«117840_j78494822302010_2_alg».proof.Proof.Gen.Kernel.Skeleton
import proofs.«117840_j78494822302010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 1 of @main: custom_call 1, `cc1_layer_bf16_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store go through the whole of a staging buffer -/

/-- The whole of the adjacency tile's buffer (window 0). -/
abbrev r1_0 : Rect S1x512x4096 := Rect.unit (s := S1x512x4096) ![0, 0, 0] S1x512x4096.size inb_S1x512x4096_S1x512x4096_0_0_0
/-- The whole of the batch block's buffer (window 1). -/
abbrev r1_1 : Rect S1x4096x64 := Rect.unit (s := S1x4096x64) ![0, 0, 0] S1x4096x64.size inb_S1x4096x64_S1x4096x64_0_0_0
/-- The whole of a row tile's buffer (windows 2 and 7). -/
abbrev r1_2 : Rect S1x512x64 := Rect.unit (s := S1x512x64) ![0, 0, 0] S1x512x64.size inb_S1x512x64_S1x512x64_0_0_0
/-- The whole of a weight matrix's buffer (windows 3 and 5). -/
abbrev r1_3 : Rect S64x64 := Rect.unit (s := S64x64) ![0, 0] S64x64.size inb_S64x64_S64x64_0_0
/-- The whole of a bias row's buffer (windows 4 and 6). -/
abbrev r1_4 : Rect S1x64 := Rect.unit (s := S1x64) ![0, 0] S1x64.size inb_S1x64_S1x64_0_0

/-! ## What the body leaves in the output window's buffer -/

/-- Window 7's staging buffer after the body, from the seven input windows' blocks (in window order): its one
    store, through the whole buffer, of the layer's value — the sum of the two activated branches, each a
    product with a weight matrix plus a bias row — over what the loads read of the inputs. -/
def out1_7 (x0 : Vec F S1x512x4096 .bf16) (x1 : Vec F S1x4096x64 .f32) (x2 : Vec F S1x512x64 .f32)
    (x3 : Vec F S64x64 .f32) (x4 : Vec F S1x64 .f32) (x5 : Vec F S64x64 .f32) (x6 : Vec F S1x64 .f32) :
    Vec F S1x512x64 .f32 :=
  View.canon [⟨r1_2, k1_pay1
    (k1_pay3 (View.ld x0 r1_0) (View.ld x1 r1_1) (View.ld x3 r1_3) (View.ld x4 r1_4))
    (k1_pay4 (View.ld x0 r1_0) (View.ld x1 r1_1) (View.ld x2 r1_2) (View.ld x5 r1_3) (View.ld x6 r1_4))
    (k1_pay5 (View.ld x0 r1_0) (View.ld x1 r1_1) (View.ld x2 r1_2) (View.ld x5 r1_3) (View.ld x6 r1_4))
    (Scalar.ofBits .f32 0x3C23D70A#32)⟩]

/-! ## The pipeline's proof data -/

/-- The proof data of pipeline 1 on core `c`: the arrays as the region finds them (`V`); after the body at
    point `t` each input's buffer at its block and the output's at `out1_7` of the input blocks; the
    invariant the scoped rest and the generator register, untouched; nothing owed. Windows 1 and 2 read ONE
    array, so each holds one half of it; every other input is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => fullShare.left
    | ⟨2, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

end Cert.Kernel.Hand

end
-- ==== Proof.K.Dat2.lean ====
/- Region 2 of @main (custom_call 2, the second-kind graph-convolution layer kernel on an 8×8 grid, eight windows,
   one output): the proof data of its pipeline at a PARAMETER `V`, the TensorCore's buffer contents when the
   region is entered. Each input window's block at a point is read off its array as the region finds it; the output
   window's buffer after the body is the one whole-buffer store's value over the loaded input blocks; windows 1 and 2
   read one array and hold one half of it each. -/
import proofs.«117840_j78494822302010_2_alg».proof.Proof.Gen.Kernel.Launch
import proofs.«117840_j78494822302010_2_alg».proof.Proof.Gen.Kernel.Skeleton
import proofs.«117840_j78494822302010_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2 of @main: custom_call 2, `cc2_layer_bf16_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store go through the whole of a staging buffer -/

/-- The whole of the adjacency tile's buffer (window 0). -/
abbrev r2_0 : Rect S1x512x4096 := Rect.unit (s := S1x512x4096) ![0, 0, 0] S1x512x4096.size inb_S1x512x4096_S1x512x4096_0_0_0
/-- The whole of the batch block's buffer (window 1). -/
abbrev r2_1 : Rect S1x4096x64 := Rect.unit (s := S1x4096x64) ![0, 0, 0] S1x4096x64.size inb_S1x4096x64_S1x4096x64_0_0_0
/-- The whole of a row tile's buffer (windows 2 and 7). -/
abbrev r2_2 : Rect S1x512x64 := Rect.unit (s := S1x512x64) ![0, 0, 0] S1x512x64.size inb_S1x512x64_S1x512x64_0_0_0
/-- The whole of a weight matrix's buffer (windows 3 and 5). -/
abbrev r2_3 : Rect S64x64 := Rect.unit (s := S64x64) ![0, 0] S64x64.size inb_S64x64_S64x64_0_0
/-- The whole of a bias row's buffer (windows 4 and 6). -/
abbrev r2_4 : Rect S1x64 := Rect.unit (s := S1x64) ![0, 0] S1x64.size inb_S1x64_S1x64_0_0

/-! ## What the body leaves in the output window's buffer -/

/-- Window 7's staging buffer after the body, from the seven input windows' blocks (in window order): its one
    store, through the whole buffer, of the layer's value — the sum of the two activated branches, each a
    product with a weight matrix plus a bias row — over what the loads read of the inputs. -/
def out2_7 (x0 : Vec F S1x512x4096 .bf16) (x1 : Vec F S1x4096x64 .f32) (x2 : Vec F S1x512x64 .f32)
    (x3 : Vec F S64x64 .f32) (x4 : Vec F S1x64 .f32) (x5 : Vec F S64x64 .f32) (x6 : Vec F S1x64 .f32) :
    Vec F S1x512x64 .f32 :=
  View.canon [⟨r2_2, k2_pay1
    (k2_pay3 (View.ld x0 r2_0) (View.ld x1 r2_1) (View.ld x3 r2_3) (View.ld x4 r2_4))
    (k2_pay4 (View.ld x0 r2_0) (View.ld x1 r2_1) (View.ld x2 r2_2) (View.ld x5 r2_3) (View.ld x6 r2_4))
    (k2_pay5 (View.ld x0 r2_0) (View.ld x1 r2_1) (View.ld x2 r2_2) (View.ld x5 r2_3) (View.ld x6 r2_4))
    (Scalar.ofBits .f32 0x3C23D70A#32)⟩]

/-! ## The pipeline's proof data -/

/-- The proof data of pipeline 2 on core `c`: the arrays as the region finds them (`V`); after the body at
    point `t` each input's buffer at its block and the output's at `out2_7` of the input blocks; the
    invariant the scoped rest and the generator register, untouched; nothing owed. Windows 1 and 2 read ONE
    array, so each holds one half of it; every other input is held outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by
  dsimp only [dat2]

end Cert.Kernel.Hand

end
-- ==== Proof.K.Frame.lean ====
/-
  The run of the idealized kernel program, from the three kernels' body obligations.

  The fold of buffer contents through the host program: the launch memory; the host operations before the first
  region; the first region's two output arrays (the new node embeddings and the narrowed adjacency) at what its
  write-backs leave; the next host operations; the second region's output; the third's; the closing host operations.
  Each region's proof data are taken at the contents the fold has reached when the region is entered. Every input
  array of a region is left as entered, so a region changes only its outputs' buffers, and the segment records of the
  three regions chain from one valuation of the fold to the next.
-/
import proofs.«117840_j78494822302010_2_alg».proof.Proof.K.Segs
import proofs.«117840_j78494822302010_2_alg».proof.Proof.K.Run
import proofs.«117840_j78494822302010_2_alg».proof.Proof.K.Dat0
import proofs.«117840_j78494822302010_2_alg».proof.Proof.K.Dat1
import proofs.«117840_j78494822302010_2_alg».proof.Proof.K.Dat2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev Vr (W : Dev nD → Valuation τ sig (Elt F)) : (c : Dev nD) → (b : Ref sig .tc) → Buf (Elt F) ((c : Thread nD τ).loc b) :=
  fun c b => W c (Proc.devRef .tc b)

/-! ## What the regions leave, as the unknowns of the generated fold -/

/-- The contents the regions leave in the four buffers they write, everything else as launched. -/
def mkOuts (a : (c : Dev nD) → Buf (Elt F) ((c : Thread nD τ).loc main_v27_0)) (b : (c : Dev nD) → Buf (Elt F) ((c : Thread nD τ).loc main_v27_1))
    (d : (c : Dev nD) → Buf (Elt F) ((c : Thread nD τ).loc main_v36)) (e : (c : Dev nD) → Buf (Elt F) ((c : Thread nD τ).loc main_v45)) : Outs (F := F) :=
  fun _ r c =>
    if h : r = main_v27_0 then h ▸ a c else if h : r = main_v27_1 then h ▸ b c
    else if h : r = main_v36 then h ▸ d c else if h : r = main_v45 then h ▸ e c else m ((c : Thread nD τ).loc r)

variable (a : (c : Dev nD) → Buf (Elt F) ((c : Thread nD τ).loc main_v27_0)) (b : (c : Dev nD) → Buf (Elt F) ((c : Thread nD τ).loc main_v27_1))
    (d : (c : Dev nD) → Buf (Elt F) ((c : Thread nD τ).loc main_v36)) (e : (c : Dev nD) → Buf (Elt F) ((c : Thread nD τ).loc main_v45))

theorem mkOuts_v27_0 (j : ℕ) (c : Dev nD) : mkOuts m a b d e j main_v27_0 c = a c := by
  unfold mkOuts; rw [dif_pos rfl]
theorem mkOuts_v27_1 (j : ℕ) (c : Dev nD) : mkOuts m a b d e j main_v27_1 c = b c := by
  unfold mkOuts; rw [dif_neg (by decide), dif_pos rfl]
theorem mkOuts_v36 (j : ℕ) (c : Dev nD) : mkOuts m a b d e j main_v36 c = d c := by
  unfold mkOuts; rw [dif_neg (by decide), dif_neg (by decide), dif_pos rfl]
theorem mkOuts_v45 (j : ℕ) (c : Dev nD) : mkOuts m a b d e j main_v45 c = e c := by
  unfold mkOuts; rw [dif_neg (by decide), dif_neg (by decide), dif_neg (by decide), dif_pos rfl]

/-- The fold before the second region does not read what the later regions leave. -/
theorem V3_mkOuts (d' : (c : Dev nD) → Buf (Elt F) ((c : Thread nD τ).loc main_v36)) (e' : (c : Dev nD) → Buf (Elt F) ((c : Thread nD τ).loc main_v45)) (c : Dev nD) :
    V3 m (mkOuts m a b d e) c = V3 m (mkOuts m a b d' e') c := by
  simp only [V3, V2, mkOuts_v27_0, mkOuts_v27_1]
/-- The fold before the third region does not read what that region leaves. -/
theorem V5_mkOuts (e' : (c : Dev nD) → Buf (Elt F) ((c : Thread nD τ).loc main_v45)) (c : Dev nD) :
    V5 m (mkOuts m a b d e) c = V5 m (mkOuts m a b d e') c := by
  simp only [V5, V4, V3, V2, mkOuts_v27_0, mkOuts_v27_1, mkOuts_v36]

/-! ## The regions' proof data along the fold -/

/-- Region 0's proof data, at the contents after the first host stretch. -/
def D0 (c : Dev nD) : Dat τ (Elt F) Unit ℕ (UR sig nD τ) ℕ cfg0 c := dat0 (Vr (V1 m)) c
/-- What region 0 leaves in its two output arrays. -/
def a0 (c : Dev nD) : Buf (Elt F) ((c : Thread nD τ).loc main_v27_0) := (D0 m c).arrAt 7 cfg0.N
def b0 (c : Dev nD) : Buf (Elt F) ((c : Thread nD τ).loc main_v27_1) := (D0 m c).arrAt 8 cfg0.N
/-- The launch contents of the two later outputs: placeholders the fold never reads before the region that writes them. -/
abbrev j36 (c : Dev nD) : Buf (Elt F) ((c : Thread nD τ).loc main_v36) := m ((c : Thread nD τ).loc main_v36)
abbrev j45 (c : Dev nD) : Buf (Elt F) ((c : Thread nD τ).loc main_v45) := m ((c : Thread nD τ).loc main_v45)
abbrev outsA : Outs (F := F) := mkOuts m (a0 m) (b0 m) (j36 m) (j45 m)
/-- Region 1's proof data, at the contents after region 0 and the second host stretch. -/
def D1 (c : Dev nD) : Dat τ (Elt F) Unit ℕ (UR sig nD τ) ℕ cfg1 c := dat1 (Vr (V3 m (outsA m))) c
def x36 (c : Dev nD) : Buf (Elt F) ((c : Thread nD τ).loc main_v36) := (D1 m c).arrAt 7 cfg1.N
abbrev outsB : Outs (F := F) := mkOuts m (a0 m) (b0 m) (x36 m) (j45 m)
/-- Region 2's proof data, at the contents after region 1 and the third host stretch. -/
def D2 (c : Dev nD) : Dat τ (Elt F) Unit ℕ (UR sig nD τ) ℕ cfg2 c := dat2 (Vr (V5 m (outsB m))) c
def x45 (c : Dev nD) : Buf (Elt F) ((c : Thread nD τ).loc main_v45) := (D2 m c).arrAt 7 cfg2.N
/-- What the three regions leave: the unknowns of the generated fold, named. -/
abbrev outs : Outs (F := F) := mkOuts m (a0 m) (b0 m) (x36 m) (x45 m)

theorem V3_outs (c : Dev nD) : V3 m (outs m) c = V3 m (outsA m) c := V3_mkOuts m _ _ _ _ _ _ c
theorem V5_outs (c : Dev nD) : V5 m (outs m) c = V5 m (outsB m) c := V5_mkOuts m _ _ _ _ _ c

/-! ## The valuations after each region, at the buffers the region may change -/

theorem V2_v27_0 (o : Outs (F := F)) (c : Dev nD) : V2 m o c (Proc.devRef .tc main_v27_0) = o 2 main_v27_0 c := by
  simp only [V2]
  rw [Function.update_of_ne (StableHlo.devRef_ne_of_ne (by decide)), Function.update_self]
theorem V2_v27_1 (o : Outs (F := F)) (c : Dev nD) : V2 m o c (Proc.devRef .tc main_v27_1) = o 2 main_v27_1 c := by
  simp only [V2]
  rw [Function.update_self]
theorem V4_v36 (o : Outs (F := F)) (c : Dev nD) : V4 m o c (Proc.devRef .tc main_v36) = o 4 main_v36 c := by
  simp only [V4]
  rw [Function.update_self]
theorem V6_v45 (o : Outs (F := F)) (c : Dev nD) : V6 m o c (Proc.devRef .tc main_v45) = o 6 main_v45 c := by
  simp only [V6]
  rw [Function.update_self]

/-! ## Each region's arrays at its exit -/

/-- Region 0 leaves its seven input arrays as entered and its two outputs at what the write-backs left. -/
theorem exit0 (c : Dev nD) (w : Fin cfg0.W) :
    (D0 m c).arrAt w cfg0.N = V2 m (outs m) c (Proc.devRef .tc (Pipeline.arrRef spec0 w)) := by
  have hin : ∀ w : Fin cfg0.W, (cfg0.win w).isOut = false → Pipeline.arrRef spec0 w ∉ ([main_v27_0, main_v27_1] : List (Ref sig .tc)) →
      (D0 m c).arrAt w cfg0.N = V2 m (outs m) c (Proc.devRef .tc (Pipeline.arrRef spec0 w)) := fun w hw hn => by
    rw [(D0 m c).arrAt_in w hw, V2_of m (outs m) c _ hn]; rfl
  match w with
  | ⟨0, _⟩ => exact hin _ rfl (by decide +revert)
  | ⟨1, _⟩ => exact hin _ rfl (by decide +revert)
  | ⟨2, _⟩ => exact hin _ rfl (by decide +revert)
  | ⟨3, _⟩ => exact hin _ rfl (by decide +revert)
  | ⟨4, _⟩ => exact hin _ rfl (by decide +revert)
  | ⟨5, _⟩ => exact hin _ rfl (by decide +revert)
  | ⟨6, _⟩ => exact hin _ rfl (by decide +revert)
  | ⟨7, _⟩ => exact ((V2_v27_0 m (outs m) c).trans (mkOuts_v27_0 m _ _ _ _ 2 c)).symm
  | ⟨8, _⟩ => exact ((V2_v27_1 m (outs m) c).trans (mkOuts_v27_1 m _ _ _ _ 2 c)).symm

theorem rest0 (c : Dev nD) (b : Ref sig .tc) (hb : b ∉ Finset.univ.image (Pipeline.arrRef spec0)) :
    V2 m (outs m) c (Proc.devRef .tc b) = V1 m c (Proc.devRef .tc b) :=
  V2_of m (outs m) c b fun hmem => by
    rcases List.mem_cons.mp hmem with rfl | hmem
    · exact hb (Finset.mem_image.mpr ⟨7, Finset.mem_univ _, rfl⟩)
    · rcases List.mem_cons.mp hmem with rfl | hmem
      · exact hb (Finset.mem_image.mpr ⟨8, Finset.mem_univ _, rfl⟩)
      · exact absurd hmem (List.not_mem_nil)

theorem entry1 (c : Dev nD) (w : Fin cfg1.W) : (D1 m c).A w = V3 m (outs m) c (Proc.devRef .tc (Pipeline.arrRef spec1 w)) := by
  rw [V3_outs]; exact A_eq1 _ c w

theorem exit1 (c : Dev nD) (w : Fin cfg1.W) :
    (D1 m c).arrAt w cfg1.N = V4 m (outs m) c (Proc.devRef .tc (Pipeline.arrRef spec1 w)) := by
  have hin : ∀ w : Fin cfg1.W, (cfg1.win w).isOut = false → Pipeline.arrRef spec1 w ∉ ([main_v36] : List (Ref sig .tc)) →
      (D1 m c).arrAt w cfg1.N = V4 m (outs m) c (Proc.devRef .tc (Pipeline.arrRef spec1 w)) := fun w hw hn => by
    rw [(D1 m c).arrAt_in w hw, V4_of m (outs m) c _ hn]; exact entry1 m c w
  match w with
  | ⟨0, _⟩ => exact hin _ rfl (by decide +revert)
  | ⟨1, _⟩ => exact hin _ rfl (by decide +revert)
  | ⟨2, _⟩ => exact hin _ rfl (by decide +revert)
  | ⟨3, _⟩ => exact hin _ rfl (by decide +revert)
  | ⟨4, _⟩ => exact hin _ rfl (by decide +revert)
  | ⟨5, _⟩ => exact hin _ rfl (by decide +revert)
  | ⟨6, _⟩ => exact hin _ rfl (by decide +revert)
  | ⟨7, _⟩ => exact ((V4_v36 m (outs m) c).trans (mkOuts_v36 m _ _ _ _ 4 c)).symm

theorem rest1 (c : Dev nD) (b : Ref sig .tc) (hb : b ∉ Finset.univ.image (Pipeline.arrRef spec1)) :
    V4 m (outs m) c (Proc.devRef .tc b) = V3 m (outs m) c (Proc.devRef .tc b) :=
  V4_of m (outs m) c b fun hmem => by
    rcases List.mem_cons.mp hmem with rfl | hmem
    · exact hb (Finset.mem_image.mpr ⟨7, Finset.mem_univ _, rfl⟩)
    · exact absurd hmem (List.not_mem_nil)

theorem entry2 (c : Dev nD) (w : Fin cfg2.W) : (D2 m c).A w = V5 m (outs m) c (Proc.devRef .tc (Pipeline.arrRef spec2 w)) := by
  rw [V5_outs]; exact A_eq2 _ c w

theorem exit2 (c : Dev nD) (w : Fin cfg2.W) :
    (D2 m c).arrAt w cfg2.N = V6 m (outs m) c (Proc.devRef .tc (Pipeline.arrRef spec2 w)) := by
  have hin : ∀ w : Fin cfg2.W, (cfg2.win w).isOut = false → Pipeline.arrRef spec2 w ∉ ([main_v45] : List (Ref sig .tc)) →
      (D2 m c).arrAt w cfg2.N = V6 m (outs m) c (Proc.devRef .tc (Pipeline.arrRef spec2 w)) := fun w hw hn => by
    rw [(D2 m c).arrAt_in w hw, V6_of m (outs m) c _ hn]; exact entry2 m c w
  match w with
  | ⟨0, _⟩ => exact hin _ rfl (by decide +revert)
  | ⟨1, _⟩ => exact hin _ rfl (by decide +revert)
  | ⟨2, _⟩ => exact hin _ rfl (by decide +revert)
  | ⟨3, _⟩ => exact hin _ rfl (by decide +revert)
  | ⟨4, _⟩ => exact hin _ rfl (by decide +revert)
  | ⟨5, _⟩ => exact hin _ rfl (by decide +revert)
  | ⟨6, _⟩ => exact hin _ rfl (by decide +revert)
  | ⟨7, _⟩ => exact ((V6_v45 m (outs m) c).trans (mkOuts_v45 m _ _ _ _ 6 c)).symm

theorem rest2 (c : Dev nD) (b : Ref sig .tc) (hb : b ∉ Finset.univ.image (Pipeline.arrRef spec2)) :
    V6 m (outs m) c (Proc.devRef .tc b) = V5 m (outs m) c (Proc.devRef .tc b) :=
  V6_of m (outs m) c b fun hmem => by
    rcases List.mem_cons.mp hmem with rfl | hmem
    · exact hb (Finset.mem_image.mpr ⟨7, Finset.mem_univ _, rfl⟩)
    · exact absurd hmem (List.not_mem_nil)

/-! ## The shares of the two windows on the common array -/

theorem q0 (c : Dev nD) (w : Fin cfg0.W) (h1 : w ≠ 1) (h2 : w ≠ 2) : (D0 m c).q w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
theorem q1 (c : Dev nD) (w : Fin cfg1.W) (h1 : w ≠ 1) (h2 : w ≠ 2) : (D1 m c).q w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl
  | ⟨5, _⟩, _, _ => rfl
  | ⟨6, _⟩, _, _ => rfl
  | ⟨7, _⟩, _, _ => rfl
theorem q2 (c : Dev nD) (w : Fin cfg2.W) (h1 : w ≠ 1) (h2 : w ≠ 2) : (D2 m c).q w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl
  | ⟨5, _⟩, _, _ => rfl
  | ⟨6, _⟩, _, _ => rfl
  | ⟨7, _⟩, _, _ => rfl

/-! ## The run -/

variable (ρ : Dev nD → PrngReg)
  (hb0 : ∀ c, BodyObligation (D0 (F := F) m c) (defs₀ (F := F)) Variants.none () Set.univ)
  (hb1 : ∀ c, BodyObligation (D1 (F := F) m c) (defs₀ (F := F)) Variants.none () Set.univ)
  (hb2 : ∀ c, BodyObligation (D2 (F := F) m c) (defs₀ (F := F)) Variants.none () Set.univ)

include hb0 hb1 hb2 in
set_option backward.isDefEq.respectTransparency.types false in
/-- From the three kernels' body obligations: every weakly fair execution of the host program terminates, and in
    every final memory each unscoped buffer of each core holds the fold's last valuation. -/
theorem run_of_bodies :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) :=
  run_cond m (outs m) emb₁ () Variants.none L lv (fun _ _ => rfl) ρ (pdats (D0 m) (D1 m) (D2 m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 (D0 m) (D1 m) (D2 m) (V1 m) (V2 m (outs m)) (fun c w => A_eq0 _ c w) (fun _ => rfl) (fun _ => rfl) (q0 m)
      (fun _ _ => rfl) (fun _ _ => rfl) (fun _ _ => rfl) hb0 (exit0 m) (rest0 m))
    (fun _ => .rfl) (fun _ => .rfl)
    (reg1 (D0 m) (D1 m) (D2 m) (V3 m (outs m)) (V4 m (outs m)) (entry1 m) (fun _ => rfl) (fun _ => rfl) (q1 m)
      (fun _ _ => rfl) (fun _ _ => rfl) (fun _ _ => rfl) hb1 (exit1 m) (rest1 m))
    (fun _ => .rfl) (fun _ => .rfl)
    (reg2 (D0 m) (D1 m) (D2 m) (V5 m (outs m)) (V6 m (outs m)) (entry2 m) (fun _ => rfl) (fun _ => rfl) (q2 m)
      (fun _ _ => rfl) (fun _ _ => rfl) (fun _ _ => rfl) hb2 (exit2 m) (rest2 m))
    (fun _ => .rfl) (fun _ => .rfl)

end Cert.Kernel.Hand

end
-- ==== Proof.K.Body0.lean ====
/-
  Region 0, the kernel's half: what the body finds in each input window's buffer at a grid point (that window's
  block there, whether or not the pipeline fetched it at that point), the body's Hoare triple on whole staging
  buffers, and the body obligation of the pipeline rule at the proof data `dat0`.
-/
import proofs.«117840_j78494822302010_2_alg».proof.Proof.K.Dat0
import Idealize.ShloMosaic.Lib.Pipeline.Value
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in an input window's buffer

An input window the body leaves as it found it holds its block at every point: at a point the pipeline fetches
it, the fetch put the block there; at any other point the window's block index has not moved since the point
before, so the block the buffer kept from there is this point's. The windows are not cut (every block lies whole
inside its array) and no point is idle for any of them. Stated for any proof data whose array is the region-entry
contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hblock : ∀ t, dat.blockOf 0 t = iblk0 V c 0 t := fun t => by unfold Dat.blockOf iblk0; rw [hA]
  rw [dat.before_in_eq_fetched 0 rfl (fun _ => rfl) (fun _ _ _ => rfl) (fun t => by rw [hafter, hblock]) t d]
  unfold Dat.fetched
  rw [hblock]
  rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hblock : ∀ t, dat.blockOf 1 t = iblk0 V c 1 t := fun t => by unfold Dat.blockOf iblk0; rw [hA]
  rw [dat.before_in_eq_fetched 1 rfl (fun _ => rfl) (fun _ _ _ => rfl) (fun t => by rw [hafter, hblock]) t d]
  unfold Dat.fetched
  rw [hblock]
  rfl

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hblock : ∀ t, dat.blockOf 2 t = iblk0 V c 2 t := fun t => by unfold Dat.blockOf iblk0; rw [hA]
  rw [dat.before_in_eq_fetched 2 rfl (fun _ => rfl) (fun _ _ _ => rfl) (fun t => by rw [hafter, hblock]) t d]
  unfold Dat.fetched
  rw [hblock]
  rfl

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hblock : ∀ t, dat.blockOf 3 t = iblk0 V c 3 t := fun t => by unfold Dat.blockOf iblk0; rw [hA]
  rw [dat.before_in_eq_fetched 3 rfl (fun _ => rfl) (fun _ _ _ => rfl) (fun t => by rw [hafter, hblock]) t d]
  unfold Dat.fetched
  rw [hblock]
  rfl

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  have hblock : ∀ t, dat.blockOf 4 t = iblk0 V c 4 t := fun t => by unfold Dat.blockOf iblk0; rw [hA]
  rw [dat.before_in_eq_fetched 4 rfl (fun _ => rfl) (fun _ _ _ => rfl) (fun t => by rw [hafter, hblock]) t d]
  unfold Dat.fetched
  rw [hblock]
  rfl

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t := by
  have hblock : ∀ t, dat.blockOf 5 t = iblk0 V c 5 t := fun t => by unfold Dat.blockOf iblk0; rw [hA]
  rw [dat.before_in_eq_fetched 5 rfl (fun _ => rfl) (fun _ _ _ => rfl) (fun t => by rw [hafter, hblock]) t d]
  unfold Dat.fetched
  rw [hblock]
  rfl

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t := by
  have hblock : ∀ t, dat.blockOf 6 t = iblk0 V c 6 t := fun t => by unfold Dat.blockOf iblk0; rw [hA]
  rw [dat.before_in_eq_fetched 6 rfl (fun _ => rfl) (fun _ _ _ => rfl) (fun t => by rw [hafter, hblock]) t d]
  unfold Dat.fetched
  rw [hblock]
  rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body's stores cover their buffers

Each output buffer receives one store, through the rectangle at offset 0 with the buffer's own extents: every
index of the buffer lies in it. -/

theorem zeros3 : (![0, 0, 0] : Fin 3 → Nat) = fun _ => 0 := by
  funext a; fin_cases a <;> rfl

theorem cover0_7 (p : Vec F S1x256x64 .f32) (y : S1x256x64.Idx) :
    ∃ pc ∈ ([⟨rT0, p⟩] : List (View.Piece (Elt F) S1x256x64 .f32)), y ∈ pc.1.set :=
  ⟨_, List.mem_singleton_self _, View.mem_set_unit_zero zeros3 inb_S1x256x64_S1x256x64_0_0_0 y⟩

theorem cover0_8 (p : Vec F S1x256x4096 .bf16) (y : S1x256x4096.Idx) :
    ∃ pc ∈ ([⟨rA0, p⟩] : List (View.Piece (Elt F) S1x256x4096 .bf16)), y ∈ pc.1.set :=
  ⟨_, List.mem_singleton_self _, View.mem_set_unit_zero zeros3 inb_S1x256x4096_S1x256x4096_0_0_0 y⟩

/-! ## The body's triple -/

set_option maxHeartbeats 4000000 in
/-- The kernel body on whole staging buffers — the seven inputs' holding `x0 … x6`, the two outputs' holding
    anything — runs to the continuation with the inputs' buffers as they were and the outputs' holding
    `out0_7` and `out0_8` of the inputs. The body first loads each output buffer (a value no later
    operation reads) and then stores over the whole of it, so what the buffer held before does not matter. -/
theorem sound_kernel0 (c : Dev nD) (E : Set ℕ) (i : grid0.Coords)
    (arg2 : Memref sig .tc .vmem S1x256x4096 .f32) (harg2 : arg2.IsWhole)
    (arg3 : Memref sig .tc .vmem S1x4096x64 .f32) (harg3 : arg3.IsWhole)
    (arg4 : Memref sig .tc .vmem S1x256x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S64x64 .f32) (harg7 : arg7.IsWhole)
    (arg8 : Memref sig .tc .vmem S1x64 .f32) (harg8 : arg8.IsWhole)
    (arg9 : Memref sig .tc .vmem S1x256x64 .f32) (harg9 : arg9.IsWhole)
    (arg10 : Memref sig .tc .vmem S1x256x4096 .bf16) (harg10 : arg10.IsWhole)
    (x0 : Vec F S1x256x4096 .f32) (x1 : Vec F S1x4096x64 .f32) (x2 : Vec F S1x256x64 .f32)
    (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2 x3 x4 x5 x6)
            ∗ owns (c : Thread nD τ) arg10 fullShare (out0_8 x0)) -∗ K ⟨⟩))
      ⊢ wp frame (wpE (defs₀ (F := F)) Variants.none c none) E (cc0_layer1_kernel i arg2 harg2 arg3 harg3 arg4 harg4 arg5 harg5 arg6 harg6 arg7 harg7 arg8 harg8 arg9 harg9 arg10 harg10) K := by
  simp only [cc0_layer1_kernel_eq_skeleton]; unfold cc0_layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap
    · iexact H7
    · ipureintro
      exact View.read_writes_eq_canon _ _ _ (cover0_7 _)
  · iexists _; isplitr
    swap
    · iexact H8
    · ipureintro
      exact View.read_writes_eq_canon _ _ _ (cover0_8 _)

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns: the same invariant and debt, and each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: each input's buffer holds its block (`before0_W`), so the body's triple applies with
    the blocks for the read contents; the invariant and the core's debt are not touched by the body and pass
    through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation for region 0, at every point: its two conjunctions over the nine windows
    written out are `bodyPre0` and `bodyPost0`. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- Region 1 of @main (custom_call 1, the second-kind graph-convolution layer kernel on an 8×8 grid, eight windows,
   one output): the kernel's half of the frame at the entry contents `V`. Every input window's current
   buffer holds its block at every point (fetched there or not); the body's triple on whole staging memrefs; and from
   both the body obligation of the pipeline rule at every point. -/
import proofs.«117840_j78494822302010_2_alg».proof.Proof.Gen.Kernel.Launch
import proofs.«117840_j78494822302010_2_alg».proof.Proof.Gen.Kernel.Skeleton
import proofs.«117840_j78494822302010_2_alg».proof.Proof.Gen.Kernel.Points
import proofs.«117840_j78494822302010_2_alg».proof.Proof.K.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 1: the kernel's half of the frame, at the entry contents `V` -/

/-! ## What the body finds in each input window's buffer -/

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body's store covers the output buffer -/

/-- The one store goes through the whole buffer, so it covers it. -/
theorem cover1_7 (p0 : Vec F S1x512x64 .f32) (y : S1x512x64.Idx) :
    ∃ pc ∈ ([⟨r1_2, p0⟩] : List (View.Piece (Elt F) S1x512x64 .f32)), y ∈ pc.1.set :=
  View.cover_of_tiled [⟨r1_2, p0⟩] S1x512x64.size (by rfl) y

/-! ## The body's triple -/

set_option maxHeartbeats 1000000 in
/-- The kernel body on whole staging memrefs, the inputs' at read contents `xW` and the output's at anything, runs to
    the continuation holding the inputs' as they were and the output's at `out1_7` of the inputs': the printed
    function and its part are their skeletons, seven loads of whole input buffers, a load of the output buffer whose
    value nothing reads, and one store through the whole output buffer. -/
theorem sound_kernel1 (c : Dev nD) (E : Set ℕ) (i : grid1.Coords) (arg2 : Memref sig .tc .vmem S1x512x4096 .bf16) (harg2 : arg2.IsWhole) (arg3 : Memref sig .tc .vmem S1x4096x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole)
    (x0 : Vec F S1x512x4096 .bf16) (x1 : Vec F S1x4096x64 .f32) (x2 : Vec F S1x512x64 .f32) (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1_layer_bf16_kernel i arg2 harg2 arg3 harg3 arg4 harg4 arg5 harg5 arg6 harg6 arg7 harg7 arg8 harg8 arg9 harg9) K := by
  sl_unfold [cc1_layer_bf16_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/- Region 2 of @main (custom_call 2, the second-kind graph-convolution layer kernel on an 8×8 grid, eight windows,
   one output): the kernel's half of the frame at the entry contents `V`. Every input window's current
   buffer holds its block at every point (fetched there or not); the body's triple on whole staging memrefs; and from
   both the body obligation of the pipeline rule at every point. -/
import proofs.«117840_j78494822302010_2_alg».proof.Proof.Gen.Kernel.Launch
import proofs.«117840_j78494822302010_2_alg».proof.Proof.Gen.Kernel.Skeleton
import proofs.«117840_j78494822302010_2_alg».proof.Proof.Gen.Kernel.Points
import proofs.«117840_j78494822302010_2_alg».proof.Proof.K.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2: the kernel's half of the frame, at the entry contents `V` -/

/-! ## What the body finds in each input window's buffer -/

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body's store covers the output buffer -/

/-- The one store goes through the whole buffer, so it covers it. -/
theorem cover2_7 (p0 : Vec F S1x512x64 .f32) (y : S1x512x64.Idx) :
    ∃ pc ∈ ([⟨r2_2, p0⟩] : List (View.Piece (Elt F) S1x512x64 .f32)), y ∈ pc.1.set :=
  View.cover_of_tiled [⟨r2_2, p0⟩] S1x512x64.size (by rfl) y

/-! ## The body's triple -/

set_option maxHeartbeats 1000000 in
/-- The kernel body on whole staging memrefs, the inputs' at read contents `xW` and the output's at anything, runs to
    the continuation holding the inputs' as they were and the output's at `out2_7` of the inputs': the printed
    function and its part are their skeletons, seven loads of whole input buffers, a load of the output buffer whose
    value nothing reads, and one store through the whole output buffer. -/
theorem sound_kernel2 (c : Dev nD) (E : Set ℕ) (i : grid2.Coords) (arg2 : Memref sig .tc .vmem S1x512x4096 .bf16) (harg2 : arg2.IsWhole) (arg3 : Memref sig .tc .vmem S1x4096x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole)
    (x0 : Vec F S1x512x4096 .bf16) (x1 : Vec F S1x4096x64 .f32) (x2 : Vec F S1x512x64 .f32) (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out2_7 x0 x1 x2 x3 x4 x5 x6)) -∗ K ⟨⟩))
      ⊢ wp frame (wpE (defs₀ (F := F)) Variants.none c none) E (cc2_layer_bf16_kernel i arg2 harg2 arg3 harg3 arg4 harg4 arg5 harg5 arg6 harg6 arg7 harg7 arg8 harg8 arg9 harg9) K := by
  sl_unfold [cc2_layer_bf16_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Claim.lean ====
/-
  The frame of the program and its run read at the result, from the run over the three kernels' body obligations.

  The run ends with every unscoped buffer at the fold's last valuation. No host operation writes an argument array and
  no region changes one, so the fold's last valuation holds each argument as launched: the frame. The result buffer is
  read off the same valuation.
-/
import proofs.«117840_j78494822302010_2_alg».proof.Defs
import proofs.«117840_j78494822302010_2_alg».proof.Proof.Gen.Pre_finite_inputs
import proofs.«117840_j78494822302010_2_alg».proof.Proof.K.Frame
import proofs.«117840_j78494822302010_2_alg».proof.Proof.K.Body0
import proofs.«117840_j78494822302010_2_alg».proof.Proof.K.Body1
import proofs.«117840_j78494822302010_2_alg».proof.Proof.K.Body2

noncomputable section

namespace Cert.Kernel.Hand

open Cert.Kernel Cert.Kernel.Gen
open Idealize.ShloMosaic Idealize.ShloMosaic.TcCoe
open Idealize.SL Idealize.SL.Sem

variable {F : FTy → Type} [FloatOps F]

/-- The run, with the three kernels' body obligations supplied. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) :=
  run_of_bodies m ρ (fun c => body_obligation0 _ c) (fun c => body_obligation1 _ c) (fun c => body_obligation2 _ c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run's post at the nine arguments: each ends as launched. -/
theorem run_args (m : (ℓ : Loc nD τ sig) → Buf (Elt F) ℓ) (ρ : Dev nD → PrngReg) :
    θ_run defs (onTc (τ := τ) (main (F := F))) ⟨m, fun _ => 0, ρ⟩ (fun r => ∀ c : Dev nD,
      (∀ b ∈ Pipeline.ucRefs τ sig, r.2.mem (((c : Thread nD τ)).1, b) = V9 m (outs m) c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c,
      (h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c),
      (h c _ (mem_uc main_arg5 (by decide))).trans (V9_main_arg5 m (outs m) c),
      (h c _ (mem_uc main_arg6 (by decide))).trans (V9_main_arg6 m (outs m) c),
      (h c _ (mem_uc main_arg7 (by decide))).trans (V9_main_arg7 m (outs m) c),
      (h c _ (mem_uc main_arg8 (by decide))).trans (V9_main_arg8 m (outs m) c)⟩) (run m ρ)

/-- The frame claim: under any precondition, the program runs and its arguments end unchanged. -/
theorem frame : Cert.frame_Kernel (hKernel := Cert.Kernel.Gen.facts) (hPre_finite_inputs := Cert.Pre_finite_inputs.Gen.facts) :=
  fun m ρ _ => (θ_run defs _ _).mono (fun r h c => (h c).2) (run_args (F := Bits) m ρ)

end Cert.Kernel.Hand

end
-- ==== Proof.KI.Segs.lean ====
/-
  The three kernel regions as segments of the host program's run.

  Between two items of the host program a core holds every unscoped buffer whole, at the contents the run has reached,
  beside its generator register and an empty debt. A kernel region takes the buffers behind its windows' arrays out of
  that state — the array that two input windows read is dealt to them in halves — runs its pipeline, and puts the
  arrays back at their final contents: the inputs as entered, each output at what the write-backs left. Everything
  here is stated for ANY proof data whose arrays are read off the entry contents, whose two windows on the common
  array hold its left and right half, whose invariant is the class's (the scoped rest and the generator register) and
  which owes nothing; the kernels' own proof data are put in afterwards.
-/
import proofs.«117840_j78494822302010_2_alg».proof.Proof.Gen.KernelIdeal.Regions
import proofs.«117840_j78494822302010_2_alg».proof.Proof.LibSharedPair
import Idealize.ShloMosaic.Lib.Pipeline.Cells
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers through every item: the core's generator register at some state and its debt, empty. -/
abbrev R (c : Dev nD) : sProp 𝕄 := iprop((∃ r, prngReg c r) ∗ ∃ W, owes (c : Thread nD τ) (0 : CellTallies nD τ sig Unit) W)

variable (d0 : (c : Dev nD) → Dat τ (Elt F) Unit ℕ (UR sig nD τ) ℕ cfg0 c)
  (d1 : (c : Dev nD) → Dat τ (Elt F) Unit ℕ (UR sig nD τ) ℕ cfg1 c)
  (d2 : (c : Dev nD) → Dat τ (Elt F) Unit ℕ (UR sig nD τ) ℕ cfg2 c)

/-- The three pipelines' proof data as one family: a literal match, so that the pinned configuration at a numeral
    reduces to the printed one. -/
def pdats : (p : Fin 3) → (c : Dev nD) → Dat τ (Elt F) Unit ℕ (UR sig nD τ) ℕ (Pipeline.pin (pcfgs (F := F)) adm p) c
  | ⟨0, _⟩ => fun c => d0 c
  | ⟨1, _⟩ => fun c => d1 c
  | ⟨2, _⟩ => fun c => d2 c

/-! ## Region 0 -/

section Region0

variable (Vin Vout : Dev nD → Valuation τ sig (Elt F))
  (hA : ∀ c w, (d0 c).A w = Vin c (Proc.devRef .tc (Pipeline.arrRef spec0 w)))
  (hq1 : ∀ c, (d0 c).q 1 = fullShare.left) (hq2 : ∀ c, (d0 c).q 2 = fullShare.right)
  (hq : ∀ c w, w ≠ 1 → w ≠ 2 → (d0 c).q w = fullShare)
  (hΦ : ∀ c t, (d0 c).Φ t = Pipeline.ΦA spec0 c)
  (howed : ∀ c t, (d0 c).owed t = 0)
  (hrec : ∀ c t, (d0 c).recorded t = Set.univ)
  (hbody : ∀ c, BodyObligation (d0 c) (defs₀ (F := F)) Variants.none () Set.univ)
  (hout : ∀ c w, (d0 c).arrAt w cfg0.N = Vout c (Proc.devRef .tc (Pipeline.arrRef spec0 w)))
  (hrest : ∀ c (b : Ref sig .tc), b ∉ Finset.univ.image (Pipeline.arrRef spec0) → Vout c (Proc.devRef .tc b) = Vin c (Proc.devRef .tc b))

include hq1 hq2 hq in
/-- The windows' arrays of region 0 at contents read off `V` are the distinct buffers behind them whole at `V`:
    windows 1 and 2 read one array, at its two halves. -/
theorem arrays0 (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    ((d0 c).arrays G : sProp 𝕄) = Pipeline.arrBufs spec0 c V :=
  Cert.Lib.SharedPair.arrays_eq_arrBufs (d0 c) arr_whole0 1 2 (by decide) (by decide) (by decide)
    (by unfold Dat.share; rw [if_neg (by decide)]; exact hq1 c)
    (by unfold Dat.share; rw [if_neg (by decide)]; exact hq2 c)
    (fun w h1 h2 => by unfold Dat.share; split; · rfl
                       · exact hq c w h1 h2)
    V G hG

include hA hq1 hq2 hq hΦ howed hrec hbody hout hrest in
set_option backward.isDefEq.respectTransparency.types false in
/-- REGION 0 over the thread state: entered from every unscoped buffer at `Vin`, left at `Vout`. Its arrays are
    taken out of the unscoped buffers and put back at the exit contents; the generator register goes into the class
    invariant and comes out; nothing is owed; the kernel has no semaphore of its own. -/
def reg0 : Pipeline.RegionSeg (pcfgs (F := F)) adm (pdats d0 d1 d2) () defs₀ Variants.none L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec0 c (fun b => Vin c (Proc.devRef .tc b))
  hentry c := by
    rw [Pipeline.ownSems0_none]
    have hsplit : (StableHlo.held (c : Thread nD τ) (Pipeline.ucRefs τ sig) (Vin c) : sProp 𝕄)
        ⊢ iprop((d0 c).arrays ((d0 c).arrAt · 0) ∗ Pipeline.unscopedRest spec0 c (fun b => Vin c (Proc.devRef .tc b))) := by
      rw [← Pipeline.unscopedBufs_held, Pipeline.unscopedBufs_split₀ cfgs 0 winFacts₀0.arr_unscoped c,
        arrays0 d0 hq1 hq2 hq c (fun b => Vin c (Proc.devRef .tc b)) ((d0 c).arrAt · 0) (fun w => hA c w)]
      exact .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 0 c).recorded 0 = Set.univ from hrec c 0]; trivial)
      rw [show (pdats d0 d1 d2 0 c).owed 0 = 0 from howed c 0]
      iexact HO
    isplitl [Hp]; · iexact Hp
    iexact Hrest
  hin c := by
    rw [show (pdats d0 d1 d2 0 c).Φ 0 = Pipeline.ΦA spec0 c from hΦ c 0]; unfold Pipeline.ΦA
    iintro ⟨Hp, -, Hr⟩
    isplitl [Hr]; · iexact Hr
    iexact Hp
  hout c := by
    rw [Pipeline.ownSems0_none, show (pdats d0 d1 d2 0 c).Φ (Fin.last _) = Pipeline.ΦA spec0 c from hΦ c _]; unfold Pipeline.ΦA
    iintro ⟨Hr, Hp⟩
    isplitl [Hp]; · iexact Hp
    isplitr; · iempintro
    iexact Hr
  hexit c := by
    have hjoin : (iprop((d0 c).arrays ((d0 c).arrAt · cfg0.N) ∗ Pipeline.unscopedRest spec0 c (fun b => Vin c (Proc.devRef .tc b))) : sProp 𝕄)
        ⊢ StableHlo.held (c : Thread nD τ) (Pipeline.ucRefs τ sig) (Vout c) := by
      rw [← Pipeline.unscopedBufs_held, Pipeline.unscopedBufs_split₀ cfgs 0 winFacts₀0.arr_unscoped c,
        arrays0 d0 hq1 hq2 hq c (fun b => Vout c (Proc.devRef .tc b)) ((d0 c).arrAt · cfg0.N) (fun w => hout c w)]
      refine sep_mono .rfl (Entails.of_eq ?_)
      unfold Pipeline.unscopedRest
      exact bigSep_congr fun b hb => by dsimp only; rw [hrest c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats d0 d1 d2 0 c).owed (Fin.last _) = 0 from howed c _]
    iexact HO

end Region0

/-! ## Region 1 -/

section Region1

variable (Vin Vout : Dev nD → Valuation τ sig (Elt F))
  (hA : ∀ c w, (d1 c).A w = Vin c (Proc.devRef .tc (Pipeline.arrRef spec1 w)))
  (hq1 : ∀ c, (d1 c).q 1 = fullShare.left) (hq2 : ∀ c, (d1 c).q 2 = fullShare.right)
  (hq : ∀ c w, w ≠ 1 → w ≠ 2 → (d1 c).q w = fullShare)
  (hΦ : ∀ c t, (d1 c).Φ t = Pipeline.ΦA spec1 c)
  (howed : ∀ c t, (d1 c).owed t = 0)
  (hrec : ∀ c t, (d1 c).recorded t = Set.univ)
  (hbody : ∀ c, BodyObligation (d1 c) (defs₀ (F := F)) Variants.none () Set.univ)
  (hout : ∀ c w, (d1 c).arrAt w cfg1.N = Vout c (Proc.devRef .tc (Pipeline.arrRef spec1 w)))
  (hrest : ∀ c (b : Ref sig .tc), b ∉ Finset.univ.image (Pipeline.arrRef spec1) → Vout c (Proc.devRef .tc b) = Vin c (Proc.devRef .tc b))

include hq1 hq2 hq in
/-- The windows' arrays of region 1 at contents read off `V` are the distinct buffers behind them whole at `V`:
    windows 1 and 2 read one array, at its two halves. -/
theorem arrays1 (c : Dev nD) (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    ((d1 c).arrays G : sProp 𝕄) = Pipeline.arrBufs spec1 c V :=
  Cert.Lib.SharedPair.arrays_eq_arrBufs (d1 c) arr_whole1 1 2 (by decide) (by decide) (by decide)
    (by unfold Dat.share; rw [if_neg (by decide)]; exact hq1 c)
    (by unfold Dat.share; rw [if_neg (by decide)]; exact hq2 c)
    (fun w h1 h2 => by unfold Dat.share; split; · rfl
                       · exact hq c w h1 h2)
    V G hG

include hA hq1 hq2 hq hΦ howed hrec hbody hout hrest in
set_option backward.isDefEq.respectTransparency.types false in
/-- REGION 1 over the thread state: entered from every unscoped buffer at `Vin`, left at `Vout`. Its arrays are
    taken out of the unscoped buffers and put back at the exit contents; the generator register goes into the class
    invariant and comes out; nothing is owed; the kernel has no semaphore of its own. -/
def reg1 : Pipeline.RegionSeg (pcfgs (F := F)) adm (pdats d0 d1 d2) () defs₀ Variants.none L lv 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ L lv 1 fun c t => howed c t
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec1 c (fun b => Vin c (Proc.devRef .tc b))
  hentry c := by
    rw [Pipeline.ownSems0_none]
    have hsplit : (StableHlo.held (c : Thread nD τ) (Pipeline.ucRefs τ sig) (Vin c) : sProp 𝕄)
        ⊢ iprop((d1 c).arrays ((d1 c).arrAt · 0) ∗ Pipeline.unscopedRest spec1 c (fun b => Vin c (Proc.devRef .tc b))) := by
      rw [← Pipeline.unscopedBufs_held, Pipeline.unscopedBufs_split₀ cfgs 1 winFacts₀1.arr_unscoped c,
        arrays1 d1 hq1 hq2 hq c (fun b => Vin c (Proc.devRef .tc b)) ((d1 c).arrAt · 0) (fun w => hA c w)]
      exact .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 1 c).recorded 0 = Set.univ from hrec c 0]; trivial)
      rw [show (pdats d0 d1 d2 1 c).owed 0 = 0 from howed c 0]
      iexact HO
    isplitl [Hp]; · iexact Hp
    iexact Hrest
  hin c := by
    rw [show (pdats d0 d1 d2 1 c).Φ 0 = Pipeline.ΦA spec1 c from hΦ c 0]; unfold Pipeline.ΦA
    iintro ⟨Hp, -, Hr⟩
    isplitl [Hr]; · iexact Hr
    iexact Hp
  hout c := by
    rw [Pipeline.ownSems0_none, show (pdats d0 d1 d2 1 c).Φ (Fin.last _) = Pipeline.ΦA spec1 c from hΦ c _]; unfold Pipeline.ΦA
    iintro ⟨Hr, Hp⟩
    isplitl [Hp]; · iexact Hp
    isplitr; · iempintro
    iexact Hr
  hexit c := by
    have hjoin : (iprop((d1 c).arrays ((d1 c).arrAt · cfg1.N) ∗ Pipeline.unscopedRest spec1 c (fun b => Vin c (Proc.devRef .tc b))) : sProp 𝕄)
        ⊢ StableHlo.held (c : Thread nD τ) (Pipeline.ucRefs τ sig) (Vout c) := by
      rw [← Pipeline.unscopedBufs_held, Pipeline.unscopedBufs_split₀ cfgs 1 winFacts₀1.arr_unscoped c,
        arrays1 d1 hq1 hq2 hq c (fun b => Vout c (Proc.devRef .tc b)) ((d1 c).arrAt · cfg1.N) (fun w => hout c w)]
      refine sep_mono .rfl (Entails.of_eq ?_)
      unfold Pipeline.unscopedRest
      exact bigSep_congr fun b hb => by dsimp only; rw [hrest c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats d0 d1 d2 1 c).owed (Fin.last _) = 0 from howed c _]
    iexact HO

end Region1

/-! ## Region 2 -/

section Region2

variable (Vin Vout : Dev nD → Valuation τ sig (Elt F))
  (hA : ∀ c w, (d2 c).A w = Vin c (Proc.devRef .tc (Pipeline.arrRef spec2 w)))
  (hq1 : ∀ c, (d2 c).q 1 = fullShare.left) (hq2 : ∀ c, (d2 c).q 2 = fullShare.right)
  (hq : ∀ c w, w ≠ 1 → w ≠ 2 → (d2 c).q w = fullShare)
  (hΦ : ∀ c t, (d2 c).Φ t = Pipeline.ΦA spec2 c)
  (howed : ∀ c t, (d2 c).owed t = 0)
  (hrec : ∀ c t, (d2 c).recorded t = Set.univ)
  (hbody : ∀ c, BodyObligation (d2 c) (defs₀ (F := F)) Variants.none () Set.univ)
  (hout : ∀ c w, (d2 c).arrAt w cfg2.N = Vout c (Proc.devRef .tc (Pipeline.arrRef spec2 w)))
  (hrest : ∀ c (b : Ref sig .tc), b ∉ Finset.univ.image (Pipeline.arrRef spec2) → Vout c (Proc.devRef .tc b) = Vin c (Proc.devRef .tc b))

include hq1 hq2 hq in
/-- The windows' arrays of region 2 at contents read off `V` are the distinct buffers behind them whole at `V`:
    windows 1 and 2 read one array, at its two halves. -/
theorem arrays2 (c : Dev nD) (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    ((d2 c).arrays G : sProp 𝕄) = Pipeline.arrBufs spec2 c V :=
  Cert.Lib.SharedPair.arrays_eq_arrBufs (d2 c) arr_whole2 1 2 (by decide) (by decide) (by decide)
    (by unfold Dat.share; rw [if_neg (by decide)]; exact hq1 c)
    (by unfold Dat.share; rw [if_neg (by decide)]; exact hq2 c)
    (fun w h1 h2 => by unfold Dat.share; split; · rfl
                       · exact hq c w h1 h2)
    V G hG

include hA hq1 hq2 hq hΦ howed hrec hbody hout hrest in
set_option backward.isDefEq.respectTransparency.types false in
/-- REGION 2 over the thread state: entered from every unscoped buffer at `Vin`, left at `Vout`. Its arrays are
    taken out of the unscoped buffers and put back at the exit contents; the generator register goes into the class
    invariant and comes out; nothing is owed; the kernel has no semaphore of its own. -/
def reg2 : Pipeline.RegionSeg (pcfgs (F := F)) adm (pdats d0 d1 d2) () defs₀ Variants.none L lv 2 where
  win := winFacts₀2
  block_pos := block_pos2
  stage_whole := stage_whole2
  K := PEmpty
  osem k := k.elim
  ho := Pipeline.OwnSemFacts.none _
  hbody c := (hbody c).loose
  hwaits := Pipeline.hwaits_of_owed_zero _ _ _ _ L lv 2 fun c t => howed c t
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) spec2 c (fun b => Vin c (Proc.devRef .tc b))
  hentry c := by
    rw [Pipeline.ownSems0_none]
    have hsplit : (StableHlo.held (c : Thread nD τ) (Pipeline.ucRefs τ sig) (Vin c) : sProp 𝕄)
        ⊢ iprop((d2 c).arrays ((d2 c).arrAt · 0) ∗ Pipeline.unscopedRest spec2 c (fun b => Vin c (Proc.devRef .tc b))) := by
      rw [← Pipeline.unscopedBufs_held, Pipeline.unscopedBufs_split₀ cfgs 2 winFacts₀2.arr_unscoped c,
        arrays2 d2 hq1 hq2 hq c (fun b => Vin c (Proc.devRef .tc b)) ((d2 c).arrAt · 0) (fun w => hA c w)]
      exact .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats d0 d1 d2 2 c).recorded 0 = Set.univ from hrec c 0]; trivial)
      rw [show (pdats d0 d1 d2 2 c).owed 0 = 0 from howed c 0]
      iexact HO
    isplitl [Hp]; · iexact Hp
    iexact Hrest
  hin c := by
    rw [show (pdats d0 d1 d2 2 c).Φ 0 = Pipeline.ΦA spec2 c from hΦ c 0]; unfold Pipeline.ΦA
    iintro ⟨Hp, -, Hr⟩
    isplitl [Hr]; · iexact Hr
    iexact Hp
  hout c := by
    rw [Pipeline.ownSems0_none, show (pdats d0 d1 d2 2 c).Φ (Fin.last _) = Pipeline.ΦA spec2 c from hΦ c _]; unfold Pipeline.ΦA
    iintro ⟨Hr, Hp⟩
    isplitl [Hp]; · iexact Hp
    isplitr; · iempintro
    iexact Hr
  hexit c := by
    have hjoin : (iprop((d2 c).arrays ((d2 c).arrAt · cfg2.N) ∗ Pipeline.unscopedRest spec2 c (fun b => Vin c (Proc.devRef .tc b))) : sProp 𝕄)
        ⊢ StableHlo.held (c : Thread nD τ) (Pipeline.ucRefs τ sig) (Vout c) := by
      rw [← Pipeline.unscopedBufs_held, Pipeline.unscopedBufs_split₀ cfgs 2 winFacts₀2.arr_unscoped c,
        arrays2 d2 hq1 hq2 hq c (fun b => Vout c (Proc.devRef .tc b)) ((d2 c).arrAt · cfg2.N) (fun w => hout c w)]
      refine sep_mono .rfl (Entails.of_eq ?_)
      unfold Pipeline.unscopedRest
      exact bigSep_congr fun b hb => by dsimp only; rw [hrest c b (Finset.mem_sdiff.mp hb).2]
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W
    rw [show (pdats d0 d1 d2 2 c).owed (Fin.last _) = 0 from howed c _]
    iexact HO

end Region2

end Cert.KernelIdeal.Hand

end
-- ==== Proof.KI.Run.lean ====
/-
  The run of the host program around its three kernel regions, read at EVERY unscoped buffer.

  The frame claim asks only that the nine argument arrays end as launched; the value claim also needs the result. Both
  are readings of one fact: after the last item every unscoped buffer of a core holds the last valuation of the fold
  (launch contents, each host stretch applied, each region's output arrays replaced). This module states that fact,
  given one segment record per region entered from and left at the fold's valuations.
-/
import proofs.«117840_j78494822302010_2_alg».proof.Proof.Gen.KernelIdeal.Regions
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- the rule for a chain of host stretches and kernel regions is applied by matching its conclusion against this
-- statement; the match has to see through plain definitions in the types of the rule's own parameters
set_option backward.isDefEq.respectTransparency.types false in
/-- Given, per region, a segment record entered from the fold's valuation before it and left at the one after it,
    every weakly fair execution of the host program from memory `m` with zero counters terminates, and in every
    final memory each unscoped buffer of each core holds the fold's last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V9 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, .rfl, .rfl, sep_mono .rfl (hE3 c)⟩)
    (hinit := ?_) (QY := fun c s => ∀ b ∈ Pipeline.ucRefs τ sig, s.mem (((c : Thread nD τ)).1, b) = V9 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V9 m outs c) s')
    isplitl [Hh] <;> iassumption

end Cert.KernelIdeal.Hand

end
-- ==== Proof.KI.Dat0.lean ====
/-
  Region 0 (the first graph-convolution layer): the blocks its nine windows show the body at a grid point, what
  the body leaves in its two output windows as a closed function of the seven input blocks, and the proof data of
  the pipeline built from them. Windows 1 and 2 are two views of ONE array (the whole batch slice and a row tile
  of it), so each holds half of that array's share; every other window holds a full share.
-/
import proofs.«117840_j78494822302010_2_alg».proof.Proof.Gen.KernelIdeal.Launch
import proofs.«117840_j78494822302010_2_alg».proof.Proof.Gen.KernelIdeal.Skeleton
import proofs.«117840_j78494822302010_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store goes through the whole of its buffer -/

abbrev rA0 : Rect S1x256x4096 := Rect.unit (s := S1x256x4096) ![0, 0, 0] S1x256x4096.size inb_S1x256x4096_S1x256x4096_0_0_0
abbrev rE0 : Rect S1x4096x64 := Rect.unit (s := S1x4096x64) ![0, 0, 0] S1x4096x64.size inb_S1x4096x64_S1x4096x64_0_0_0
abbrev rT0 : Rect S1x256x64 := Rect.unit (s := S1x256x64) ![0, 0, 0] S1x256x64.size inb_S1x256x64_S1x256x64_0_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-! ## What the body leaves in each output window's buffer -/

/-- Window 8 (the adjacency tile rounded to bf16) after the body: its one store, of the rounded tile, over the
    whole buffer. It depends on the adjacency tile alone. -/
def out0_8 (x0 : Vec F S1x256x4096 .f32) : Vec F S1x256x4096 .bf16 :=
  View.canon [⟨rA0, k0_pay3 (View.ld x0 rA0)⟩]

/-- Window 7 (the layer's output rows) after the body: its one store over the whole buffer, of the sum of two
    activated affine maps — one of the aggregated rows, one of their entrywise product with the row tile — a
    function of all seven input blocks: the adjacency tile `x0`, the whole embedding slice `x1`, its row tile
    `x2`, and the two weight matrices and two biases `x3 … x6`. -/
def out0_7 (x0 : Vec F S1x256x4096 .f32) (x1 : Vec F S1x4096x64 .f32) (x2 : Vec F S1x256x64 .f32)
    (x3 : Vec F S64x64 .f32) (x4 : Vec F S1x64 .f32) (x5 : Vec F S64x64 .f32) (x6 : Vec F S1x64 .f32) : Vec F S1x256x64 .f32 :=
  View.canon [⟨rT0, k0_pay1 (k0_pay5 (View.ld x5 rW0)) (k0_pay6 (View.ld x6 rB0))
    (k0_pay7 (View.ld x0 rA0) (View.ld x1 rE0) (View.ld x3 rW0) (View.ld x4 rB0))
    (k0_pay8 (View.ld x0 rA0) (View.ld x1 rE0) (View.ld x2 rT0))⟩]

/-! ## The pipeline's proof data -/

/-- The proof data of pipeline 0 on core `c`: the arrays as the region finds them; after the body at point `t`
    each input's buffer at its block and each output's at `out0_W` of the input blocks; the invariant "the scoped
    rest and the generator register, untouched"; nothing owed. Windows 1 and 2 read one array: the left and the
    right half of its share; the other windows hold full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by
  dsimp only [dat0]
theorem after0_8 (c : Dev nD) (t : Fin cfg0.N) : (dat0 V c).after 8 t = out0_8 (iblk0 V c 0 t) := by dsimp only [dat0]

end Cert.KernelIdeal.Hand

end
-- ==== Proof.KI.Dat1.lean ====
/- Region 1 of @main (custom_call 1, the second-kind graph-convolution layer kernel on an 8×8 grid, eight windows,
   one output): the proof data of its pipeline at a PARAMETER `V`, the TensorCore's buffer contents when the
   region is entered. Each input window's block at a point is read off its array as the region finds it; the output
   window's buffer after the body is the one whole-buffer store's value over the loaded input blocks; windows 1 and 2
   read one array and hold one half of it each. -/
import proofs.«117840_j78494822302010_2_alg».proof.Proof.Gen.KernelIdeal.Launch
import proofs.«117840_j78494822302010_2_alg».proof.Proof.Gen.KernelIdeal.Skeleton
import proofs.«117840_j78494822302010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 1 of @main: custom_call 1, `cc1_layer_bf16_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store go through the whole of a staging buffer -/

/-- The whole of the adjacency tile's buffer (window 0). -/
abbrev r1_0 : Rect S1x512x4096 := Rect.unit (s := S1x512x4096) ![0, 0, 0] S1x512x4096.size inb_S1x512x4096_S1x512x4096_0_0_0
/-- The whole of the batch block's buffer (window 1). -/
abbrev r1_1 : Rect S1x4096x64 := Rect.unit (s := S1x4096x64) ![0, 0, 0] S1x4096x64.size inb_S1x4096x64_S1x4096x64_0_0_0
/-- The whole of a row tile's buffer (windows 2 and 7). -/
abbrev r1_2 : Rect S1x512x64 := Rect.unit (s := S1x512x64) ![0, 0, 0] S1x512x64.size inb_S1x512x64_S1x512x64_0_0_0
/-- The whole of a weight matrix's buffer (windows 3 and 5). -/
abbrev r1_3 : Rect S64x64 := Rect.unit (s := S64x64) ![0, 0] S64x64.size inb_S64x64_S64x64_0_0
/-- The whole of a bias row's buffer (windows 4 and 6). -/
abbrev r1_4 : Rect S1x64 := Rect.unit (s := S1x64) ![0, 0] S1x64.size inb_S1x64_S1x64_0_0

/-! ## What the body leaves in the output window's buffer -/

/-- Window 7's staging buffer after the body, from the seven input windows' blocks (in window order): its one
    store, through the whole buffer, of the layer's value — the sum of the two activated branches, each a
    product with a weight matrix plus a bias row — over what the loads read of the inputs. -/
def out1_7 (x0 : Vec F S1x512x4096 .bf16) (x1 : Vec F S1x4096x64 .f32) (x2 : Vec F S1x512x64 .f32)
    (x3 : Vec F S64x64 .f32) (x4 : Vec F S1x64 .f32) (x5 : Vec F S64x64 .f32) (x6 : Vec F S1x64 .f32) :
    Vec F S1x512x64 .f32 :=
  View.canon [⟨r1_2, k1_pay1
    (k1_pay3 (View.ld x0 r1_0) (View.ld x1 r1_1) (View.ld x3 r1_3) (View.ld x4 r1_4))
    (k1_pay4 (View.ld x0 r1_0) (View.ld x1 r1_1) (View.ld x2 r1_2) (View.ld x5 r1_3) (View.ld x6 r1_4))
    (k1_pay5 (View.ld x0 r1_0) (View.ld x1 r1_1) (View.ld x2 r1_2) (View.ld x5 r1_3) (View.ld x6 r1_4))
    (Scalar.ofBits .f32 0x3C23D70A#32)⟩]

/-! ## The pipeline's proof data -/

/-- The proof data of pipeline 1 on core `c`: the arrays as the region finds them (`V`); after the body at
    point `t` each input's buffer at its block and the output's at `out1_7` of the input blocks; the
    invariant the scoped rest and the generator register, untouched; nothing owed. Windows 1 and 2 read ONE
    array, so each holds one half of it; every other input is held outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨1, _⟩ => fullShare.left
    | ⟨2, _⟩ => fullShare.right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

end Cert.KernelIdeal.Hand

end
-- ==== Proof.KI.Dat2.lean ====
/- Region 2 of @main (custom_call 2, the second-kind graph-convolution layer kernel on an 8×8 grid, eight windows,
   one output): the proof data of its pipeline at a PARAMETER `V`, the TensorCore's buffer contents when the
   region is entered. Each input window's block at a point is read off its array as the region finds it; the output
   window's buffer after the body is the one whole-buffer store's value over the loaded input blocks; windows 1 and 2
   read one array and hold one half of it each. -/
import proofs.«117840_j78494822302010_2_alg».proof.Proof.Gen.KernelIdeal.Launch
import proofs.«117840_j78494822302010_2_alg».proof.Proof.Gen.KernelIdeal.Skeleton
import proofs.«117840_j78494822302010_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2 of @main: custom_call 2, `cc2_layer_bf16_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store go through the whole of a staging buffer -/

/-- The whole of the adjacency tile's buffer (window 0). -/
abbrev r2_0 : Rect S1x512x4096 := Rect.unit (s := S1x512x4096) ![0, 0, 0] S1x512x4096.size inb_S1x512x4096_S1x512x4096_0_0_0
/-- The whole of the batch block's buffer (window 1). -/
abbrev r2_1 : Rect S1x4096x64 := Rect.unit (s := S1x4096x64) ![0, 0, 0] S1x4096x64.size inb_S1x4096x64_S1x4096x64_0_0_0
/-- The whole of a row tile's buffer (windows 2 and 7). -/
abbrev r2_2 : Rect S1x512x64 := Rect.unit (s := S1x512x64) ![0, 0, 0] S1x512x64.size inb_S1x512x64_S1x512x64_0_0_0
/-- The whole of a weight matrix's buffer (windows 3 and 5). -/
abbrev r2_3 : Rect S64x64 := Rect.unit (s := S64x64) ![0, 0] S64x64.size inb_S64x64_S64x64_0_0
/-- The whole of a bias row's buffer (windows 4 and 6). -/
abbrev r2_4 : Rect S1x64 := Rect.unit (s := S1x64) ![0, 0] S1x64.size inb_S1x64_S1x64_0_0

/-! ## What the body leaves in the output window's buffer -/

/-- Window 7's staging buffer after the body, from the seven input windows' blocks (in window order): its one
    store, through the whole buffer, of the layer's value — the sum of the two activated branches, each a
    product with a weight matrix plus a bias row — over what the loads read of the inputs. -/
def out2_7 (x0 : Vec F S1x512x4096 .bf16) (x1 : Vec F S1x4096x64 .f32) (x2 : Vec F S1x512x64 .f32)
    (x3 : Vec F S64x64 .f32) (x4 : Vec F S1x64 .f32) (x5 : Vec F S64x64 .f32) (x6 : Vec F S1x64 .f32) :
    Vec F S1x512x64 .f32 :=
  View.canon [⟨r2_2, k2_pay1
    (k2_pay3 (View.ld x0 r2_0) (View.ld x1 r2_1) (View.ld x3 r2_3) (View.ld x4 r2_4))
    (k2_pay4 (View.ld x0 r2_0) (View.ld x1 r2_1) (View.ld x2 r2_2) (View.ld x5 r2_3) (View.ld x6 r2_4))
    (k2_pay5 (View.ld x0 r2_0) (View.ld x1 r2_1) (View.ld x2 r2_2) (View.ld x5 r2_3) (View.ld x6 r2_4))
    (Scalar.ofBits .f32 0x3C23D70A#32)⟩]

/-! ## The pipeline's proof data -/

/-- The proof data of pipeline 2 on core `c`: the arrays as the region finds them (`V`); after the body at
    point `t` each input's buffer at its block and the output's at `out2_7` of the input blocks; the
    invariant the scoped rest and the generator register, untouched; nothing owed. Windows 1 and 2 read ONE
    array, so each holds one half of it; every other input is held outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by
  dsimp only [dat2]

end Cert.KernelIdeal.Hand

end
-- ==== Proof.KI.Frame.lean ====
/-
  The run of the idealized kernel program, from the three kernels' body obligations.

  The fold of buffer contents through the host program: the launch memory; the host operations before the first
  region; the first region's two output arrays (the new node embeddings and the narrowed adjacency) at what its
  write-backs leave; the next host operations; the second region's output; the third's; the closing host operations.
  Each region's proof data are taken at the contents the fold has reached when the region is entered. Every input
  array of a region is left as entered, so a region changes only its outputs' buffers, and the segment records of the
  three regions chain from one valuation of the fold to the next.
-/
import proofs.«117840_j78494822302010_2_alg».proof.Proof.KI.Segs
import proofs.«117840_j78494822302010_2_alg».proof.Proof.KI.Run
import proofs.«117840_j78494822302010_2_alg».proof.Proof.KI.Dat0
import proofs.«117840_j78494822302010_2_alg».proof.Proof.KI.Dat1
import proofs.«117840_j78494822302010_2_alg».proof.Proof.KI.Dat2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev Vr (W : Dev nD → Valuation τ sig (Elt F)) : (c : Dev nD) → (b : Ref sig .tc) → Buf (Elt F) ((c : Thread nD τ).loc b) :=
  fun c b => W c (Proc.devRef .tc b)

/-! ## What the regions leave, as the unknowns of the generated fold -/

/-- The contents the regions leave in the four buffers they write, everything else as launched. -/
def mkOuts (a : (c : Dev nD) → Buf (Elt F) ((c : Thread nD τ).loc main_v27_0)) (b : (c : Dev nD) → Buf (Elt F) ((c : Thread nD τ).loc main_v27_1))
    (d : (c : Dev nD) → Buf (Elt F) ((c : Thread nD τ).loc main_v36)) (e : (c : Dev nD) → Buf (Elt F) ((c : Thread nD τ).loc main_v45)) : Outs (F := F) :=
  fun _ r c =>
    if h : r = main_v27_0 then h ▸ a c else if h : r = main_v27_1 then h ▸ b c
    else if h : r = main_v36 then h ▸ d c else if h : r = main_v45 then h ▸ e c else m ((c : Thread nD τ).loc r)

variable (a : (c : Dev nD) → Buf (Elt F) ((c : Thread nD τ).loc main_v27_0)) (b : (c : Dev nD) → Buf (Elt F) ((c : Thread nD τ).loc main_v27_1))
    (d : (c : Dev nD) → Buf (Elt F) ((c : Thread nD τ).loc main_v36)) (e : (c : Dev nD) → Buf (Elt F) ((c : Thread nD τ).loc main_v45))

theorem mkOuts_v27_0 (j : ℕ) (c : Dev nD) : mkOuts m a b d e j main_v27_0 c = a c := by
  unfold mkOuts; rw [dif_pos rfl]
theorem mkOuts_v27_1 (j : ℕ) (c : Dev nD) : mkOuts m a b d e j main_v27_1 c = b c := by
  unfold mkOuts; rw [dif_neg (by decide), dif_pos rfl]
theorem mkOuts_v36 (j : ℕ) (c : Dev nD) : mkOuts m a b d e j main_v36 c = d c := by
  unfold mkOuts; rw [dif_neg (by decide), dif_neg (by decide), dif_pos rfl]
theorem mkOuts_v45 (j : ℕ) (c : Dev nD) : mkOuts m a b d e j main_v45 c = e c := by
  unfold mkOuts; rw [dif_neg (by decide), dif_neg (by decide), dif_neg (by decide), dif_pos rfl]

/-- The fold before the second region does not read what the later regions leave. -/
theorem V3_mkOuts (d' : (c : Dev nD) → Buf (Elt F) ((c : Thread nD τ).loc main_v36)) (e' : (c : Dev nD) → Buf (Elt F) ((c : Thread nD τ).loc main_v45)) (c : Dev nD) :
    V3 m (mkOuts m a b d e) c = V3 m (mkOuts m a b d' e') c := by
  simp only [V3, V2, mkOuts_v27_0, mkOuts_v27_1]
/-- The fold before the third region does not read what that region leaves. -/
theorem V5_mkOuts (e' : (c : Dev nD) → Buf (Elt F) ((c : Thread nD τ).loc main_v45)) (c : Dev nD) :
    V5 m (mkOuts m a b d e) c = V5 m (mkOuts m a b d e') c := by
  simp only [V5, V4, V3, V2, mkOuts_v27_0, mkOuts_v27_1, mkOuts_v36]

/-! ## The regions' proof data along the fold -/

/-- Region 0's proof data, at the contents after the first host stretch. -/
def D0 (c : Dev nD) : Dat τ (Elt F) Unit ℕ (UR sig nD τ) ℕ cfg0 c := dat0 (Vr (V1 m)) c
/-- What region 0 leaves in its two output arrays. -/
def a0 (c : Dev nD) : Buf (Elt F) ((c : Thread nD τ).loc main_v27_0) := (D0 m c).arrAt 7 cfg0.N
def b0 (c : Dev nD) : Buf (Elt F) ((c : Thread nD τ).loc main_v27_1) := (D0 m c).arrAt 8 cfg0.N
/-- The launch contents of the two later outputs: placeholders the fold never reads before the region that writes them. -/
abbrev j36 (c : Dev nD) : Buf (Elt F) ((c : Thread nD τ).loc main_v36) := m ((c : Thread nD τ).loc main_v36)
abbrev j45 (c : Dev nD) : Buf (Elt F) ((c : Thread nD τ).loc main_v45) := m ((c : Thread nD τ).loc main_v45)
abbrev outsA : Outs (F := F) := mkOuts m (a0 m) (b0 m) (j36 m) (j45 m)
/-- Region 1's proof data, at the contents after region 0 and the second host stretch. -/
def D1 (c : Dev nD) : Dat τ (Elt F) Unit ℕ (UR sig nD τ) ℕ cfg1 c := dat1 (Vr (V3 m (outsA m))) c
def x36 (c : Dev nD) : Buf (Elt F) ((c : Thread nD τ).loc main_v36) := (D1 m c).arrAt 7 cfg1.N
abbrev outsB : Outs (F := F) := mkOuts m (a0 m) (b0 m) (x36 m) (j45 m)
/-- Region 2's proof data, at the contents after region 1 and the third host stretch. -/
def D2 (c : Dev nD) : Dat τ (Elt F) Unit ℕ (UR sig nD τ) ℕ cfg2 c := dat2 (Vr (V5 m (outsB m))) c
def x45 (c : Dev nD) : Buf (Elt F) ((c : Thread nD τ).loc main_v45) := (D2 m c).arrAt 7 cfg2.N
/-- What the three regions leave: the unknowns of the generated fold, named. -/
abbrev outs : Outs (F := F) := mkOuts m (a0 m) (b0 m) (x36 m) (x45 m)

theorem V3_outs (c : Dev nD) : V3 m (outs m) c = V3 m (outsA m) c := V3_mkOuts m _ _ _ _ _ _ c
theorem V5_outs (c : Dev nD) : V5 m (outs m) c = V5 m (outsB m) c := V5_mkOuts m _ _ _ _ _ c

/-! ## The valuations after each region, at the buffers the region may change -/

theorem V2_v27_0 (o : Outs (F := F)) (c : Dev nD) : V2 m o c (Proc.devRef .tc main_v27_0) = o 2 main_v27_0 c := by
  simp only [V2]
  rw [Function.update_of_ne (StableHlo.devRef_ne_of_ne (by decide)), Function.update_self]
theorem V2_v27_1 (o : Outs (F := F)) (c : Dev nD) : V2 m o c (Proc.devRef .tc main_v27_1) = o 2 main_v27_1 c := by
  simp only [V2]
  rw [Function.update_self]
theorem V4_v36 (o : Outs (F := F)) (c : Dev nD) : V4 m o c (Proc.devRef .tc main_v36) = o 4 main_v36 c := by
  simp only [V4]
  rw [Function.update_self]
theorem V6_v45 (o : Outs (F := F)) (c : Dev nD) : V6 m o c (Proc.devRef .tc main_v45) = o 6 main_v45 c := by
  simp only [V6]
  rw [Function.update_self]

/-! ## Each region's arrays at its exit -/

/-- Region 0 leaves its seven input arrays as entered and its two outputs at what the write-backs left. -/
theorem exit0 (c : Dev nD) (w : Fin cfg0.W) :
    (D0 m c).arrAt w cfg0.N = V2 m (outs m) c (Proc.devRef .tc (Pipeline.arrRef spec0 w)) := by
  have hin : ∀ w : Fin cfg0.W, (cfg0.win w).isOut = false → Pipeline.arrRef spec0 w ∉ ([main_v27_0, main_v27_1] : List (Ref sig .tc)) →
      (D0 m c).arrAt w cfg0.N = V2 m (outs m) c (Proc.devRef .tc (Pipeline.arrRef spec0 w)) := fun w hw hn => by
    rw [(D0 m c).arrAt_in w hw, V2_of m (outs m) c _ hn]; rfl
  match w with
  | ⟨0, _⟩ => exact hin _ rfl (by decide +revert)
  | ⟨1, _⟩ => exact hin _ rfl (by decide +revert)
  | ⟨2, _⟩ => exact hin _ rfl (by decide +revert)
  | ⟨3, _⟩ => exact hin _ rfl (by decide +revert)
  | ⟨4, _⟩ => exact hin _ rfl (by decide +revert)
  | ⟨5, _⟩ => exact hin _ rfl (by decide +revert)
  | ⟨6, _⟩ => exact hin _ rfl (by decide +revert)
  | ⟨7, _⟩ => exact ((V2_v27_0 m (outs m) c).trans (mkOuts_v27_0 m _ _ _ _ 2 c)).symm
  | ⟨8, _⟩ => exact ((V2_v27_1 m (outs m) c).trans (mkOuts_v27_1 m _ _ _ _ 2 c)).symm

theorem rest0 (c : Dev nD) (b : Ref sig .tc) (hb : b ∉ Finset.univ.image (Pipeline.arrRef spec0)) :
    V2 m (outs m) c (Proc.devRef .tc b) = V1 m c (Proc.devRef .tc b) :=
  V2_of m (outs m) c b fun hmem => by
    rcases List.mem_cons.mp hmem with rfl | hmem
    · exact hb (Finset.mem_image.mpr ⟨7, Finset.mem_univ _, rfl⟩)
    · rcases List.mem_cons.mp hmem with rfl | hmem
      · exact hb (Finset.mem_image.mpr ⟨8, Finset.mem_univ _, rfl⟩)
      · exact absurd hmem (List.not_mem_nil)

theorem entry1 (c : Dev nD) (w : Fin cfg1.W) : (D1 m c).A w = V3 m (outs m) c (Proc.devRef .tc (Pipeline.arrRef spec1 w)) := by
  rw [V3_outs]; exact A_eq1 _ c w

theorem exit1 (c : Dev nD) (w : Fin cfg1.W) :
    (D1 m c).arrAt w cfg1.N = V4 m (outs m) c (Proc.devRef .tc (Pipeline.arrRef spec1 w)) := by
  have hin : ∀ w : Fin cfg1.W, (cfg1.win w).isOut = false → Pipeline.arrRef spec1 w ∉ ([main_v36] : List (Ref sig .tc)) →
      (D1 m c).arrAt w cfg1.N = V4 m (outs m) c (Proc.devRef .tc (Pipeline.arrRef spec1 w)) := fun w hw hn => by
    rw [(D1 m c).arrAt_in w hw, V4_of m (outs m) c _ hn]; exact entry1 m c w
  match w with
  | ⟨0, _⟩ => exact hin _ rfl (by decide +revert)
  | ⟨1, _⟩ => exact hin _ rfl (by decide +revert)
  | ⟨2, _⟩ => exact hin _ rfl (by decide +revert)
  | ⟨3, _⟩ => exact hin _ rfl (by decide +revert)
  | ⟨4, _⟩ => exact hin _ rfl (by decide +revert)
  | ⟨5, _⟩ => exact hin _ rfl (by decide +revert)
  | ⟨6, _⟩ => exact hin _ rfl (by decide +revert)
  | ⟨7, _⟩ => exact ((V4_v36 m (outs m) c).trans (mkOuts_v36 m _ _ _ _ 4 c)).symm

theorem rest1 (c : Dev nD) (b : Ref sig .tc) (hb : b ∉ Finset.univ.image (Pipeline.arrRef spec1)) :
    V4 m (outs m) c (Proc.devRef .tc b) = V3 m (outs m) c (Proc.devRef .tc b) :=
  V4_of m (outs m) c b fun hmem => by
    rcases List.mem_cons.mp hmem with rfl | hmem
    · exact hb (Finset.mem_image.mpr ⟨7, Finset.mem_univ _, rfl⟩)
    · exact absurd hmem (List.not_mem_nil)

theorem entry2 (c : Dev nD) (w : Fin cfg2.W) : (D2 m c).A w = V5 m (outs m) c (Proc.devRef .tc (Pipeline.arrRef spec2 w)) := by
  rw [V5_outs]; exact A_eq2 _ c w

theorem exit2 (c : Dev nD) (w : Fin cfg2.W) :
    (D2 m c).arrAt w cfg2.N = V6 m (outs m) c (Proc.devRef .tc (Pipeline.arrRef spec2 w)) := by
  have hin : ∀ w : Fin cfg2.W, (cfg2.win w).isOut = false → Pipeline.arrRef spec2 w ∉ ([main_v45] : List (Ref sig .tc)) →
      (D2 m c).arrAt w cfg2.N = V6 m (outs m) c (Proc.devRef .tc (Pipeline.arrRef spec2 w)) := fun w hw hn => by
    rw [(D2 m c).arrAt_in w hw, V6_of m (outs m) c _ hn]; exact entry2 m c w
  match w with
  | ⟨0, _⟩ => exact hin _ rfl (by decide +revert)
  | ⟨1, _⟩ => exact hin _ rfl (by decide +revert)
  | ⟨2, _⟩ => exact hin _ rfl (by decide +revert)
  | ⟨3, _⟩ => exact hin _ rfl (by decide +revert)
  | ⟨4, _⟩ => exact hin _ rfl (by decide +revert)
  | ⟨5, _⟩ => exact hin _ rfl (by decide +revert)
  | ⟨6, _⟩ => exact hin _ rfl (by decide +revert)
  | ⟨7, _⟩ => exact ((V6_v45 m (outs m) c).trans (mkOuts_v45 m _ _ _ _ 6 c)).symm

theorem rest2 (c : Dev nD) (b : Ref sig .tc) (hb : b ∉ Finset.univ.image (Pipeline.arrRef spec2)) :
    V6 m (outs m) c (Proc.devRef .tc b) = V5 m (outs m) c (Proc.devRef .tc b) :=
  V6_of m (outs m) c b fun hmem => by
    rcases List.mem_cons.mp hmem with rfl | hmem
    · exact hb (Finset.mem_image.mpr ⟨7, Finset.mem_univ _, rfl⟩)
    · exact absurd hmem (List.not_mem_nil)

/-! ## The shares of the two windows on the common array -/

theorem q0 (c : Dev nD) (w : Fin cfg0.W) (h1 : w ≠ 1) (h2 : w ≠ 2) : (D0 m c).q w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
theorem q1 (c : Dev nD) (w : Fin cfg1.W) (h1 : w ≠ 1) (h2 : w ≠ 2) : (D1 m c).q w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl
  | ⟨5, _⟩, _, _ => rfl
  | ⟨6, _⟩, _, _ => rfl
  | ⟨7, _⟩, _, _ => rfl
theorem q2 (c : Dev nD) (w : Fin cfg2.W) (h1 : w ≠ 1) (h2 : w ≠ 2) : (D2 m c).q w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl
  | ⟨5, _⟩, _, _ => rfl
  | ⟨6, _⟩, _, _ => rfl
  | ⟨7, _⟩, _, _ => rfl

/-! ## The run -/

variable (ρ : Dev nD → PrngReg)
  (hb0 : ∀ c, BodyObligation (D0 (F := F) m c) (defs₀ (F := F)) Variants.none () Set.univ)
  (hb1 : ∀ c, BodyObligation (D1 (F := F) m c) (defs₀ (F := F)) Variants.none () Set.univ)
  (hb2 : ∀ c, BodyObligation (D2 (F := F) m c) (defs₀ (F := F)) Variants.none () Set.univ)

include hb0 hb1 hb2 in
set_option backward.isDefEq.respectTransparency.types false in
/-- From the three kernels' body obligations: every weakly fair execution of the host program terminates, and in
    every final memory each unscoped buffer of each core holds the fold's last valuation. -/
theorem run_of_bodies :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) :=
  run_cond m (outs m) emb₁ () Variants.none L lv (fun _ _ => rfl) ρ (pdats (D0 m) (D1 m) (D2 m))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 (D0 m) (D1 m) (D2 m) (V1 m) (V2 m (outs m)) (fun c w => A_eq0 _ c w) (fun _ => rfl) (fun _ => rfl) (q0 m)
      (fun _ _ => rfl) (fun _ _ => rfl) (fun _ _ => rfl) hb0 (exit0 m) (rest0 m))
    (fun _ => .rfl) (fun _ => .rfl)
    (reg1 (D0 m) (D1 m) (D2 m) (V3 m (outs m)) (V4 m (outs m)) (entry1 m) (fun _ => rfl) (fun _ => rfl) (q1 m)
      (fun _ _ => rfl) (fun _ _ => rfl) (fun _ _ => rfl) hb1 (exit1 m) (rest1 m))
    (fun _ => .rfl) (fun _ => .rfl)
    (reg2 (D0 m) (D1 m) (D2 m) (V5 m (outs m)) (V6 m (outs m)) (entry2 m) (fun _ => rfl) (fun _ => rfl) (q2 m)
      (fun _ _ => rfl) (fun _ _ => rfl) (fun _ _ => rfl) hb2 (exit2 m) (rest2 m))
    (fun _ => .rfl) (fun _ => .rfl)

end Cert.KernelIdeal.Hand

end
-- ==== Proof.KI.Body0.lean ====
/-
  Region 0, the kernel's half: what the body finds in each input window's buffer at a grid point (that window's
  block there, whether or not the pipeline fetched it at that point), the body's Hoare triple on whole staging
  buffers, and the body obligation of the pipeline rule at the proof data `dat0`.
-/
import proofs.«117840_j78494822302010_2_alg».proof.Proof.KI.Dat0
import Idealize.ShloMosaic.Lib.Pipeline.Value
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in an input window's buffer

An input window the body leaves as it found it holds its block at every point: at a point the pipeline fetches
it, the fetch put the block there; at any other point the window's block index has not moved since the point
before, so the block the buffer kept from there is this point's. The windows are not cut (every block lies whole
inside its array) and no point is idle for any of them. Stated for any proof data whose array is the region-entry
contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hblock : ∀ t, dat.blockOf 0 t = iblk0 V c 0 t := fun t => by unfold Dat.blockOf iblk0; rw [hA]
  rw [dat.before_in_eq_fetched 0 rfl (fun _ => rfl) (fun _ _ _ => rfl) (fun t => by rw [hafter, hblock]) t d]
  unfold Dat.fetched
  rw [hblock]
  rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hblock : ∀ t, dat.blockOf 1 t = iblk0 V c 1 t := fun t => by unfold Dat.blockOf iblk0; rw [hA]
  rw [dat.before_in_eq_fetched 1 rfl (fun _ => rfl) (fun _ _ _ => rfl) (fun t => by rw [hafter, hblock]) t d]
  unfold Dat.fetched
  rw [hblock]
  rfl

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hblock : ∀ t, dat.blockOf 2 t = iblk0 V c 2 t := fun t => by unfold Dat.blockOf iblk0; rw [hA]
  rw [dat.before_in_eq_fetched 2 rfl (fun _ => rfl) (fun _ _ _ => rfl) (fun t => by rw [hafter, hblock]) t d]
  unfold Dat.fetched
  rw [hblock]
  rfl

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hblock : ∀ t, dat.blockOf 3 t = iblk0 V c 3 t := fun t => by unfold Dat.blockOf iblk0; rw [hA]
  rw [dat.before_in_eq_fetched 3 rfl (fun _ => rfl) (fun _ _ _ => rfl) (fun t => by rw [hafter, hblock]) t d]
  unfold Dat.fetched
  rw [hblock]
  rfl

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  have hblock : ∀ t, dat.blockOf 4 t = iblk0 V c 4 t := fun t => by unfold Dat.blockOf iblk0; rw [hA]
  rw [dat.before_in_eq_fetched 4 rfl (fun _ => rfl) (fun _ _ _ => rfl) (fun t => by rw [hafter, hblock]) t d]
  unfold Dat.fetched
  rw [hblock]
  rfl

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t := by
  have hblock : ∀ t, dat.blockOf 5 t = iblk0 V c 5 t := fun t => by unfold Dat.blockOf iblk0; rw [hA]
  rw [dat.before_in_eq_fetched 5 rfl (fun _ => rfl) (fun _ _ _ => rfl) (fun t => by rw [hafter, hblock]) t d]
  unfold Dat.fetched
  rw [hblock]
  rfl

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t := by
  have hblock : ∀ t, dat.blockOf 6 t = iblk0 V c 6 t := fun t => by unfold Dat.blockOf iblk0; rw [hA]
  rw [dat.before_in_eq_fetched 6 rfl (fun _ => rfl) (fun _ _ _ => rfl) (fun t => by rw [hafter, hblock]) t d]
  unfold Dat.fetched
  rw [hblock]
  rfl

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body's stores cover their buffers

Each output buffer receives one store, through the rectangle at offset 0 with the buffer's own extents: every
index of the buffer lies in it. -/

theorem zeros3 : (![0, 0, 0] : Fin 3 → Nat) = fun _ => 0 := by
  funext a; fin_cases a <;> rfl

theorem cover0_7 (p : Vec F S1x256x64 .f32) (y : S1x256x64.Idx) :
    ∃ pc ∈ ([⟨rT0, p⟩] : List (View.Piece (Elt F) S1x256x64 .f32)), y ∈ pc.1.set :=
  ⟨_, List.mem_singleton_self _, View.mem_set_unit_zero zeros3 inb_S1x256x64_S1x256x64_0_0_0 y⟩

theorem cover0_8 (p : Vec F S1x256x4096 .bf16) (y : S1x256x4096.Idx) :
    ∃ pc ∈ ([⟨rA0, p⟩] : List (View.Piece (Elt F) S1x256x4096 .bf16)), y ∈ pc.1.set :=
  ⟨_, List.mem_singleton_self _, View.mem_set_unit_zero zeros3 inb_S1x256x4096_S1x256x4096_0_0_0 y⟩

/-! ## The body's triple -/

set_option maxHeartbeats 4000000 in
/-- The kernel body on whole staging buffers — the seven inputs' holding `x0 … x6`, the two outputs' holding
    anything — runs to the continuation with the inputs' buffers as they were and the outputs' holding
    `out0_7` and `out0_8` of the inputs. The body first loads each output buffer (a value no later
    operation reads) and then stores over the whole of it, so what the buffer held before does not matter. -/
theorem sound_kernel0 (c : Dev nD) (E : Set ℕ) (i : grid0.Coords)
    (arg2 : Memref sig .tc .vmem S1x256x4096 .f32) (harg2 : arg2.IsWhole)
    (arg3 : Memref sig .tc .vmem S1x4096x64 .f32) (harg3 : arg3.IsWhole)
    (arg4 : Memref sig .tc .vmem S1x256x64 .f32) (harg4 : arg4.IsWhole)
    (arg5 : Memref sig .tc .vmem S64x64 .f32) (harg5 : arg5.IsWhole)
    (arg6 : Memref sig .tc .vmem S1x64 .f32) (harg6 : arg6.IsWhole)
    (arg7 : Memref sig .tc .vmem S64x64 .f32) (harg7 : arg7.IsWhole)
    (arg8 : Memref sig .tc .vmem S1x64 .f32) (harg8 : arg8.IsWhole)
    (arg9 : Memref sig .tc .vmem S1x256x64 .f32) (harg9 : arg9.IsWhole)
    (arg10 : Memref sig .tc .vmem S1x256x4096 .bf16) (harg10 : arg10.IsWhole)
    (x0 : Vec F S1x256x4096 .f32) (x1 : Vec F S1x4096x64 .f32) (x2 : Vec F S1x256x64 .f32)
    (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2 x3 x4 x5 x6)
            ∗ owns (c : Thread nD τ) arg10 fullShare (out0_8 x0)) -∗ K ⟨⟩))
      ⊢ wp frame (wpE (defs₀ (F := F)) Variants.none c none) E (cc0_layer1_kernel i arg2 harg2 arg3 harg3 arg4 harg4 arg5 harg5 arg6 harg6 arg7 harg7 arg8 harg8 arg9 harg9 arg10 harg10) K := by
  simp only [cc0_layer1_kernel_eq_skeleton]; unfold cc0_layer1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap
    · iexact H7
    · ipureintro
      exact View.read_writes_eq_canon _ _ _ (cover0_7 _)
  · iexists _; isplitr
    swap
    · iexact H8
    · ipureintro
      exact View.read_writes_eq_canon _ _ _ (cover0_8 _)

/-! ## The body obligation, at a generic point -/

/-- What the body is called with at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns: the same invariant and debt, and each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: each input's buffer holds its block (`before0_W`), so the body's triple applies with
    the blocks for the read contents; the invariant and the core's debt are not touched by the body and pass
    through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation for region 0, at every point: its two conjunctions over the nine windows
    written out are `bodyPre0` and `bodyPost0`. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- Region 1 of @main (custom_call 1, the second-kind graph-convolution layer kernel on an 8×8 grid, eight windows,
   one output): the kernel's half of the frame at the entry contents `V`. Every input window's current
   buffer holds its block at every point (fetched there or not); the body's triple on whole staging memrefs; and from
   both the body obligation of the pipeline rule at every point. -/
import proofs.«117840_j78494822302010_2_alg».proof.Proof.Gen.KernelIdeal.Launch
import proofs.«117840_j78494822302010_2_alg».proof.Proof.Gen.KernelIdeal.Skeleton
import proofs.«117840_j78494822302010_2_alg».proof.Proof.Gen.KernelIdeal.Points
import proofs.«117840_j78494822302010_2_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 1: the kernel's half of the frame, at the entry contents `V` -/

/-! ## What the body finds in each input window's buffer -/

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body's store covers the output buffer -/

/-- The one store goes through the whole buffer, so it covers it. -/
theorem cover1_7 (p0 : Vec F S1x512x64 .f32) (y : S1x512x64.Idx) :
    ∃ pc ∈ ([⟨r1_2, p0⟩] : List (View.Piece (Elt F) S1x512x64 .f32)), y ∈ pc.1.set :=
  View.cover_of_tiled [⟨r1_2, p0⟩] S1x512x64.size (by rfl) y

/-! ## The body's triple -/

set_option maxHeartbeats 1000000 in
/-- The kernel body on whole staging memrefs, the inputs' at read contents `xW` and the output's at anything, runs to
    the continuation holding the inputs' as they were and the output's at `out1_7` of the inputs': the printed
    function and its part are their skeletons, seven loads of whole input buffers, a load of the output buffer whose
    value nothing reads, and one store through the whole output buffer. -/
theorem sound_kernel1 (c : Dev nD) (E : Set ℕ) (i : grid1.Coords) (arg2 : Memref sig .tc .vmem S1x512x4096 .bf16) (harg2 : arg2.IsWhole) (arg3 : Memref sig .tc .vmem S1x4096x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole)
    (x0 : Vec F S1x512x4096 .bf16) (x1 : Vec F S1x4096x64 .f32) (x2 : Vec F S1x512x64 .f32) (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6)) -∗ K ⟨⟩))
      ⊢ wp frame (wpE (defs₀ (F := F)) Variants.none c none) E (cc1_layer_bf16_kernel i arg2 harg2 arg3 harg3 arg4 harg4 arg5 harg5 arg6 harg6 arg7 harg7 arg8 harg8 arg9 harg9) K := by
  sl_unfold [cc1_layer_bf16_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/- Region 2 of @main (custom_call 2, the second-kind graph-convolution layer kernel on an 8×8 grid, eight windows,
   one output): the kernel's half of the frame at the entry contents `V`. Every input window's current
   buffer holds its block at every point (fetched there or not); the body's triple on whole staging memrefs; and from
   both the body obligation of the pipeline rule at every point. -/
import proofs.«117840_j78494822302010_2_alg».proof.Proof.Gen.KernelIdeal.Launch
import proofs.«117840_j78494822302010_2_alg».proof.Proof.Gen.KernelIdeal.Skeleton
import proofs.«117840_j78494822302010_2_alg».proof.Proof.Gen.KernelIdeal.Points
import proofs.«117840_j78494822302010_2_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # Region 2: the kernel's half of the frame, at the entry contents `V` -/

/-! ## What the body finds in each input window's buffer -/

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body's store covers the output buffer -/

/-- The one store goes through the whole buffer, so it covers it. -/
theorem cover2_7 (p0 : Vec F S1x512x64 .f32) (y : S1x512x64.Idx) :
    ∃ pc ∈ ([⟨r2_2, p0⟩] : List (View.Piece (Elt F) S1x512x64 .f32)), y ∈ pc.1.set :=
  View.cover_of_tiled [⟨r2_2, p0⟩] S1x512x64.size (by rfl) y

/-! ## The body's triple -/

set_option maxHeartbeats 1000000 in
/-- The kernel body on whole staging memrefs, the inputs' at read contents `xW` and the output's at anything, runs to
    the continuation holding the inputs' as they were and the output's at `out2_7` of the inputs': the printed
    function and its part are their skeletons, seven loads of whole input buffers, a load of the output buffer whose
    value nothing reads, and one store through the whole output buffer. -/
theorem sound_kernel2 (c : Dev nD) (E : Set ℕ) (i : grid2.Coords) (arg2 : Memref sig .tc .vmem S1x512x4096 .bf16) (harg2 : arg2.IsWhole) (arg3 : Memref sig .tc .vmem S1x4096x64 .f32) (harg3 : arg3.IsWhole) (arg4 : Memref sig .tc .vmem S1x512x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x512x64 .f32) (harg9 : arg9.IsWhole)
    (x0 : Vec F S1x512x4096 .bf16) (x1 : Vec F S1x4096x64 .f32) (x2 : Vec F S1x512x64 .f32) (x3 : Vec F S64x64 .f32) (x4 : Vec F S1x64 .f32) (x5 : Vec F S64x64 .f32) (x6 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out2_7 x0 x1 x2 x3 x4 x5 x6)) -∗ K ⟨⟩))
      ⊢ wp frame (wpE (defs₀ (F := F)) Variants.none c none) E (cc2_layer_bf16_kernel i arg2 harg2 arg3 harg3 arg4 harg4 arg5 harg5 arg6 harg6 arg7 harg7 arg8 harg8 arg9 harg9) K := by
  sl_unfold [cc2_layer_bf16_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Claim.lean ====
/-
  The frame of the program and its run read at the result, from the run over the three kernels' body obligations.

  The run ends with every unscoped buffer at the fold's last valuation. No host operation writes an argument array and
  no region changes one, so the fold's last valuation holds each argument as launched: the frame. The result buffer is
  read off the same valuation.
-/
import proofs.«117840_j78494822302010_2_alg».proof.Defs
import proofs.«117840_j78494822302010_2_alg».proof.Proof.Gen.Pre_finite_inputs
import proofs.«117840_j78494822302010_2_alg».proof.Proof.KI.Frame
import proofs.«117840_j78494822302010_2_alg».proof.Proof.KI.Body0
import proofs.«117840_j78494822302010_2_alg».proof.Proof.KI.Body1
import proofs.«117840_j78494822302010_2_alg».proof.Proof.KI.Body2

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The run, with the three kernels' body obligations supplied. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) :=
  run_of_bodies m ρ (fun c => body_obligation0 _ c) (fun c => body_obligation1 _ c) (fun c => body_obligation2 _ c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run's post at the nine arguments: each ends as launched. -/
theorem run_args (m : (ℓ : Loc nD τ sig) → Buf (Elt F) ℓ) (ρ : Dev nD → PrngReg) :
    θ_run defs (onTc (τ := τ) (main (F := F))) ⟨m, fun _ => 0, ρ⟩ (fun r => ∀ c : Dev nD,
      (∀ b ∈ Pipeline.ucRefs τ sig, r.2.mem (((c : Thread nD τ)).1, b) = V9 m (outs m) c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c,
      (h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c),
      (h c _ (mem_uc main_arg5 (by decide))).trans (V9_main_arg5 m (outs m) c),
      (h c _ (mem_uc main_arg6 (by decide))).trans (V9_main_arg6 m (outs m) c),
      (h c _ (mem_uc main_arg7 (by decide))).trans (V9_main_arg7 m (outs m) c),
      (h c _ (mem_uc main_arg8 (by decide))).trans (V9_main_arg8 m (outs m) c)⟩) (run m ρ)

/-- The frame claim: under any precondition, the program runs and its arguments end unchanged. -/
theorem frame : Cert.frame_KernelIdeal (hKernelIdeal := Cert.KernelIdeal.Gen.facts) (hPre_finite_inputs := Cert.Pre_finite_inputs.Gen.facts) :=
  fun m ρ _ => (θ_run defs _ _).mono (fun r h c => (h c).2) (run_args (F := Ideal) m ρ)

end Cert.KernelIdeal.Hand

end
-- ==== Proof.RefRun.lean ====
/- The reference program's @main read as one straight line of host operations, and what follows from that:
   its run from any memory, and its frame claim.

   @main calls three outlined functions — @leaky_relu six times (each call in turn calling @_where once) and
   @log_softmax once. A call executes the callee's body on the caller's operands, each value of the body in a
   buffer of its own, so the program is the list of its 138 operations in program order: @main's own statements,
   and at each call site the callee's operations over that call's record of buffers (for @leaky_relu: the zero
   and its broadcast, the comparison, the slope and its broadcast, the product, and @_where's select).

   Every one of the 138 operations writes one buffer, and the 138 written buffers are exactly the signature's
   buffers other than the nine arguments. An operation changes only the buffer it writes; hence the fold of the
   operations' results over any starting contents agrees with the starting contents at each argument, which is
   the frame claim once the run is read through the fold. -/
import proofs.«117840_j78494822302010_2_alg».proof.Defs
import proofs.«117840_j78494822302010_2_alg».proof.Proof.Gen.ReferenceIdeal
import proofs.«117840_j78494822302010_2_alg».proof.Proof.Gen.Pre_finite_inputs
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's 138 operations in program order, the three outlined functions inlined: at each call of
    @leaky_relu its six operations and the select of the @_where it calls, over that call's buffer record, its
    argument the caller's buffer; at the call of @log_softmax its thirteen. -/
abbrev ops : List (HloOp τ sig (Elt F)) :=
  [
    StableHlo.nullary main_c (constantI S_ 32 0#32),
    StableHlo.unary main_c main_v0 (broadcastInDim S8x2048 ![] bcast_S_S8x2048 : (⟨S_, .i32⟩ : BufTy).Contents (Elt F) → (⟨S8x2048, .i32⟩ : BufTy).Contents (Elt F)),
    StableHlo.binary main_arg0 main_v0 main_v1 (cmpi .slt : (⟨S8x2048, .i32⟩ : BufTy).Contents (Elt F) → (⟨S8x2048, .i32⟩ : BufTy).Contents (Elt F) → (⟨S8x2048, .i1⟩ : BufTy).Contents (Elt F)),
    StableHlo.nullary main_c_0 (constantI S_ 32 100000#32),
    StableHlo.unary main_c_0 main_v2 (broadcastInDim S8x2048 ![] bcast_S_S8x2048 : (⟨S_, .i32⟩ : BufTy).Contents (Elt F) → (⟨S8x2048, .i32⟩ : BufTy).Contents (Elt F)),
    StableHlo.binary main_arg0 main_v2 main_v3 (addi : (⟨S8x2048, .i32⟩ : BufTy).Contents (Elt F) → (⟨S8x2048, .i32⟩ : BufTy).Contents (Elt F) → (⟨S8x2048, .i32⟩ : BufTy).Contents (Elt F)),
    StableHlo.ternary main_v1 main_v3 main_arg0 main_v4 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v4 main_v5 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg3 main_v5 main_v6 ((fun x i => Host.gather gather_S100000x64_S8x2048x1_S8x2048x64_2_0_n_n_0_2_164 x i) : (⟨S100000x64, .f32⟩ : BufTy).Contents (Elt F) → (⟨S8x2048x1, .i32⟩ : BufTy).Contents (Elt F) → (⟨S8x2048x64, .f32⟩ : BufTy).Contents (Elt F)),
    StableHlo.nullary main_c_1 (constantI S_ 32 0#32),
    StableHlo.unary main_c_1 main_v7 (broadcastInDim S8x2048 ![] bcast_S_S8x2048 : (⟨S_, .i32⟩ : BufTy).Contents (Elt F) → (⟨S8x2048, .i32⟩ : BufTy).Contents (Elt F)),
    StableHlo.binary main_arg1 main_v7 main_v8 (cmpi .slt : (⟨S8x2048, .i32⟩ : BufTy).Contents (Elt F) → (⟨S8x2048, .i32⟩ : BufTy).Contents (Elt F) → (⟨S8x2048, .i1⟩ : BufTy).Contents (Elt F)),
    StableHlo.nullary main_c_2 (constantI S_ 32 100000#32),
    StableHlo.unary main_c_2 main_v9 (broadcastInDim S8x2048 ![] bcast_S_S8x2048 : (⟨S_, .i32⟩ : BufTy).Contents (Elt F) → (⟨S8x2048, .i32⟩ : BufTy).Contents (Elt F)),
    StableHlo.binary main_arg1 main_v9 main_v10 (addi : (⟨S8x2048, .i32⟩ : BufTy).Contents (Elt F) → (⟨S8x2048, .i32⟩ : BufTy).Contents (Elt F) → (⟨S8x2048, .i32⟩ : BufTy).Contents (Elt F)),
    StableHlo.ternary main_v8 main_v10 main_arg1 main_v11 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v11 main_v12 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg4 main_v12 main_v13 ((fun x i => Host.gather gather_S100000x64_S8x2048x1_S8x2048x64_2_0_n_n_0_2_164 x i) : (⟨S100000x64, .f32⟩ : BufTy).Contents (Elt F) → (⟨S8x2048x1, .i32⟩ : BufTy).Contents (Elt F) → (⟨S8x2048x64, .f32⟩ : BufTy).Contents (Elt F)),
    StableHlo.binary main_v6 main_v13 main_v14 ((fun a b => concatenate S8x4096x64 1 [⟨S8x2048x64, a⟩, ⟨S8x2048x64, b⟩] concatenates_S8x2048x64_S8x2048x64_S8x4096x64_d1) : (⟨S8x2048x64, .f32⟩ : BufTy).Contents (Elt F) → (⟨S8x2048x64, .f32⟩ : BufTy).Contents (Elt F) → (⟨S8x4096x64, .f32⟩ : BufTy).Contents (Elt F)),
    StableHlo.binary main_arg2 main_v14 main_v15 ((fun l r => Host.dotGeneral dot_S8x4096x4096_S8x4096x64_S8x4096x64_2_1_1_2_0_0 none l r) : (⟨S8x4096x4096, .f32⟩ : BufTy).Contents (Elt F) → (⟨S8x4096x64, .f32⟩ : BufTy).Contents (Elt F) → (⟨S8x4096x64, .f32⟩ : BufTy).Contents (Elt F)),
    StableHlo.unary main_arg5 main_v16 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v16 main_v17 rfl shapeCasts_S1x64x64_S64x64,
    StableHlo.binary main_v15 main_v17 main_v18 ((fun l r => Host.dotGeneral dot_S8x4096x64_S64x64_S8x4096x64_2_1_01_0_n_n none l r) : (⟨S8x4096x64, .f32⟩ : BufTy).Contents (Elt F) → (⟨S64x64, .f32⟩ : BufTy).Contents (Elt F) → (⟨S8x4096x64, .f32⟩ : BufTy).Contents (Elt F)),
    StableHlo.unary main_arg6 main_v19 ((extractStridedSlice S1x64 ![0, 0] · slices_S3x64_S1x64_0_0) : (⟨S3x64, .f32⟩ : BufTy).Contents (Elt F) → (⟨S1x64, .f32⟩ : BufTy).Contents (Elt F)),
    StableHlo.reshape main_v19 main_v20 rfl shapeCasts_S1x64_S64,
    StableHlo.unary main_v20 main_v21 (broadcastInDim S1x1x64 ![2] bcast_S64_S1x1x64_2 : (⟨S64, .f32⟩ : BufTy).Contents (Elt F) → (⟨S1x1x64, .f32⟩ : BufTy).Contents (Elt F)),
    StableHlo.unary main_v21 main_v22 (broadcastInDim S8x4096x64 ![0, 1, 2] bcast_S1x1x64_S8x4096x64_0_1_2 : (⟨S1x1x64, .f32⟩ : BufTy).Contents (Elt F) → (⟨S8x4096x64, .f32⟩ : BufTy).Contents (Elt F)),
    StableHlo.binary main_v18 main_v22 main_v23 (addf : (⟨S8x4096x64, .f32⟩ : BufTy).Contents (Elt F) → (⟨S8x4096x64, .f32⟩ : BufTy).Contents (Elt F) → (⟨S8x4096x64, .f32⟩ : BufTy).Contents (Elt F)),
    StableHlo.TRef.nullary main_call0.cst (constant S_ .f32 0x00000000#32),
    StableHlo.TRef.unary main_call0.cst main_call0.v0 (broadcastInDim S8x4096x64 ![] bcast_S_S8x4096x64),
    StableHlo.TRef.binary (.of main_v23 : StableHlo.TRef sig ⟨S8x4096x64, .f32⟩) main_call0.v0 main_call0.v1 (cmpf .oge),
    StableHlo.TRef.nullary main_call0.cst_0 (constant S_ .f32 0x3C23D70A#32),
    StableHlo.TRef.unary main_call0.cst_0 main_call0.v2 (broadcastInDim S8x4096x64 ![] bcast_S_S8x4096x64),
    StableHlo.TRef.binary main_call0.v2 (.of main_v23 : StableHlo.TRef sig ⟨S8x4096x64, .f32⟩) main_call0.v3 mulf,
    StableHlo.TRef.ternary main_call0.v1 (.of main_v23 : StableHlo.TRef sig ⟨S8x4096x64, .f32⟩) main_call0.v3 main_call0.call0.v0 select,
    StableHlo.binary main_v14 main_v15 main_v25 (mulf : (⟨S8x4096x64, .f32⟩ : BufTy).Contents (Elt F) → (⟨S8x4096x64, .f32⟩ : BufTy).Contents (Elt F) → (⟨S8x4096x64, .f32⟩ : BufTy).Contents (Elt F)),
    StableHlo.unary main_arg7 main_v26 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v26 main_v27 rfl shapeCasts_S1x64x64_S64x64,
    StableHlo.binary main_v25 main_v27 main_v28 ((fun l r => Host.dotGeneral dot_S8x4096x64_S64x64_S8x4096x64_2_1_01_0_n_n none l r) : (⟨S8x4096x64, .f32⟩ : BufTy).Contents (Elt F) → (⟨S64x64, .f32⟩ : BufTy).Contents (Elt F) → (⟨S8x4096x64, .f32⟩ : BufTy).Contents (Elt F)),
    StableHlo.unary main_arg8 main_v29 ((extractStridedSlice S1x64 ![0, 0] · slices_S3x64_S1x64_0_0) : (⟨S3x64, .f32⟩ : BufTy).Contents (Elt F) → (⟨S1x64, .f32⟩ : BufTy).Contents (Elt F)),
    StableHlo.reshape main_v29 main_v30 rfl shapeCasts_S1x64_S64,
    StableHlo.unary main_v30 main_v31 (broadcastInDim S1x1x64 ![2] bcast_S64_S1x1x64_2 : (⟨S64, .f32⟩ : BufTy).Contents (Elt F) → (⟨S1x1x64, .f32⟩ : BufTy).Contents (Elt F)),
    StableHlo.unary main_v31 main_v32 (broadcastInDim S8x4096x64 ![0, 1, 2] bcast_S1x1x64_S8x4096x64_0_1_2 : (⟨S1x1x64, .f32⟩ : BufTy).Contents (Elt F) → (⟨S8x4096x64, .f32⟩ : BufTy).Contents (Elt F)),
    StableHlo.binary main_v28 main_v32 main_v33 (addf : (⟨S8x4096x64, .f32⟩ : BufTy).Contents (Elt F) → (⟨S8x4096x64, .f32⟩ : BufTy).Contents (Elt F) → (⟨S8x4096x64, .f32⟩ : BufTy).Contents (Elt F)),
    StableHlo.TRef.nullary main_call1.cst (constant S_ .f32 0x00000000#32),
    StableHlo.TRef.unary main_call1.cst main_call1.v0 (broadcastInDim S8x4096x64 ![] bcast_S_S8x4096x64),
    StableHlo.TRef.binary (.of main_v33 : StableHlo.TRef sig ⟨S8x4096x64, .f32⟩) main_call1.v0 main_call1.v1 (cmpf .oge),
    StableHlo.TRef.nullary main_call1.cst_0 (constant S_ .f32 0x3C23D70A#32),
    StableHlo.TRef.unary main_call1.cst_0 main_call1.v2 (broadcastInDim S8x4096x64 ![] bcast_S_S8x4096x64),
    StableHlo.TRef.binary main_call1.v2 (.of main_v33 : StableHlo.TRef sig ⟨S8x4096x64, .f32⟩) main_call1.v3 mulf,
    StableHlo.TRef.ternary main_call1.v1 (.of main_v33 : StableHlo.TRef sig ⟨S8x4096x64, .f32⟩) main_call1.v3 main_call1.call0.v0 select,
    StableHlo.binary main_v24 main_v34 main_v35 (addf : (⟨S8x4096x64, .f32⟩ : BufTy).Contents (Elt F) → (⟨S8x4096x64, .f32⟩ : BufTy).Contents (Elt F) → (⟨S8x4096x64, .f32⟩ : BufTy).Contents (Elt F)),
    StableHlo.binary main_arg2 main_v35 main_v36 ((fun l r => Host.dotGeneral dot_S8x4096x4096_S8x4096x64_S8x4096x64_2_1_1_2_0_0 none l r) : (⟨S8x4096x4096, .f32⟩ : BufTy).Contents (Elt F) → (⟨S8x4096x64, .f32⟩ : BufTy).Contents (Elt F) → (⟨S8x4096x64, .f32⟩ : BufTy).Contents (Elt F)),
    StableHlo.unary main_arg5 main_v37 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v37 main_v38 rfl shapeCasts_S1x64x64_S64x64,
    StableHlo.binary main_v36 main_v38 main_v39 ((fun l r => Host.dotGeneral dot_S8x4096x64_S64x64_S8x4096x64_2_1_01_0_n_n none l r) : (⟨S8x4096x64, .f32⟩ : BufTy).Contents (Elt F) → (⟨S64x64, .f32⟩ : BufTy).Contents (Elt F) → (⟨S8x4096x64, .f32⟩ : BufTy).Contents (Elt F)),
    StableHlo.unary main_arg6 main_v40 ((extractStridedSlice S1x64 ![1, 0] · slices_S3x64_S1x64_1_0) : (⟨S3x64, .f32⟩ : BufTy).Contents (Elt F) → (⟨S1x64, .f32⟩ : BufTy).Contents (Elt F)),
    StableHlo.reshape main_v40 main_v41 rfl shapeCasts_S1x64_S64,
    StableHlo.unary main_v41 main_v42 (broadcastInDim S1x1x64 ![2] bcast_S64_S1x1x64_2 : (⟨S64, .f32⟩ : BufTy).Contents (Elt F) → (⟨S1x1x64, .f32⟩ : BufTy).Contents (Elt F)),
    StableHlo.unary main_v42 main_v43 (broadcastInDim S8x4096x64 ![0, 1, 2] bcast_S1x1x64_S8x4096x64_0_1_2 : (⟨S1x1x64, .f32⟩ : BufTy).Contents (Elt F) → (⟨S8x4096x64, .f32⟩ : BufTy).Contents (Elt F)),
    StableHlo.binary main_v39 main_v43 main_v44 (addf : (⟨S8x4096x64, .f32⟩ : BufTy).Contents (Elt F) → (⟨S8x4096x64, .f32⟩ : BufTy).Contents (Elt F) → (⟨S8x4096x64, .f32⟩ : BufTy).Contents (Elt F)),
    StableHlo.TRef.nullary main_call2.cst (constant S_ .f32 0x00000000#32),
    StableHlo.TRef.unary main_call2.cst main_call2.v0 (broadcastInDim S8x4096x64 ![] bcast_S_S8x4096x64),
    StableHlo.TRef.binary (.of main_v44 : StableHlo.TRef sig ⟨S8x4096x64, .f32⟩) main_call2.v0 main_call2.v1 (cmpf .oge),
    StableHlo.TRef.nullary main_call2.cst_0 (constant S_ .f32 0x3C23D70A#32),
    StableHlo.TRef.unary main_call2.cst_0 main_call2.v2 (broadcastInDim S8x4096x64 ![] bcast_S_S8x4096x64),
    StableHlo.TRef.binary main_call2.v2 (.of main_v44 : StableHlo.TRef sig ⟨S8x4096x64, .f32⟩) main_call2.v3 mulf,
    StableHlo.TRef.ternary main_call2.v1 (.of main_v44 : StableHlo.TRef sig ⟨S8x4096x64, .f32⟩) main_call2.v3 main_call2.call0.v0 select,
    StableHlo.binary main_v35 main_v36 main_v46 (mulf : (⟨S8x4096x64, .f32⟩ : BufTy).Contents (Elt F) → (⟨S8x4096x64, .f32⟩ : BufTy).Contents (Elt F) → (⟨S8x4096x64, .f32⟩ : BufTy).Contents (Elt F)),
    StableHlo.unary main_arg7 main_v47 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v47 main_v48 rfl shapeCasts_S1x64x64_S64x64,
    StableHlo.binary main_v46 main_v48 main_v49 ((fun l r => Host.dotGeneral dot_S8x4096x64_S64x64_S8x4096x64_2_1_01_0_n_n none l r) : (⟨S8x4096x64, .f32⟩ : BufTy).Contents (Elt F) → (⟨S64x64, .f32⟩ : BufTy).Contents (Elt F) → (⟨S8x4096x64, .f32⟩ : BufTy).Contents (Elt F)),
    StableHlo.unary main_arg8 main_v50 ((extractStridedSlice S1x64 ![1, 0] · slices_S3x64_S1x64_1_0) : (⟨S3x64, .f32⟩ : BufTy).Contents (Elt F) → (⟨S1x64, .f32⟩ : BufTy).Contents (Elt F)),
    StableHlo.reshape main_v50 main_v51 rfl shapeCasts_S1x64_S64,
    StableHlo.unary main_v51 main_v52 (broadcastInDim S1x1x64 ![2] bcast_S64_S1x1x64_2 : (⟨S64, .f32⟩ : BufTy).Contents (Elt F) → (⟨S1x1x64, .f32⟩ : BufTy).Contents (Elt F)),
    StableHlo.unary main_v52 main_v53 (broadcastInDim S8x4096x64 ![0, 1, 2] bcast_S1x1x64_S8x4096x64_0_1_2 : (⟨S1x1x64, .f32⟩ : BufTy).Contents (Elt F) → (⟨S8x4096x64, .f32⟩ : BufTy).Contents (Elt F)),
    StableHlo.binary main_v49 main_v53 main_v54 (addf : (⟨S8x4096x64, .f32⟩ : BufTy).Contents (Elt F) → (⟨S8x4096x64, .f32⟩ : BufTy).Contents (Elt F) → (⟨S8x4096x64, .f32⟩ : BufTy).Contents (Elt F)),
    StableHlo.TRef.nullary main_call3.cst (constant S_ .f32 0x00000000#32),
    StableHlo.TRef.unary main_call3.cst main_call3.v0 (broadcastInDim S8x4096x64 ![] bcast_S_S8x4096x64),
    StableHlo.TRef.binary (.of main_v54 : StableHlo.TRef sig ⟨S8x4096x64, .f32⟩) main_call3.v0 main_call3.v1 (cmpf .oge),
    StableHlo.TRef.nullary main_call3.cst_0 (constant S_ .f32 0x3C23D70A#32),
    StableHlo.TRef.unary main_call3.cst_0 main_call3.v2 (broadcastInDim S8x4096x64 ![] bcast_S_S8x4096x64),
    StableHlo.TRef.binary main_call3.v2 (.of main_v54 : StableHlo.TRef sig ⟨S8x4096x64, .f32⟩) main_call3.v3 mulf,
    StableHlo.TRef.ternary main_call3.v1 (.of main_v54 : StableHlo.TRef sig ⟨S8x4096x64, .f32⟩) main_call3.v3 main_call3.call0.v0 select,
    StableHlo.binary main_v45 main_v55 main_v56 (addf : (⟨S8x4096x64, .f32⟩ : BufTy).Contents (Elt F) → (⟨S8x4096x64, .f32⟩ : BufTy).Contents (Elt F) → (⟨S8x4096x64, .f32⟩ : BufTy).Contents (Elt F)),
    StableHlo.binary main_arg2 main_v56 main_v57 ((fun l r => Host.dotGeneral dot_S8x4096x4096_S8x4096x64_S8x4096x64_2_1_1_2_0_0 none l r) : (⟨S8x4096x4096, .f32⟩ : BufTy).Contents (Elt F) → (⟨S8x4096x64, .f32⟩ : BufTy).Contents (Elt F) → (⟨S8x4096x64, .f32⟩ : BufTy).Contents (Elt F)),
    StableHlo.unary main_arg5 main_v58 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v58 main_v59 rfl shapeCasts_S1x64x64_S64x64,
    StableHlo.binary main_v57 main_v59 main_v60 ((fun l r => Host.dotGeneral dot_S8x4096x64_S64x64_S8x4096x64_2_1_01_0_n_n none l r) : (⟨S8x4096x64, .f32⟩ : BufTy).Contents (Elt F) → (⟨S64x64, .f32⟩ : BufTy).Contents (Elt F) → (⟨S8x4096x64, .f32⟩ : BufTy).Contents (Elt F)),
    StableHlo.unary main_arg6 main_v61 ((extractStridedSlice S1x64 ![2, 0] · slices_S3x64_S1x64_2_0) : (⟨S3x64, .f32⟩ : BufTy).Contents (Elt F) → (⟨S1x64, .f32⟩ : BufTy).Contents (Elt F)),
    StableHlo.reshape main_v61 main_v62 rfl shapeCasts_S1x64_S64,
    StableHlo.unary main_v62 main_v63 (broadcastInDim S1x1x64 ![2] bcast_S64_S1x1x64_2 : (⟨S64, .f32⟩ : BufTy).Contents (Elt F) → (⟨S1x1x64, .f32⟩ : BufTy).Contents (Elt F)),
    StableHlo.unary main_v63 main_v64 (broadcastInDim S8x4096x64 ![0, 1, 2] bcast_S1x1x64_S8x4096x64_0_1_2 : (⟨S1x1x64, .f32⟩ : BufTy).Contents (Elt F) → (⟨S8x4096x64, .f32⟩ : BufTy).Contents (Elt F)),
    StableHlo.binary main_v60 main_v64 main_v65 (addf : (⟨S8x4096x64, .f32⟩ : BufTy).Contents (Elt F) → (⟨S8x4096x64, .f32⟩ : BufTy).Contents (Elt F) → (⟨S8x4096x64, .f32⟩ : BufTy).Contents (Elt F)),
    StableHlo.TRef.nullary main_call4.cst (constant S_ .f32 0x00000000#32),
    StableHlo.TRef.unary main_call4.cst main_call4.v0 (broadcastInDim S8x4096x64 ![] bcast_S_S8x4096x64),
    StableHlo.TRef.binary (.of main_v65 : StableHlo.TRef sig ⟨S8x4096x64, .f32⟩) main_call4.v0 main_call4.v1 (cmpf .oge),
    StableHlo.TRef.nullary main_call4.cst_0 (constant S_ .f32 0x3C23D70A#32),
    StableHlo.TRef.unary main_call4.cst_0 main_call4.v2 (broadcastInDim S8x4096x64 ![] bcast_S_S8x4096x64),
    StableHlo.TRef.binary main_call4.v2 (.of main_v65 : StableHlo.TRef sig ⟨S8x4096x64, .f32⟩) main_call4.v3 mulf,
    StableHlo.TRef.ternary main_call4.v1 (.of main_v65 : StableHlo.TRef sig ⟨S8x4096x64, .f32⟩) main_call4.v3 main_call4.call0.v0 select,
    StableHlo.binary main_v56 main_v57 main_v67 (mulf : (⟨S8x4096x64, .f32⟩ : BufTy).Contents (Elt F) → (⟨S8x4096x64, .f32⟩ : BufTy).Contents (Elt F) → (⟨S8x4096x64, .f32⟩ : BufTy).Contents (Elt F)),
    StableHlo.unary main_arg7 main_v68 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v68 main_v69 rfl shapeCasts_S1x64x64_S64x64,
    StableHlo.binary main_v67 main_v69 main_v70 ((fun l r => Host.dotGeneral dot_S8x4096x64_S64x64_S8x4096x64_2_1_01_0_n_n none l r) : (⟨S8x4096x64, .f32⟩ : BufTy).Contents (Elt F) → (⟨S64x64, .f32⟩ : BufTy).Contents (Elt F) → (⟨S8x4096x64, .f32⟩ : BufTy).Contents (Elt F)),
    StableHlo.unary main_arg8 main_v71 ((extractStridedSlice S1x64 ![2, 0] · slices_S3x64_S1x64_2_0) : (⟨S3x64, .f32⟩ : BufTy).Contents (Elt F) → (⟨S1x64, .f32⟩ : BufTy).Contents (Elt F)),
    StableHlo.reshape main_v71 main_v72 rfl shapeCasts_S1x64_S64,
    StableHlo.unary main_v72 main_v73 (broadcastInDim S1x1x64 ![2] bcast_S64_S1x1x64_2 : (⟨S64, .f32⟩ : BufTy).Contents (Elt F) → (⟨S1x1x64, .f32⟩ : BufTy).Contents (Elt F)),
    StableHlo.unary main_v73 main_v74 (broadcastInDim S8x4096x64 ![0, 1, 2] bcast_S1x1x64_S8x4096x64_0_1_2 : (⟨S1x1x64, .f32⟩ : BufTy).Contents (Elt F) → (⟨S8x4096x64, .f32⟩ : BufTy).Contents (Elt F)),
    StableHlo.binary main_v70 main_v74 main_v75 (addf : (⟨S8x4096x64, .f32⟩ : BufTy).Contents (Elt F) → (⟨S8x4096x64, .f32⟩ : BufTy).Contents (Elt F) → (⟨S8x4096x64, .f32⟩ : BufTy).Contents (Elt F)),
    StableHlo.TRef.nullary main_call5.cst (constant S_ .f32 0x00000000#32),
    StableHlo.TRef.unary main_call5.cst main_call5.v0 (broadcastInDim S8x4096x64 ![] bcast_S_S8x4096x64),
    StableHlo.TRef.binary (.of main_v75 : StableHlo.TRef sig ⟨S8x4096x64, .f32⟩) main_call5.v0 main_call5.v1 (cmpf .oge),
    StableHlo.TRef.nullary main_call5.cst_0 (constant S_ .f32 0x3C23D70A#32),
    StableHlo.TRef.unary main_call5.cst_0 main_call5.v2 (broadcastInDim S8x4096x64 ![] bcast_S_S8x4096x64),
    StableHlo.TRef.binary main_call5.v2 (.of main_v75 : StableHlo.TRef sig ⟨S8x4096x64, .f32⟩) main_call5.v3 mulf,
    StableHlo.TRef.ternary main_call5.v1 (.of main_v75 : StableHlo.TRef sig ⟨S8x4096x64, .f32⟩) main_call5.v3 main_call5.call0.v0 select,
    StableHlo.binary main_v66 main_v76 main_v77 (addf : (⟨S8x4096x64, .f32⟩ : BufTy).Contents (Elt F) → (⟨S8x4096x64, .f32⟩ : BufTy).Contents (Elt F) → (⟨S8x4096x64, .f32⟩ : BufTy).Contents (Elt F)),
    StableHlo.unary main_v77 main_v78 ((extractStridedSlice S8x2048x64 ![0, 0, 0] · slices_S8x4096x64_S8x2048x64_0_0_0) : (⟨S8x4096x64, .f32⟩ : BufTy).Contents (Elt F) → (⟨S8x2048x64, .f32⟩ : BufTy).Contents (Elt F)),
    StableHlo.unary main_v77 main_v79 ((extractStridedSlice S8x2048x64 ![0, 2048, 0] · slices_S8x4096x64_S8x2048x64_0_2048_0) : (⟨S8x4096x64, .f32⟩ : BufTy).Contents (Elt F) → (⟨S8x2048x64, .f32⟩ : BufTy).Contents (Elt F)),
    StableHlo.binary main_v78 main_v79 main_v80 (mulf : (⟨S8x2048x64, .f32⟩ : BufTy).Contents (Elt F) → (⟨S8x2048x64, .f32⟩ : BufTy).Contents (Elt F) → (⟨S8x2048x64, .f32⟩ : BufTy).Contents (Elt F)),
    StableHlo.nullary main_cst (constant S_ .f32 0x00000000#32),
    StableHlo.binary main_v80 main_cst main_v81 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    StableHlo.unary main_v81 main_v82 (broadcastInDim S8x2048x1 ![0, 1] bcast_S8x2048_S8x2048x1_0_1 : (⟨S8x2048, .f32⟩ : BufTy).Contents (Elt F) → (⟨S8x2048x1, .f32⟩ : BufTy).Contents (Elt F)),
    StableHlo.TRef.nullary main_call6.cst (constant S_ .f32 0xFF800000#32),
    StableHlo.TRef.binary (.of main_v82 : StableHlo.TRef sig ⟨S8x2048x1, .f32⟩) main_call6.cst main_call6.v0 (fun x v => Host.reduce FloatOps.maximumf x v reducesTo_S8x2048x1_S8x2048_d2 h_S_),
    StableHlo.TRef.nullary main_call6.cst_0 (constant S_ .f32 0xFF800000#32),
    StableHlo.TRef.unary main_call6.cst_0 main_call6.v1 (broadcastInDim S8x2048 ![] bcast_S_S8x2048),
    StableHlo.TRef.binary main_call6.v1 main_call6.v0 main_call6.v2 maximumf,
    StableHlo.TRef.unary main_call6.v2 main_call6.v3 (broadcastInDim S8x2048x1 ![0, 1] bcast_S8x2048_S8x2048x1_0_1),
    StableHlo.TRef.binary (.of main_v82 : StableHlo.TRef sig ⟨S8x2048x1, .f32⟩) main_call6.v3 main_call6.v4 subf,
    StableHlo.TRef.unary main_call6.v4 main_call6.v5 Host.exp,
    StableHlo.TRef.nullary main_call6.cst_1 (constant S_ .f32 0x00000000#32),
    StableHlo.TRef.binary main_call6.v5 main_call6.cst_1 main_call6.v6 (fun x v => Host.reduceAdd x v reducesTo_S8x2048x1_S8x2048_d2 h_S_),
    StableHlo.TRef.unary main_call6.v6 main_call6.v7 (broadcastInDim S8x2048x1 ![0, 1] bcast_S8x2048_S8x2048x1_0_1),
    StableHlo.TRef.unary main_call6.v7 main_call6.v8 Host.log,
    StableHlo.TRef.binary main_call6.v4 main_call6.v8 main_call6.v9 subf,
    StableHlo.reshape main_v83 main_v84 rfl shapeCasts_S8x2048x1_S16384x1 ]

/-- @main is that straight line: its two windows in order, each function's definition unfolded at its call and
    each record at its fields; once sequencing is reassociated both sides are one chain of operation steps. -/
theorem main_eq (c : Dev nD) : main (F := F) c = seq ops := by
  simp only [main, main_part0, main_part1, fn_leaky_relu.body, fn_where.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., unary_bufs_sub .., unary_bufs_sub ..,
    binary_bufs_sub .., nullary_bufs_sub .., binary_bufs_sub .., unary_bufs_sub .., nullary_bufs_sub .., binary_bufs_sub ..,
    nullary_bufs_sub .., unary_bufs_sub .., binary_bufs_sub .., unary_bufs_sub .., binary_bufs_sub .., unary_bufs_sub ..,
    nullary_bufs_sub .., binary_bufs_sub .., unary_bufs_sub .., unary_bufs_sub .., binary_bufs_sub .., reshape_bufs_sub ..⟩

/-- Every operation determines its results: none allocates a buffer of unknown contents. -/
theorem ops_fresh : (ops : List (HloOp τ sig (Elt F))).Forall fun op => op.fresh = ∅ := by
  simp only [List.Forall]; repeat' constructor

/-- On the one device, for any float values, from any memory with zero counters: every weakly fair execution of
    @main terminates, and every final state has each TensorCore buffer at the fold of the 138 operations'
    results over that device's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (fun b => m (c, b)) (Proc.devRef .tc b) :=
  run_seq scopedRefs_eq scopedSems_eq defs main (fun _ => ops) main_eq (fun _ => ops_sub) m ρ
    (fun _ op h => List.forall_iff_forall_mem.mp ops_fresh op h)

/-- The references the operations write, in program order: one per operation, all distinct, none an argument. -/
abbrev written : List (Ref sig .tc) :=
  [
    main_c, main_v0, main_v1, main_c_0, main_v2, main_v3, main_v4, main_v5, main_v6, main_c_1,
    main_v7, main_v8, main_c_2, main_v9, main_v10, main_v11, main_v12, main_v13, main_v14, main_v15,
    main_v16, main_v17, main_v18, main_v19, main_v20, main_v21, main_v22, main_v23, main_call0_cst, main_call0_v0,
    main_call0_v1, main_call0_cst_0, main_call0_v2, main_call0_v3, main_v24, main_v25, main_v26, main_v27, main_v28, main_v29,
    main_v30, main_v31, main_v32, main_v33, main_call1_cst, main_call1_v0, main_call1_v1, main_call1_cst_0, main_call1_v2, main_call1_v3,
    main_v34, main_v35, main_v36, main_v37, main_v38, main_v39, main_v40, main_v41, main_v42, main_v43,
    main_v44, main_call2_cst, main_call2_v0, main_call2_v1, main_call2_cst_0, main_call2_v2, main_call2_v3, main_v45, main_v46, main_v47,
    main_v48, main_v49, main_v50, main_v51, main_v52, main_v53, main_v54, main_call3_cst, main_call3_v0, main_call3_v1,
    main_call3_cst_0, main_call3_v2, main_call3_v3, main_v55, main_v56, main_v57, main_v58, main_v59, main_v60, main_v61,
    main_v62, main_v63, main_v64, main_v65, main_call4_cst, main_call4_v0, main_call4_v1, main_call4_cst_0, main_call4_v2, main_call4_v3,
    main_v66, main_v67, main_v68, main_v69, main_v70, main_v71, main_v72, main_v73, main_v74, main_v75,
    main_call5_cst, main_call5_v0, main_call5_v1, main_call5_cst_0, main_call5_v2, main_call5_v3, main_v76, main_v77, main_v78, main_v79,
    main_v80, main_cst, main_v81, main_v82, main_call6_cst, main_call6_v0, main_call6_cst_0, main_call6_v1, main_call6_v2, main_call6_v3,
    main_call6_v4, main_call6_v5, main_call6_cst_1, main_call6_v6, main_call6_v7, main_call6_v8, main_v83, main_v84 ]

/-- Each operation writes only its own result buffer, which is in the list. -/
theorem ops_writes : (ops : List (HloOp τ sig (Elt F))).Forall fun op => op.writes ⊆ (written.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- Argument 0's buffer is not among the written references, so the fold leaves it at its launch contents. -/
theorem kept_main_arg0 (m : (ℓ : Loc nD τ sig) → Buf (Elt F) ℓ) (c : Dev nD) :
    after (ops (F := F)) (fun b => m (c, b)) (Proc.devRef .tc main_arg0) = m ((c.tc : Thread nD τ).loc main_arg0) :=
  after_of_writes_sub ops _ ops_writes (by decide)

/-- Argument 1's buffer is not among the written references, so the fold leaves it at its launch contents. -/
theorem kept_main_arg1 (m : (ℓ : Loc nD τ sig) → Buf (Elt F) ℓ) (c : Dev nD) :
    after (ops (F := F)) (fun b => m (c, b)) (Proc.devRef .tc main_arg1) = m ((c.tc : Thread nD τ).loc main_arg1) :=
  after_of_writes_sub ops _ ops_writes (by decide)

/-- Argument 2's buffer is not among the written references, so the fold leaves it at its launch contents. -/
theorem kept_main_arg2 (m : (ℓ : Loc nD τ sig) → Buf (Elt F) ℓ) (c : Dev nD) :
    after (ops (F := F)) (fun b => m (c, b)) (Proc.devRef .tc main_arg2) = m ((c.tc : Thread nD τ).loc main_arg2) :=
  after_of_writes_sub ops _ ops_writes (by decide)

/-- Argument 3's buffer is not among the written references, so the fold leaves it at its launch contents. -/
theorem kept_main_arg3 (m : (ℓ : Loc nD τ sig) → Buf (Elt F) ℓ) (c : Dev nD) :
    after (ops (F := F)) (fun b => m (c, b)) (Proc.devRef .tc main_arg3) = m ((c.tc : Thread nD τ).loc main_arg3) :=
  after_of_writes_sub ops _ ops_writes (by decide)

/-- Argument 4's buffer is not among the written references, so the fold leaves it at its launch contents. -/
theorem kept_main_arg4 (m : (ℓ : Loc nD τ sig) → Buf (Elt F) ℓ) (c : Dev nD) :
    after (ops (F := F)) (fun b => m (c, b)) (Proc.devRef .tc main_arg4) = m ((c.tc : Thread nD τ).loc main_arg4) :=
  after_of_writes_sub ops _ ops_writes (by decide)

/-- Argument 5's buffer is not among the written references, so the fold leaves it at its launch contents. -/
theorem kept_main_arg5 (m : (ℓ : Loc nD τ sig) → Buf (Elt F) ℓ) (c : Dev nD) :
    after (ops (F := F)) (fun b => m (c, b)) (Proc.devRef .tc main_arg5) = m ((c.tc : Thread nD τ).loc main_arg5) :=
  after_of_writes_sub ops _ ops_writes (by decide)

/-- Argument 6's buffer is not among the written references, so the fold leaves it at its launch contents. -/
theorem kept_main_arg6 (m : (ℓ : Loc nD τ sig) → Buf (Elt F) ℓ) (c : Dev nD) :
    after (ops (F := F)) (fun b => m (c, b)) (Proc.devRef .tc main_arg6) = m ((c.tc : Thread nD τ).loc main_arg6) :=
  after_of_writes_sub ops _ ops_writes (by decide)

/-- Argument 7's buffer is not among the written references, so the fold leaves it at its launch contents. -/
theorem kept_main_arg7 (m : (ℓ : Loc nD τ sig) → Buf (Elt F) ℓ) (c : Dev nD) :
    after (ops (F := F)) (fun b => m (c, b)) (Proc.devRef .tc main_arg7) = m ((c.tc : Thread nD τ).loc main_arg7) :=
  after_of_writes_sub ops _ ops_writes (by decide)

/-- Argument 8's buffer is not among the written references, so the fold leaves it at its launch contents. -/
theorem kept_main_arg8 (m : (ℓ : Loc nD τ sig) → Buf (Elt F) ℓ) (c : Dev nD) :
    after (ops (F := F)) (fun b => m (c, b)) (Proc.devRef .tc main_arg8) = m ((c.tc : Thread nD τ).loc main_arg8) :=
  after_of_writes_sub ops _ ops_writes (by decide)

/-- The reference's frame claim: from any memory, every weakly fair execution of @main terminates with the nine
    argument arrays at their launch contents — the run above, read at the arguments, which no operation writes. -/
theorem frame : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨ (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c) ⟩) (run_all m ρ)

end Cert.ReferenceIdeal.HandRun

end
-- ==== Proof.LibRealLift.lean ====
/-
  Finite arrays.  An array of extended reals that is the coercion of an array of reals stays one under every operation
  the two programs apply to finite data: sums, differences, products, a quotient by a nonzero real, `tanh`, `exp`, a
  change of float format (the identity), a matrix product into a zero accumulator, the host's `dot_general`, a sum
  along one axis (the kernel's and the host's), and every change of layout (which only re-indexes).  Each lemma names
  the real array the result is the coercion of, so that all further algebra is done over ℝ.
-/
import Idealize.ShloMosaic.PureOps.Ideal
import Idealize.ShloMosaic.PureOps.Ideal.Laws
import Idealize.ShloMosaic.Lib.ValueIdx
import Idealize.ShloMosaic.Lib.Pipeline.Value

noncomputable section

namespace Cert.RealLift

open Idealize.ShloMosaic

/-- `A` is the coercion of the real array `a`, entry by entry. -/
def IsR {ι : Type} (A : ι → EReal) (a : ι → ℝ) : Prop := ∀ i, A i = ((a i : ℝ) : EReal)

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of finite entries is the coercion of the real sum of products. -/
theorem sum_mul_coe {ι : Type} (s : Finset ι) (f g : ι → EReal) (f' g' : ι → ℝ) (hf : ∀ i, f i = ((f' i : ℝ) : EReal))
    (hg : ∀ i, g i = ((g' i : ℝ) : EReal)) : ∑ i ∈ s, f i * g i = ((∑ i ∈ s, f' i * g' i : ℝ) : EReal) := by
  rw [coe_sum]
  exact Finset.sum_congr rfl fun i _ => by rw [hf i, hg i, EReal.coe_mul]

theorem sum_coe {ι : Type} (s : Finset ι) (f : ι → EReal) (f' : ι → ℝ) (hf : ∀ i, f i = ((f' i : ℝ) : EReal)) :
    ∑ i ∈ s, f i = ((∑ i ∈ s, f' i : ℝ) : EReal) := by
  rw [coe_sum]
  exact Finset.sum_congr rfl fun i _ => hf i

variable {s t : Shape} {φ : FTy}

namespace IsR

theorem of_eq {ι : Type} {A : ι → EReal} {a a' : ι → ℝ} (h : IsR A a) (e : ∀ i, a i = a' i) : IsR A a' :=
  fun i => (h i).trans (congrArg _ (e i))

theorem addf {A B : FVec Ideal s φ} {a b : s.Idx → ℝ} (hA : IsR A a) (hB : IsR B b) :
    IsR (Idealize.ShloMosaic.addf A B) (fun i => a i + b i) := fun i => by
  show A i + B i = _
  rw [hA i, hB i, EReal.coe_add]

theorem subf {A B : FVec Ideal s φ} {a b : s.Idx → ℝ} (hA : IsR A a) (hB : IsR B b) :
    IsR (Idealize.ShloMosaic.subf A B) (fun i => a i - b i) := fun i => by
  show A i - B i = _
  rw [hA i, hB i, EReal.coe_sub]

theorem mulf {A B : FVec Ideal s φ} {a b : s.Idx → ℝ} (hA : IsR A a) (hB : IsR B b) :
    IsR (Idealize.ShloMosaic.mulf A B) (fun i => a i * b i) := fun i => by
  show A i * B i = _
  rw [hA i, hB i, EReal.coe_mul]

/-- A quotient by a nonzero real. -/
theorem div_coe (x y : ℝ) (hy : y ≠ 0) : Ideal.div ((x : ℝ) : EReal) ((y : ℝ) : EReal) = ((x / y : ℝ) : EReal) := by
  rw [Ideal.div_coe hy, ← EReal.coe_mul, mul_one_div]

theorem divf {A B : FVec Ideal s φ} {a b : s.Idx → ℝ} (hA : IsR A a) (hB : IsR B b) (hb : ∀ i, b i ≠ 0) :
    IsR (Idealize.ShloMosaic.divf A B) (fun i => a i / b i) := fun i => by
  show Ideal.div (A i) (B i) = _
  rw [hA i, hB i, div_coe _ _ (hb i)]

theorem hostDivf {A B : FVec Ideal s φ} {a b : s.Idx → ℝ} (hA : IsR A a) (hB : IsR B b) (hb : ∀ i, b i ≠ 0) :
    IsR (Host.divf A B) (fun i => a i / b i) := fun i => by
  show Ideal.div (A i) (B i) = _
  rw [hA i, hB i, div_coe _ _ (hb i)]

theorem tanh {A : FVec Ideal s φ} {a : s.Idx → ℝ} (hA : IsR A a) :
    IsR (Idealize.ShloMosaic.tanh A) (fun i => Real.tanh (a i)) := fun i => by
  show Ideal.tanh (A i) = _
  rw [hA i]; rfl

theorem exp {A : FVec Ideal s φ} {a : s.Idx → ℝ} (hA : IsR A a) :
    IsR (Idealize.ShloMosaic.exp A) (fun i => Real.exp (a i)) := fun i => by
  show Ideal.exp (A i) = _
  rw [hA i]; rfl

theorem hostTanh {A : FVec Ideal s φ} {a : s.Idx → ℝ} (hA : IsR A a) :
    IsR (Host.tanh A) (fun i => Real.tanh (a i)) := fun i => by
  show Ideal.tanh (A i) = _
  rw [hA i]; rfl

theorem hostExp {A : FVec Ideal s φ} {a : s.Idx → ℝ} (hA : IsR A a) :
    IsR (Host.exp A) (fun i => Real.exp (a i)) := fun i => by
  show Ideal.exp (A i) = _
  rw [hA i]; rfl

/-- A change of float format is the identity on the extended reals. -/
theorem truncf {A : FVec Ideal s φ} {a : s.Idx → ℝ} (hA : IsR A a) (ψ : FTy) (h : ψ.bits < φ.bits) :
    IsR (Idealize.ShloMosaic.truncf ψ A h : FVec Ideal s ψ) a := fun i => hA i

theorem extf {A : FVec Ideal s φ} {a : s.Idx → ℝ} (hA : IsR A a) (ψ : FTy) (h : φ.bits < ψ.bits) :
    IsR (Idealize.ShloMosaic.extf ψ A h : FVec Ideal s ψ) a := fun i => hA i

/-- Layout operations only re-index. -/
theorem shapeCast {A : s.Idx → EReal} {a : s.Idx → ℝ} (hA : IsR A a) (h : s.ShapeCasts t) :
    IsR (Idealize.ShloMosaic.shapeCast t A h) (Idealize.ShloMosaic.shapeCast t a h) := fun _ => hA _

theorem broadcastTo {A : s.Idx → EReal} {a : s.Idx → ℝ} (hA : IsR A a) (h : s.Broadcasts t) :
    IsR (Idealize.ShloMosaic.broadcastTo t A h) (Idealize.ShloMosaic.broadcastTo t a h) := fun _ => hA _

theorem broadcastInDim {A : s.Idx → EReal} {a : s.Idx → ℝ} (hA : IsR A a) (dims : Fin s.rank → Fin t.rank)
    (h : s.BroadcastsInDim t dims) :
    IsR (Idealize.ShloMosaic.broadcastInDim t dims h A) (Idealize.ShloMosaic.broadcastInDim t dims h a) := fun _ => hA _

/-- A splat of a real. -/
theorem broadcast {x : EReal} {r : ℝ} (h : x = ((r : ℝ) : EReal)) : IsR (Idealize.ShloMosaic.broadcast s x) (fun _ => r) :=
  fun _ => h

theorem constant {b : BitVec φ.bits} {r : ℝ} (h : Ideal.ofBits φ b = ((r : ℝ) : EReal)) :
    IsR (Idealize.ShloMosaic.constant (F := Ideal) s φ b) (fun _ => r) := fun _ => h

/-- A matrix product of finite operands into the zero accumulator: the real sum of products over the contraction. -/
theorem matmul0 {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Idealize.ShloMosaic.matmul D prec A B (Idealize.ShloMosaic.constant so .f32 0x00000000#32))
      (fun j => ∑ k : D.contr.Idx, a (D.lhsIdx j k) * b (D.rhsIdx j k)) := fun j => by
  refine (Ideal.matmul_constant_zero_apply D prec A B j).trans ?_
  exact sum_mul_coe _ _ _ _ _ (fun k => hA _) (fun k => hB _)

/-- The host's `dot_general` of finite operands. -/
theorem dotGeneral {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Host.dotGeneral D prec A B) (fun j => ∑ k : D.contr.Idx, a (D.lhsIdx j k) * b (D.rhsIdx j k)) := fun j => by
  refine (Ideal.dotGeneral_apply D prec .single A B j).trans ?_
  exact sum_mul_coe _ _ _ _ _ (fun k => hA _) (fun k => hB _)

/-- The kernel's sum along one axis of a finite array. -/
theorem multiReduction_add {ax : Fin s.rank} {A : FVec Ideal s φ} {a : s.Idx → ℝ} (hA : IsR A a) (acc : BitVec φ.bits)
    (h : s.Reduces [ax] t) (hφ : FKind.Formats φ) (hacc : acc = FKind.add.neutral φ hφ) :
    IsR (Idealize.ShloMosaic.multiReduction .add [ax] t A acc h hφ hacc) (fun j => ∑ k : Fin (s.size ax), a (h.lift j k)) :=
  fun j => by
    refine (Ideal.multiReduction_add_single A acc h hφ hacc j).trans ?_
    exact sum_coe _ _ _ (fun k => hA _)

end IsR

end Cert.RealLift

end
-- ==== Proof.Val.Real.lean ====
/-
  Arrays of extended reals all of whose entries are real numbers.

  At the ideal instance a float is an extended real. Finite inputs are arrays of reals, and every operation the two
  programs apply before the closing log-softmax — sums of products, sums, products, a comparison and a choice between
  two reals, changes of format, re-indexings — takes arrays of reals to arrays of reals. This module names that
  property and lists its closure under those operations.
-/
import proofs.«117840_j78494822302010_2_alg».proof.Proof.LibRealLift

noncomputable section

namespace Cert.Val

open Idealize.ShloMosaic Cert.RealLift

/-- Every entry of `A` is (the coercion of) a real number. -/
def AllReal {ι : Type} (A : ι → EReal) : Prop := ∀ i, ∃ r : ℝ, A i = ((r : ℝ) : EReal)

namespace AllReal

variable {ι κ : Type} {s t : Shape} {φ ψ : FTy}

theorem isR {A : ι → EReal} (h : AllReal A) : ∃ a : ι → ℝ, IsR A a :=
  ⟨fun i => (h i).choose, fun i => (h i).choose_spec⟩

theorem of_isR {A : ι → EReal} {a : ι → ℝ} (h : IsR A a) : AllReal A := fun i => ⟨a i, h i⟩

/-- Re-indexing. -/
theorem comp {A : ι → EReal} (h : AllReal A) (f : κ → ι) : AllReal (fun k => A (f k)) := fun k => h (f k)

/-- An array each of whose entries is an entry of an array of reals. -/
theorem of_forall_eq {A : ι → EReal} {B : κ → EReal} (hA : AllReal A) (h : ∀ k, ∃ i, B k = A i) : AllReal B := fun k => by
  obtain ⟨i, e⟩ := h k; rw [e]; exact hA i

/-- An array each of whose entries is one of two reals. -/
theorem of_or {A B C : ι → EReal} (hA : AllReal A) (hB : AllReal B) (h : ∀ i, C i = A i ∨ C i = B i) : AllReal C := fun i => by
  rcases h i with e | e <;> rw [e]
  · exact hA i
  · exact hB i

theorem addf {A B : FVec Ideal s φ} (hA : AllReal A) (hB : AllReal B) : AllReal (Idealize.ShloMosaic.addf A B) := by
  obtain ⟨a, ha⟩ := hA.isR; obtain ⟨b, hb⟩ := hB.isR; exact of_isR (ha.addf hb)

theorem subf {A B : FVec Ideal s φ} (hA : AllReal A) (hB : AllReal B) : AllReal (Idealize.ShloMosaic.subf A B) := by
  obtain ⟨a, ha⟩ := hA.isR; obtain ⟨b, hb⟩ := hB.isR; exact of_isR (ha.subf hb)

theorem mulf {A B : FVec Ideal s φ} (hA : AllReal A) (hB : AllReal B) : AllReal (Idealize.ShloMosaic.mulf A B) := by
  obtain ⟨a, ha⟩ := hA.isR; obtain ⟨b, hb⟩ := hB.isR; exact of_isR (ha.mulf hb)

theorem truncf {A : FVec Ideal s φ} (hA : AllReal A) (ψ : FTy) (h : ψ.bits < φ.bits) :
    AllReal (Idealize.ShloMosaic.truncf ψ A h : FVec Ideal s ψ) := hA

theorem extf {A : FVec Ideal s φ} (hA : AllReal A) (ψ : FTy) (h : φ.bits < ψ.bits) :
    AllReal (Idealize.ShloMosaic.extf ψ A h : FVec Ideal s ψ) := hA

theorem shapeCast {A : s.Idx → EReal} (hA : AllReal A) (h : s.ShapeCasts t) : AllReal (Idealize.ShloMosaic.shapeCast t A h) :=
  fun _ => hA _

theorem broadcastTo {A : s.Idx → EReal} (hA : AllReal A) (h : s.Broadcasts t) : AllReal (Idealize.ShloMosaic.broadcastTo t A h) :=
  fun _ => hA _

theorem broadcastInDim {A : s.Idx → EReal} (hA : AllReal A) (dims : Fin s.rank → Fin t.rank) (h : s.BroadcastsInDim t dims) :
    AllReal (Idealize.ShloMosaic.broadcastInDim t dims h A) := fun _ => hA _

/-- A splat of a real. -/
theorem broadcast {x : EReal} {r : ℝ} (h : x = ((r : ℝ) : EReal)) : AllReal (Idealize.ShloMosaic.broadcast s x) := fun _ => ⟨r, h⟩

theorem constant {b : BitVec φ.bits} {r : ℝ} (h : Ideal.ofBits φ b = ((r : ℝ) : EReal)) :
    AllReal (Idealize.ShloMosaic.constant (F := Ideal) s φ b) := fun _ => ⟨r, h⟩

/-- A matrix product of arrays of reals into the zero accumulator. -/
theorem matmul0 {sl sr so : Shape} {φ₁ φ₂ : FTy} (D : DotDims sl sr so) (prec : Option ContractPrecision)
    {A : FVec Ideal sl φ₁} {B : FVec Ideal sr φ₂} (hA : AllReal A) (hB : AllReal B) :
    AllReal (Idealize.ShloMosaic.matmul D prec A B (Idealize.ShloMosaic.constant so .f32 0x00000000#32)) := by
  obtain ⟨a, ha⟩ := hA.isR; obtain ⟨b, hb⟩ := hB.isR; exact of_isR (IsR.matmul0 D prec ha hb)

/-- The host's product of arrays of reals. -/
theorem dotGeneral {sl sr so : Shape} {φ₁ φ₂ : FTy} (D : DotDims sl sr so) (prec : Option ContractPrecision)
    {A : FVec Ideal sl φ₁} {B : FVec Ideal sr φ₂} (hA : AllReal A) (hB : AllReal B) :
    AllReal (Host.dotGeneral D prec A B) := by
  obtain ⟨a, ha⟩ := hA.isR; obtain ⟨b, hb⟩ := hB.isR; exact of_isR (IsR.dotGeneral D prec ha hb)

end AllReal

end Cert.Val

end
-- ==== Proof.Val.K0.lean ====
/-
  Region 0 computes real numbers from real numbers. At the ideal instance a float is an extended real; the body's
  two stores hold, entry by entry, sums of products, sums, products, a choice between two reals and re-indexings
  of the entries of its input blocks, so they are real when the inputs are; and every entry of the two output
  arrays after the region was written back by some grid point, so the arrays are real.
-/
import proofs.«117840_j78494822302010_2_alg».proof.Proof.KI.Dat0
import proofs.«117840_j78494822302010_2_alg».proof.Proof.Val.Real
import Idealize.ShloMosaic.Lib.Pipeline.Value

set_option maxRecDepth 16384

noncomputable section

namespace Cert.KernelIdeal.Hand

open Cert.KernelIdeal Cert.KernelIdeal.Gen Cert.Val
open Idealize.ShloMosaic Idealize.ShloMosaic.TcCoe
open Idealize.SL Idealize.SL.Sem
open Idealize.ShloMosaic.Pipeline (Dat Cfg Window)

/-! ## Small facts -/

theorem off3_zero : (![0, 0, 0] : Fin 3 → Nat) = fun _ => 0 := by
  funext a; fin_cases a <;> rfl

theorem off2_zero : (![0, 0] : Fin 2 → Nat) = fun _ => 0 := by
  funext a; fin_cases a <;> rfl

/-- A bit pattern whose exponent field is not all ones denotes a real number (zero, a subnormal or a normal
    number: never an infinity or a NaN). -/
theorem ieee_real (e m : Nat) {w : Nat} (b : BitVec w) (h : (b.extractLsb' m e).toNat ≠ 2 ^ e - 1) :
    ∃ r : ℝ, Ideal.ieee e m b = ((r : ℝ) : EReal) := by
  unfold Ideal.ieee
  dsimp only
  rw [if_neg h]
  split
  · exact ⟨_, rfl⟩
  · exact ⟨_, rfl⟩

/-- The slope of the activation's negative side (the f32 nearest to 0.01) is a real number: its exponent field
    is 120. -/
theorem slope_real : ∃ r : ℝ, (Scalar.ofBits .f32 0x3C23D70A#32 : Ideal .f32) = ((r : ℝ) : EReal) := by
  show ∃ r : ℝ, Ideal.ieee 8 23 (0x3C23D70A#32 : BitVec 32) = ((r : ℝ) : EReal)
  exact ieee_real 8 23 (0x3C23D70A#32 : BitVec 32) (by decide)

/-- The activation `v ↦ if v ≥ z then v else slope · v`, entry by entry, of an array of reals: each entry is one
    of two reals. -/
theorem leaky_real {s : Shape} {v : FVec Ideal s .f32} (hv : AllReal v) (z : Ideal .f32) :
    AllReal (select (cmpf .oge v (broadcast s z)) v
      (mulf (broadcast s (Scalar.ofBits .f32 0x3C23D70A#32 : Ideal .f32)) v)) := by
  obtain ⟨r, hr⟩ := slope_real
  refine AllReal.of_or hv ((AllReal.broadcast hr).mulf hv) fun i => ?_
  show Scalar.select _ _ _ = _ ∨ Scalar.select _ _ _ = _
  unfold Scalar.select
  split
  · exact .inl rfl
  · exact .inr rfl

/-! ## The body's values, one named value at a time -/

/-- The adjacency tile rounded to bf16. -/
theorem pay2_real {x0 : Vec Ideal S1x256x4096 .f32} (h0 : AllReal x0) : AllReal (k0_pay2 (F := Ideal) x0) := by
  unfold k0_pay2
  exact (h0.shapeCast _).truncf _ _

/-- The aggregated rows: the rounded adjacency tile times the rounded embedding slice. -/
theorem pay4_real {x0 : Vec Ideal S1x256x4096 .f32} {x1 : Vec Ideal S1x4096x64 .f32} (h0 : AllReal x0) (h1 : AllReal x1) :
    AllReal (k0_pay4 (F := Ideal) x0 x1) := by
  unfold k0_pay4
  exact AllReal.matmul0 _ _ (pay2_real h0) ((h1.shapeCast _).truncf _ _)

theorem pay5_real {x : Vec Ideal S64x64 .f32} (h : AllReal x) : AllReal (k0_pay5 (F := Ideal) x) := by
  unfold k0_pay5
  exact (h.shapeCast _).truncf _ _

theorem pay6_real {x : Vec Ideal S1x64 .f32} (h : AllReal x) : AllReal (k0_pay6 (F := Ideal) x) := by
  unfold k0_pay6
  exact h.shapeCast _

/-- The first branch: the activated affine map of the aggregated rows. -/
theorem pay7_real {x0 : Vec Ideal S1x256x4096 .f32} {x1 : Vec Ideal S1x4096x64 .f32} {x3 : Vec Ideal S64x64 .f32}
    {x4 : Vec Ideal S1x64 .f32} (h0 : AllReal x0) (h1 : AllReal x1) (h3 : AllReal x3) (h4 : AllReal x4) :
    AllReal (k0_pay7 (F := Ideal) x0 x1 x3 x4) := by
  unfold k0_pay7
  exact leaky_real
    ((AllReal.matmul0 _ _ ((pay4_real h0 h1).truncf _ _) ((h3.shapeCast _).truncf _ _)).addf ((h4.shapeCast _).broadcastTo _)) _

/-- The second branch's left operand: the row tile times the aggregated rows, entry by entry, rounded. -/
theorem pay8_real {x0 : Vec Ideal S1x256x4096 .f32} {x1 : Vec Ideal S1x4096x64 .f32} {x2 : Vec Ideal S1x256x64 .f32}
    (h0 : AllReal x0) (h1 : AllReal x1) (h2 : AllReal x2) : AllReal (k0_pay8 (F := Ideal) x0 x1 x2) := by
  unfold k0_pay8
  exact ((h2.shapeCast _).mulf (pay4_real h0 h1)).truncf _ _

/-- The stored rows: the first branch plus the activated affine map of the second branch's operand. -/
theorem pay1_real {v17 : FVec Ideal S64x64 .bf16} {v21 : FVec Ideal S1x64 .f32} {v30 : FVec Ideal S256x64 .f32}
    {v32 : FVec Ideal S256x64 .bf16} (h17 : AllReal v17) (h21 : AllReal v21) (h30 : AllReal v30) (h32 : AllReal v32) :
    AllReal (k0_pay1 (F := Ideal) v17 v21 v30 v32) := by
  unfold k0_pay1
  exact (h30.addf (leaky_real ((AllReal.matmul0 _ _ h32 h17).addf (h21.broadcastTo _)) _)).shapeCast _

/-! ## What the body leaves in its output buffers is real -/

theorem out0_8_real (x0 : Vec Ideal S1x256x4096 .f32) (h0 : AllReal x0) : AllReal (out0_8 (F := Ideal) x0) := by
  unfold out0_8
  rw [View.canon_unit_zero off3_zero]
  simp only [View.ld_unit_zero (S := S1x256x4096) off3_zero]
  unfold k0_pay3
  exact (pay2_real h0).shapeCast _

theorem out0_7_real (x0 : Vec Ideal S1x256x4096 .f32) (x1 : Vec Ideal S1x4096x64 .f32) (x2 : Vec Ideal S1x256x64 .f32)
    (x3 : Vec Ideal S64x64 .f32) (x4 : Vec Ideal S1x64 .f32) (x5 : Vec Ideal S64x64 .f32) (x6 : Vec Ideal S1x64 .f32)
    (h0 : AllReal x0) (h1 : AllReal x1) (h2 : AllReal x2) (h3 : AllReal x3) (h4 : AllReal x4) (h5 : AllReal x5)
    (h6 : AllReal x6) : AllReal (out0_7 (F := Ideal) x0 x1 x2 x3 x4 x5 x6) := by
  unfold out0_7
  rw [View.canon_unit_zero off3_zero]
  simp only [View.ld_unit_zero (S := S1x256x4096) off3_zero, View.ld_unit_zero (S := S1x4096x64) off3_zero,
    View.ld_unit_zero (S := S1x256x64) off3_zero, View.ld_unit_zero (S := S64x64) off2_zero,
    View.ld_unit_zero (S := S1x64) off2_zero]
  exact pay1_real (pay5_real h5) (pay6_real h6) (pay7_real h0 h1 h3 h4) (pay8_real h0 h1 h2)

/-! ## Every entry of an output array is written back by some grid point -/

/-! ### Output window 7: its blocks tile the array -/

/-- The block index of window 7 at a grid point, decided over the grid: the batch, the row tile, 0. Every pair
    (batch, row tile) is some point's. -/
theorem idx_onto0_7 : ∀ (b : Fin 8) (r : Fin 16), ∃ t : Fin cfg0.N, win0_7.index t = ![b.val, r.val, 0] :=
  (by decide +kernel : ∀ (b : Fin 8) (r : Fin 16), ∃ t : Fin grid0.N, win0_7.index t = ![b.val, r.val, 0])

/-- An index of the array lies in point `t`'s block iff each coordinate lies in the block's range on its axis. -/
theorem mem_blk0_7 (t : Fin cfg0.N) (i : S8x4096x64.Idx) :
    i ∈ ((cfg0.win 7).blk t).view.set ↔ ∀ a : Fin 3, win0_7.index t a * S1x256x64.size a ≤ (i a).val ∧ (i a).val < win0_7.index t a * S1x256x64.size a + S1x256x64.size a := by
  show i ∈ ((View.whole main_v27_0).slice (win0_7.rect t)).set ↔ _
  rw [View.set_slice_whole, Rect.mem_set_unit]
  exact Iff.rfl

/-- Every index of the array lies in the block some grid point writes back: batch `b`, row `r` is in the block
    of the point with block index (b, r / 256, 0). -/
theorem acover0_7 (i : S8x4096x64.Idx) :
    ∃ t : Fin cfg0.N, (cfg0.win 7).flush t = true ∧ i ∈ ((cfg0.win 7).blk t).view.set := by
  have hi0 : (i 0).val < 8 := (i 0).isLt
  have hi1 : (i 1).val < 4096 := (i 1).isLt
  have hi2 : (i 2).val < 64 := (i 2).isLt
  obtain ⟨t, ht⟩ := idx_onto0_7 ⟨(i 0).val, hi0⟩ ⟨(i 1).val / 256, by omega⟩
  have q0 : win0_7.index t (0 : Fin 3) = (i 0).val := congrFun ht 0
  have q1 : win0_7.index t (1 : Fin 3) = (i 1).val / 256 := congrFun ht 1
  have q2 : win0_7.index t (2 : Fin 3) = 0 := congrFun ht 2
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 64 ≤ (i 2).val ∧ (i 2).val < win0_7.index t (2 : Fin 3) * 64 + 64; omega

/-! ### Output window 8: its blocks tile the array -/

/-- The block index of window 8 at a grid point, decided over the grid: the batch, the row tile, 0. Every pair
    (batch, row tile) is some point's. -/
theorem idx_onto0_8 : ∀ (b : Fin 8) (r : Fin 16), ∃ t : Fin cfg0.N, win0_8.index t = ![b.val, r.val, 0] :=
  (by decide +kernel : ∀ (b : Fin 8) (r : Fin 16), ∃ t : Fin grid0.N, win0_8.index t = ![b.val, r.val, 0])

/-- An index of the array lies in point `t`'s block iff each coordinate lies in the block's range on its axis. -/
theorem mem_blk0_8 (t : Fin cfg0.N) (i : S8x4096x4096.Idx) :
    i ∈ ((cfg0.win 8).blk t).view.set ↔ ∀ a : Fin 3, win0_8.index t a * S1x256x4096.size a ≤ (i a).val ∧ (i a).val < win0_8.index t a * S1x256x4096.size a + S1x256x4096.size a := by
  show i ∈ ((View.whole main_v27_1).slice (win0_8.rect t)).set ↔ _
  rw [View.set_slice_whole, Rect.mem_set_unit]
  exact Iff.rfl

/-- Every index of the array lies in the block some grid point writes back: batch `b`, row `r` is in the block
    of the point with block index (b, r / 256, 0). -/
theorem acover0_8 (i : S8x4096x4096.Idx) :
    ∃ t : Fin cfg0.N, (cfg0.win 8).flush t = true ∧ i ∈ ((cfg0.win 8).blk t).view.set := by
  have hi0 : (i 0).val < 8 := (i 0).isLt
  have hi1 : (i 1).val < 4096 := (i 1).isLt
  have hi2 : (i 2).val < 4096 := (i 2).isLt
  obtain ⟨t, ht⟩ := idx_onto0_8 ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 4096 ≤ (i 2).val ∧ (i 2).val < win0_8.index t (2 : Fin 3) * 4096 + 4096; omega

/-! ## The arrays after the region are real -/

variable (V : (c : Dev nD) → (b : Ref sig .tc) → Buf (Elt Ideal) ((c : Thread nD τ).loc b))

/-! A block of an array of reals is an array of reals: each entry of the block is an entry of the array. -/

theorem iblk0_0_real (c : Dev nD) (t : Fin cfg0.N) (h : AllReal (V c main_arg2 : S8x4096x4096.Idx → EReal)) :
    AllReal (iblk0 (F := Ideal) V c 0 t : S1x256x4096.Idx → EReal) := fun y => by
  show ∃ r : ℝ, (V c main_arg2 : S8x4096x4096.Idx → EReal) (((cfg0.win 0).blk t).view.emb y) = ((r : ℝ) : EReal)
  exact h _

theorem iblk0_1_real (c : Dev nD) (t : Fin cfg0.N) (h : AllReal (V c main_v14 : S8x4096x64.Idx → EReal)) :
    AllReal (iblk0 (F := Ideal) V c 1 t : S1x4096x64.Idx → EReal) := fun y => by
  show ∃ r : ℝ, (V c main_v14 : S8x4096x64.Idx → EReal) (((cfg0.win 1).blk t).view.emb y) = ((r : ℝ) : EReal)
  exact h _

theorem iblk0_2_real (c : Dev nD) (t : Fin cfg0.N) (h : AllReal (V c main_v14 : S8x4096x64.Idx → EReal)) :
    AllReal (iblk0 (F := Ideal) V c 2 t : S1x256x64.Idx → EReal) := fun y => by
  show ∃ r : ℝ, (V c main_v14 : S8x4096x64.Idx → EReal) (((cfg0.win 2).blk t).view.emb y) = ((r : ℝ) : EReal)
  exact h _

theorem iblk0_3_real (c : Dev nD) (t : Fin cfg0.N) (h : AllReal (V c main_v20 : S64x64.Idx → EReal)) :
    AllReal (iblk0 (F := Ideal) V c 3 t : S64x64.Idx → EReal) := fun y => by
  show ∃ r : ℝ, (V c main_v20 : S64x64.Idx → EReal) (((cfg0.win 3).blk t).view.emb y) = ((r : ℝ) : EReal)
  exact h _

theorem iblk0_4_real (c : Dev nD) (t : Fin cfg0.N) (h : AllReal (V c main_v22 : S1x64.Idx → EReal)) :
    AllReal (iblk0 (F := Ideal) V c 4 t : S1x64.Idx → EReal) := fun y => by
  show ∃ r : ℝ, (V c main_v22 : S1x64.Idx → EReal) (((cfg0.win 4).blk t).view.emb y) = ((r : ℝ) : EReal)
  exact h _

theorem iblk0_5_real (c : Dev nD) (t : Fin cfg0.N) (h : AllReal (V c main_v24 : S64x64.Idx → EReal)) :
    AllReal (iblk0 (F := Ideal) V c 5 t : S64x64.Idx → EReal) := fun y => by
  show ∃ r : ℝ, (V c main_v24 : S64x64.Idx → EReal) (((cfg0.win 5).blk t).view.emb y) = ((r : ℝ) : EReal)
  exact h _

theorem iblk0_6_real (c : Dev nD) (t : Fin cfg0.N) (h : AllReal (V c main_v26 : S1x64.Idx → EReal)) :
    AllReal (iblk0 (F := Ideal) V c 6 t : S1x64.Idx → EReal) := fun y => by
  show ∃ r : ℝ, (V c main_v26 : S1x64.Idx → EReal) (((cfg0.win 6).blk t).view.emb y) = ((r : ℝ) : EReal)
  exact h _

/-! What a grid point writes back: the windows are not cut, so it is all of what the body left in the buffer. -/

theorem flushed0_8 (c : Dev nD) (t : Fin cfg0.N) : (dat0 (F := Ideal) V c).flushed 8 t = out0_8 (iblk0 V c 0 t) := by
  show (cfg0.win 8).cut (grid0.coords t) ((dat0 (F := Ideal) V c).after 8 t) = _
  rw [after0_8]
  rfl

theorem flushed0_7 (c : Dev nD) (t : Fin cfg0.N) : (dat0 (F := Ideal) V c).flushed 7 t =
    out0_7 (iblk0 V c 0 t) (iblk0 V c 1 t) (iblk0 V c 2 t) (iblk0 V c 3 t) (iblk0 V c 4 t) (iblk0 V c 5 t) (iblk0 V c 6 t) := by
  show (cfg0.win 7).cut (grid0.coords t) ((dat0 (F := Ideal) V c).after 7 t) = _
  rw [after0_7]
  rfl

/-- The bf16 adjacency array after the region: every entry was written back by some point, and what a point
    writes back is the rounded adjacency tile, real when the adjacency array is. -/
theorem arr0_8_real (c : Dev nD) (hA : AllReal (V c main_arg2 : S8x4096x4096.Idx → EReal)) :
    AllReal ((dat0 (F := Ideal) V c).arrAt 8 cfg0.N : S8x4096x4096.Idx → EReal) := fun i => by
  refine (dat0 (F := Ideal) V c).arrAt_forall_of_cover 8 (fun _ v => ∃ r : ℝ, v = ((r : ℝ) : EReal)) (fun t _ y => ?_) acover0_8 i
  rw [flushed0_8, cast_eq]
  exact out0_8_real _ (iblk0_0_real V c t hA) y

/-- The layer's output array after the region: every entry was written back by some point, and what a point
    writes back is real when the adjacency array, the embedding array and the four weight and bias arrays are. -/
theorem arr0_7_real (c : Dev nD) (hA : AllReal (V c main_arg2 : S8x4096x4096.Idx → EReal))
    (hE : AllReal (V c main_v14 : S8x4096x64.Idx → EReal)) (hW1 : AllReal (V c main_v20 : S64x64.Idx → EReal))
    (hB1 : AllReal (V c main_v22 : S1x64.Idx → EReal)) (hW2 : AllReal (V c main_v24 : S64x64.Idx → EReal))
    (hB2 : AllReal (V c main_v26 : S1x64.Idx → EReal)) :
    AllReal ((dat0 (F := Ideal) V c).arrAt 7 cfg0.N : S8x4096x64.Idx → EReal) := fun i => by
  refine (dat0 (F := Ideal) V c).arrAt_forall_of_cover 7 (fun _ v => ∃ r : ℝ, v = ((r : ℝ) : EReal)) (fun t _ y => ?_) acover0_7 i
  rw [flushed0_7, cast_eq]
  exact out0_7_real _ _ _ _ _ _ _ (iblk0_0_real V c t hA) (iblk0_1_real V c t hE) (iblk0_2_real V c t hE)
    (iblk0_3_real V c t hW1) (iblk0_4_real V c t hB1) (iblk0_5_real V c t hW2) (iblk0_6_real V c t hB2) y

end Cert.KernelIdeal.Hand

end
-- ==== Proof.Val.K12.lean ====
/- Regions 1 and 2 of @main leave arrays of real numbers. At the ideal instance a float is an extended real; each of
   the two later graph-convolution layers computes, from an adjacency tile, the embedding array, two weight matrices
   and two bias rows, sums of products, sums, products and a choice between a value and a fixed multiple of it: from
   arrays of reals, an array of reals. The output's written-back blocks cover its array, so the whole array the
   region leaves is real. -/
import proofs.«117840_j78494822302010_2_alg».proof.Proof.KI.Dat1
import proofs.«117840_j78494822302010_2_alg».proof.Proof.KI.Dat2
import proofs.«117840_j78494822302010_2_alg».proof.Proof.Val.Real
import Idealize.ShloMosaic.Lib.Pipeline.Value

set_option maxRecDepth 16384

noncomputable section

namespace Cert.KernelIdeal.Hand

open Cert.KernelIdeal Cert.KernelIdeal.Gen Cert.Val
open Idealize.ShloMosaic Idealize.ShloMosaic.TcCoe
open Idealize.SL Idealize.SL.RA Idealize.SL.BI
open Idealize.ShloMosaic.Pipeline (Dat Cfg Window cellOf)

/-! # Shared facts -/

/-- The zero offsets of a rank-3 and of a rank-2 whole-buffer rectangle. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The slope of the leaky rectifier, the 32-bit pattern of 0.01 rounded, is a real number: its exponent field is
    neither all ones nor zero. -/
theorem slope_real : ∃ r : ℝ, (Scalar.ofBits (F := Ideal) .f32 0x3C23D70A#32 : EReal) = ((r : ℝ) : EReal) := by
  show ∃ r : ℝ, Ideal.ieee 8 23 (0x3C23D70A#32 : BitVec 32) = ((r : ℝ) : EReal)
  unfold Ideal.ieee
  simp only []
  rw [if_neg (by decide), if_neg (by decide)]
  exact ⟨_, rfl⟩

/-- A choice, entry by entry, between two arrays of reals is an array of reals, whatever the mask. -/
theorem AllReal_select {s : Shape} (m : IVec s 1) {A B : s.Idx → EReal} (hA : AllReal A) (hB : AllReal B) :
    AllReal (Idealize.ShloMosaic.select m A B) :=
  AllReal.of_or hA hB fun i => by
    show Scalar.select (m i) (A i) (B i) = A i ∨ Scalar.select (m i) (A i) (B i) = B i
    unfold Scalar.select
    by_cases h : m i = 1
    · exact .inl (if_pos h)
    · exact .inr (if_neg h)

/-! # Region 1: the layer's value is real when its inputs are -/

/-- The aggregation: the adjacency tile times the batch block, into a zero accumulator. -/
theorem k1_pay2_real (v0 : Vec Ideal S1x512x4096 .bf16) (v2 : Vec Ideal S1x4096x64 .f32)
    (h0 : AllReal (v0 : S1x512x4096.Idx → EReal)) (h2 : AllReal (v2 : S1x4096x64.Idx → EReal)) :
    AllReal (k1_pay2 (F := Ideal) v0 v2 : S512x64.Idx → EReal) := by
  unfold k1_pay2
  exact AllReal.matmul0 _ none (h0.shapeCast _) ((h2.shapeCast _).truncf .bf16 _)

/-- The first branch: the aggregate times a weight matrix plus a bias row, through the leaky rectifier. -/
theorem k1_pay3_real (v0 : Vec Ideal S1x512x4096 .bf16) (v2 : Vec Ideal S1x4096x64 .f32) (v8 : Vec Ideal S64x64 .f32)
    (v14 : Vec Ideal S1x64 .f32) (h0 : AllReal (v0 : S1x512x4096.Idx → EReal)) (h2 : AllReal (v2 : S1x4096x64.Idx → EReal))
    (h8 : AllReal (v8 : S64x64.Idx → EReal)) (h14 : AllReal (v14 : S1x64.Idx → EReal)) :
    AllReal (k1_pay3 (F := Ideal) v0 v2 v8 v14 : S512x64.Idx → EReal) := by
  unfold k1_pay3
  have hlin := AllReal.addf
    (AllReal.matmul0 dot_S512x64_S64x64_S512x64_1_0_0_1_n_n none ((k1_pay2_real v0 v2 h0 h2).truncf .bf16 bitsLt_bf16_f32)
      ((h8.shapeCast shapeCasts_S64x64_S64x64).truncf .bf16 bitsLt_bf16_f32))
    ((h14.shapeCast shapeCasts_S1x64_S1x64).broadcastTo broadcasts_S1x64_S512x64)
  obtain ⟨r, hr⟩ := slope_real
  exact AllReal_select _ hlin (AllReal.mulf (AllReal.broadcast hr) hlin)

/-- The second branch before its rectifier: the row tile times the aggregate, entry by entry, times a weight matrix
    plus a bias row. -/
theorem k1_pay4_real (v0 : Vec Ideal S1x512x4096 .bf16) (v2 : Vec Ideal S1x4096x64 .f32) (v6 : Vec Ideal S1x512x64 .f32)
    (v11 : Vec Ideal S64x64 .f32) (v16 : Vec Ideal S1x64 .f32) (h0 : AllReal (v0 : S1x512x4096.Idx → EReal))
    (h2 : AllReal (v2 : S1x4096x64.Idx → EReal)) (h6 : AllReal (v6 : S1x512x64.Idx → EReal))
    (h11 : AllReal (v11 : S64x64.Idx → EReal)) (h16 : AllReal (v16 : S1x64.Idx → EReal)) :
    AllReal (k1_pay4 (F := Ideal) v0 v2 v6 v11 v16 : S512x64.Idx → EReal) := by
  unfold k1_pay4
  exact AllReal.addf
    (AllReal.matmul0 dot_S512x64_S64x64_S512x64_1_0_0_1_n_n none
      ((AllReal.mulf (h6.shapeCast shapeCasts_S1x512x64_S512x64) (k1_pay2_real v0 v2 h0 h2)).truncf .bf16 bitsLt_bf16_f32)
      ((h11.shapeCast shapeCasts_S64x64_S64x64).truncf .bf16 bitsLt_bf16_f32))
    ((h16.shapeCast shapeCasts_S1x64_S1x64).broadcastTo broadcasts_S1x64_S512x64)

/-- The stored value: the first branch plus the second through its rectifier (the mask is whatever it is: either way
    the entry is one of two reals), given a real slope. -/
theorem k1_pay1_real (v26 v31 : FVec Ideal S512x64 .f32) (v33 : IVec S512x64 1) (cst : Ideal .f32)
    (h26 : AllReal (v26 : S512x64.Idx → EReal)) (h31 : AllReal (v31 : S512x64.Idx → EReal))
    (hc : ∃ r : ℝ, (cst : EReal) = ((r : ℝ) : EReal)) :
    AllReal (k1_pay1 (F := Ideal) v26 v31 v33 cst : S1x512x64.Idx → EReal) := by
  unfold k1_pay1
  obtain ⟨r, hr⟩ := hc
  exact (AllReal.addf h26 (AllReal_select v33 h31 (AllReal.mulf (AllReal.broadcast hr) h31))).shapeCast shapeCasts_S512x64_S1x512x64

/-- What the body leaves in the output window's buffer is an array of reals when the seven input blocks are. -/
theorem out1_7_real (x0 : Vec Ideal S1x512x4096 .bf16) (x1 : Vec Ideal S1x4096x64 .f32) (x2 : Vec Ideal S1x512x64 .f32)
    (x3 : Vec Ideal S64x64 .f32) (x4 : Vec Ideal S1x64 .f32) (x5 : Vec Ideal S64x64 .f32) (x6 : Vec Ideal S1x64 .f32)
    (h0 : AllReal (x0 : S1x512x4096.Idx → EReal)) (h1 : AllReal (x1 : S1x4096x64.Idx → EReal))
    (h2 : AllReal (x2 : S1x512x64.Idx → EReal)) (h3 : AllReal (x3 : S64x64.Idx → EReal)) (h4 : AllReal (x4 : S1x64.Idx → EReal))
    (h5 : AllReal (x5 : S64x64.Idx → EReal)) (h6 : AllReal (x6 : S1x64.Idx → EReal)) :
    AllReal (out1_7 (F := Ideal) x0 x1 x2 x3 x4 x5 x6 : S1x512x64.Idx → EReal) := by
  unfold out1_7
  rw [View.canon_unit_zero zeros3]
  simp only [View.ld_unit_zero (S := S1x512x4096) zeros3, View.ld_unit_zero (S := S1x4096x64) zeros3,
    View.ld_unit_zero (S := S1x512x64) zeros3, View.ld_unit_zero (S := S64x64) zeros2, View.ld_unit_zero (S := S1x64) zeros2]
  exact k1_pay1_real _ _ _ _ (k1_pay3_real x0 x1 x3 x4 h0 h1 h3 h4) (k1_pay4_real x0 x1 x2 x5 x6 h0 h1 h2 h5 h6) slope_real

/-! # Region 1: from the blocks to the array -/

section Array1

variable (V : (c : Dev nD) → (b : Ref sig .tc) → Buf (Elt Ideal) ((c : Thread nD τ).loc b))

/-! ## Each input block is real when its array is: a block's entry is an entry of the array -/

theorem iblk1_0_real (c : Dev nD) (t : Fin cfg1.N) (h : AllReal (V c main_v27_1 : S8x4096x4096.Idx → EReal)) :
    AllReal (iblk1 (F := Ideal) V c 0 t : S1x512x4096.Idx → EReal) :=
  fun y => h (((cfg1.win 0).blk t).view.emb y)

theorem iblk1_1_real (c : Dev nD) (t : Fin cfg1.N) (h : AllReal (V c main_v27_0 : S8x4096x64.Idx → EReal)) :
    AllReal (iblk1 (F := Ideal) V c 1 t : S1x4096x64.Idx → EReal) :=
  fun y => h (((cfg1.win 1).blk t).view.emb y)

theorem iblk1_2_real (c : Dev nD) (t : Fin cfg1.N) (h : AllReal (V c main_v27_0 : S8x4096x64.Idx → EReal)) :
    AllReal (iblk1 (F := Ideal) V c 2 t : S1x512x64.Idx → EReal) :=
  fun y => h (((cfg1.win 2).blk t).view.emb y)

theorem iblk1_3_real (c : Dev nD) (t : Fin cfg1.N) (h : AllReal (V c main_v29 : S64x64.Idx → EReal)) :
    AllReal (iblk1 (F := Ideal) V c 3 t : S64x64.Idx → EReal) :=
  fun y => h (((cfg1.win 3).blk t).view.emb y)

theorem iblk1_4_real (c : Dev nD) (t : Fin cfg1.N) (h : AllReal (V c main_v31 : S1x64.Idx → EReal)) :
    AllReal (iblk1 (F := Ideal) V c 4 t : S1x64.Idx → EReal) :=
  fun y => h (((cfg1.win 4).blk t).view.emb y)

theorem iblk1_5_real (c : Dev nD) (t : Fin cfg1.N) (h : AllReal (V c main_v33 : S64x64.Idx → EReal)) :
    AllReal (iblk1 (F := Ideal) V c 5 t : S64x64.Idx → EReal) :=
  fun y => h (((cfg1.win 5).blk t).view.emb y)

theorem iblk1_6_real (c : Dev nD) (t : Fin cfg1.N) (h : AllReal (V c main_v35 : S1x64.Idx → EReal)) :
    AllReal (iblk1 (F := Ideal) V c 6 t : S1x64.Idx → EReal) :=
  fun y => h (((cfg1.win 6).blk t).view.emb y)

/-! ## The output's blocks cover its array -/

/-- The output window's block index at a point, decided over the grid: the batch is the point's quotient by 8, the row
    tile its remainder, the feature axis whole. -/
theorem idx1_7 : ∀ t : Fin cfg1.N, win1_7.index t (0 : Fin 3) = t.val / 8 ∧ win1_7.index t (1 : Fin 3) = t.val % 8
    ∧ win1_7.index t (2 : Fin 3) = 0 :=
  (by decide +kernel : ∀ t : Fin grid1.N, _)

/-- Every pair of a batch and a row tile is some point's. -/
theorem idx1_7_onto : ∀ (q0 : Fin 8) (q1 : Fin 8), ∃ t : Fin cfg1.N, win1_7.index t = ![q0.val, q1.val, 0] :=
  (by decide +kernel : ∀ (q0 : Fin 8) (q1 : Fin 8), ∃ t : Fin grid1.N, win1_7.index t = ![q0.val, q1.val, 0])

/-- An index of the array is in point `t`'s block iff each coordinate is in the block's range on its axis. -/
theorem mem_blk1_7 (t : Fin cfg1.N) (i : S8x4096x64.Idx) :
    i ∈ ((cfg1.win 7).blk t).view.set ↔ ∀ a : Fin 3, win1_7.index t a * S1x512x64.size a ≤ (i a).val
      ∧ (i a).val < win1_7.index t a * S1x512x64.size a + S1x512x64.size a := by
  show i ∈ ((View.whole main_v36).slice (win1_7.rect t)).set ↔ _
  rw [View.set_slice_whole, Rect.mem_set_unit]
  exact Iff.rfl

/-- Every index of the output array lies in the block some point writes back: row `r` of batch `b` in the block of
    the point with batch `b` and row tile `r / 512`. -/
theorem acover1_7 (i : S8x4096x64.Idx) :
    ∃ t : Fin cfg1.N, (cfg1.win 7).flush t = true ∧ i ∈ ((cfg1.win 7).blk t).view.set := by
  have hi0 : (i 0).val < 8 := (i 0).isLt
  have hi1 : (i 1).val < 4096 := (i 1).isLt
  have hi2 : (i 2).val < 64 := (i 2).isLt
  obtain ⟨t, ht⟩ := idx1_7_onto ⟨(i 0).val, hi0⟩ ⟨(i 1).val / 512, by omega⟩
  have q0 : win1_7.index t (0 : Fin 3) = (i 0).val := congrFun ht 0
  have q1 : win1_7.index t (1 : Fin 3) = (i 1).val / 512 := congrFun ht 1
  have q2 : win1_7.index t (2 : Fin 3) = 0 := congrFun ht 2
  refine ⟨t, flush1_7 t, ?_⟩
  rw [mem_blk1_7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 64 ≤ (i 2).val ∧ (i 2).val < win1_7.index t (2 : Fin 3) * 64 + 64; omega

/-! ## The array the region leaves -/

/-- The output array after the region's write-backs is an array of reals when the arrays the region reads are: every
    element is covered by a written-back block, and every written-back element is an entry of `out1_7` of real
    blocks. -/
theorem arr1_7_real (c : Dev nD) (hA : AllReal (V c main_v27_1 : S8x4096x4096.Idx → EReal))
    (hE : AllReal (V c main_v27_0 : S8x4096x64.Idx → EReal))
    (hW1 : AllReal (V c main_v29 : S64x64.Idx → EReal)) (hB1 : AllReal (V c main_v31 : S1x64.Idx → EReal))
    (hW2 : AllReal (V c main_v33 : S64x64.Idx → EReal)) (hB2 : AllReal (V c main_v35 : S1x64.Idx → EReal)) :
    AllReal ((dat1 (F := Ideal) V c).arrAt 7 cfg1.N : S8x4096x64.Idx → EReal) := by
  intro i
  refine (dat1 (F := Ideal) V c).arrAt_forall_of_cover 7 (fun _ v => ∃ r : ℝ, (v : EReal) = ((r : ℝ) : EReal)) ?_ (acover1_7) i
  intro t _ y
  show ∃ r : ℝ, ((cfg1.win 7).cut (grid1.coords t) ((dat1 (F := Ideal) V c).after 7 t) y : EReal) = ((r : ℝ) : EReal)
  rw [after1_7]
  exact out1_7_real _ _ _ _ _ _ _ (iblk1_0_real V c t hA) (iblk1_1_real V c t hE) (iblk1_2_real V c t hE)
    (iblk1_3_real V c t hW1) (iblk1_4_real V c t hB1) (iblk1_5_real V c t hW2) (iblk1_6_real V c t hB2) y

end Array1

/-! # Region 2: the layer's value is real when its inputs are -/

/-- The aggregation: the adjacency tile times the batch block, into a zero accumulator. -/
theorem k2_pay2_real (v0 : Vec Ideal S1x512x4096 .bf16) (v2 : Vec Ideal S1x4096x64 .f32)
    (h0 : AllReal (v0 : S1x512x4096.Idx → EReal)) (h2 : AllReal (v2 : S1x4096x64.Idx → EReal)) :
    AllReal (k2_pay2 (F := Ideal) v0 v2 : S512x64.Idx → EReal) := by
  unfold k2_pay2
  exact AllReal.matmul0 _ none (h0.shapeCast _) ((h2.shapeCast _).truncf .bf16 _)

/-- The first branch: the aggregate times a weight matrix plus a bias row, through the leaky rectifier. -/
theorem k2_pay3_real (v0 : Vec Ideal S1x512x4096 .bf16) (v2 : Vec Ideal S1x4096x64 .f32) (v8 : Vec Ideal S64x64 .f32)
    (v14 : Vec Ideal S1x64 .f32) (h0 : AllReal (v0 : S1x512x4096.Idx → EReal)) (h2 : AllReal (v2 : S1x4096x64.Idx → EReal))
    (h8 : AllReal (v8 : S64x64.Idx → EReal)) (h14 : AllReal (v14 : S1x64.Idx → EReal)) :
    AllReal (k2_pay3 (F := Ideal) v0 v2 v8 v14 : S512x64.Idx → EReal) := by
  unfold k2_pay3
  have hlin := AllReal.addf
    (AllReal.matmul0 dot_S512x64_S64x64_S512x64_1_0_0_1_n_n none ((k2_pay2_real v0 v2 h0 h2).truncf .bf16 bitsLt_bf16_f32)
      ((h8.shapeCast shapeCasts_S64x64_S64x64).truncf .bf16 bitsLt_bf16_f32))
    ((h14.shapeCast shapeCasts_S1x64_S1x64).broadcastTo broadcasts_S1x64_S512x64)
  obtain ⟨r, hr⟩ := slope_real
  exact AllReal_select _ hlin (AllReal.mulf (AllReal.broadcast hr) hlin)

/-- The second branch before its rectifier: the row tile times the aggregate, entry by entry, times a weight matrix
    plus a bias row. -/
theorem k2_pay4_real (v0 : Vec Ideal S1x512x4096 .bf16) (v2 : Vec Ideal S1x4096x64 .f32) (v6 : Vec Ideal S1x512x64 .f32)
    (v11 : Vec Ideal S64x64 .f32) (v16 : Vec Ideal S1x64 .f32) (h0 : AllReal (v0 : S1x512x4096.Idx → EReal))
    (h2 : AllReal (v2 : S1x4096x64.Idx → EReal)) (h6 : AllReal (v6 : S1x512x64.Idx → EReal))
    (h11 : AllReal (v11 : S64x64.Idx → EReal)) (h16 : AllReal (v16 : S1x64.Idx → EReal)) :
    AllReal (k2_pay4 (F := Ideal) v0 v2 v6 v11 v16 : S512x64.Idx → EReal) := by
  unfold k2_pay4
  exact AllReal.addf
    (AllReal.matmul0 dot_S512x64_S64x64_S512x64_1_0_0_1_n_n none
      ((AllReal.mulf (h6.shapeCast shapeCasts_S1x512x64_S512x64) (k2_pay2_real v0 v2 h0 h2)).truncf .bf16 bitsLt_bf16_f32)
      ((h11.shapeCast shapeCasts_S64x64_S64x64).truncf .bf16 bitsLt_bf16_f32))
    ((h16.shapeCast shapeCasts_S1x64_S1x64).broadcastTo broadcasts_S1x64_S512x64)

/-- The stored value: the first branch plus the second through its rectifier (the mask is whatever it is: either way
    the entry is one of two reals), given a real slope. -/
theorem k2_pay1_real (v26 v31 : FVec Ideal S512x64 .f32) (v33 : IVec S512x64 1) (cst : Ideal .f32)
    (h26 : AllReal (v26 : S512x64.Idx → EReal)) (h31 : AllReal (v31 : S512x64.Idx → EReal))
    (hc : ∃ r : ℝ, (cst : EReal) = ((r : ℝ) : EReal)) :
    AllReal (k2_pay1 (F := Ideal) v26 v31 v33 cst : S1x512x64.Idx → EReal) := by
  unfold k2_pay1
  obtain ⟨r, hr⟩ := hc
  exact (AllReal.addf h26 (AllReal_select v33 h31 (AllReal.mulf (AllReal.broadcast hr) h31))).shapeCast shapeCasts_S512x64_S1x512x64

/-- What the body leaves in the output window's buffer is an array of reals when the seven input blocks are. -/
theorem out2_7_real (x0 : Vec Ideal S1x512x4096 .bf16) (x1 : Vec Ideal S1x4096x64 .f32) (x2 : Vec Ideal S1x512x64 .f32)
    (x3 : Vec Ideal S64x64 .f32) (x4 : Vec Ideal S1x64 .f32) (x5 : Vec Ideal S64x64 .f32) (x6 : Vec Ideal S1x64 .f32)
    (h0 : AllReal (x0 : S1x512x4096.Idx → EReal)) (h1 : AllReal (x1 : S1x4096x64.Idx → EReal))
    (h2 : AllReal (x2 : S1x512x64.Idx → EReal)) (h3 : AllReal (x3 : S64x64.Idx → EReal)) (h4 : AllReal (x4 : S1x64.Idx → EReal))
    (h5 : AllReal (x5 : S64x64.Idx → EReal)) (h6 : AllReal (x6 : S1x64.Idx → EReal)) :
    AllReal (out2_7 (F := Ideal) x0 x1 x2 x3 x4 x5 x6 : S1x512x64.Idx → EReal) := by
  unfold out2_7
  rw [View.canon_unit_zero zeros3]
  simp only [View.ld_unit_zero (S := S1x512x4096) zeros3, View.ld_unit_zero (S := S1x4096x64) zeros3,
    View.ld_unit_zero (S := S1x512x64) zeros3, View.ld_unit_zero (S := S64x64) zeros2, View.ld_unit_zero (S := S1x64) zeros2]
  exact k2_pay1_real _ _ _ _ (k2_pay3_real x0 x1 x3 x4 h0 h1 h3 h4) (k2_pay4_real x0 x1 x2 x5 x6 h0 h1 h2 h5 h6) slope_real

/-! # Region 2: from the blocks to the array -/

section Array2

variable (V : (c : Dev nD) → (b : Ref sig .tc) → Buf (Elt Ideal) ((c : Thread nD τ).loc b))

/-! ## Each input block is real when its array is: a block's entry is an entry of the array -/

theorem iblk2_0_real (c : Dev nD) (t : Fin cfg2.N) (h : AllReal (V c main_v27_1 : S8x4096x4096.Idx → EReal)) :
    AllReal (iblk2 (F := Ideal) V c 0 t : S1x512x4096.Idx → EReal) :=
  fun y => h (((cfg2.win 0).blk t).view.emb y)

theorem iblk2_1_real (c : Dev nD) (t : Fin cfg2.N) (h : AllReal (V c main_v36 : S8x4096x64.Idx → EReal)) :
    AllReal (iblk2 (F := Ideal) V c 1 t : S1x4096x64.Idx → EReal) :=
  fun y => h (((cfg2.win 1).blk t).view.emb y)

theorem iblk2_2_real (c : Dev nD) (t : Fin cfg2.N) (h : AllReal (V c main_v36 : S8x4096x64.Idx → EReal)) :
    AllReal (iblk2 (F := Ideal) V c 2 t : S1x512x64.Idx → EReal) :=
  fun y => h (((cfg2.win 2).blk t).view.emb y)

theorem iblk2_3_real (c : Dev nD) (t : Fin cfg2.N) (h : AllReal (V c main_v38 : S64x64.Idx → EReal)) :
    AllReal (iblk2 (F := Ideal) V c 3 t : S64x64.Idx → EReal) :=
  fun y => h (((cfg2.win 3).blk t).view.emb y)

theorem iblk2_4_real (c : Dev nD) (t : Fin cfg2.N) (h : AllReal (V c main_v40 : S1x64.Idx → EReal)) :
    AllReal (iblk2 (F := Ideal) V c 4 t : S1x64.Idx → EReal) :=
  fun y => h (((cfg2.win 4).blk t).view.emb y)

theorem iblk2_5_real (c : Dev nD) (t : Fin cfg2.N) (h : AllReal (V c main_v42 : S64x64.Idx → EReal)) :
    AllReal (iblk2 (F := Ideal) V c 5 t : S64x64.Idx → EReal) :=
  fun y => h (((cfg2.win 5).blk t).view.emb y)

theorem iblk2_6_real (c : Dev nD) (t : Fin cfg2.N) (h : AllReal (V c main_v44 : S1x64.Idx → EReal)) :
    AllReal (iblk2 (F := Ideal) V c 6 t : S1x64.Idx → EReal) :=
  fun y => h (((cfg2.win 6).blk t).view.emb y)

/-! ## The output's blocks cover its array -/

/-- The output window's block index at a point, decided over the grid: the batch is the point's quotient by 8, the row
    tile its remainder, the feature axis whole. -/
theorem idx2_7 : ∀ t : Fin cfg2.N, win2_7.index t (0 : Fin 3) = t.val / 8 ∧ win2_7.index t (1 : Fin 3) = t.val % 8
    ∧ win2_7.index t (2 : Fin 3) = 0 :=
  (by decide +kernel : ∀ t : Fin grid2.N, _)

/-- Every pair of a batch and a row tile is some point's. -/
theorem idx2_7_onto : ∀ (q0 : Fin 8) (q1 : Fin 8), ∃ t : Fin cfg2.N, win2_7.index t = ![q0.val, q1.val, 0] :=
  (by decide +kernel : ∀ (q0 : Fin 8) (q1 : Fin 8), ∃ t : Fin grid2.N, win2_7.index t = ![q0.val, q1.val, 0])

/-- An index of the array is in point `t`'s block iff each coordinate is in the block's range on its axis. -/
theorem mem_blk2_7 (t : Fin cfg2.N) (i : S8x4096x64.Idx) :
    i ∈ ((cfg2.win 7).blk t).view.set ↔ ∀ a : Fin 3, win2_7.index t a * S1x512x64.size a ≤ (i a).val
      ∧ (i a).val < win2_7.index t a * S1x512x64.size a + S1x512x64.size a := by
  show i ∈ ((View.whole main_v45).slice (win2_7.rect t)).set ↔ _
  rw [View.set_slice_whole, Rect.mem_set_unit]
  exact Iff.rfl

/-- Every index of the output array lies in the block some point writes back: row `r` of batch `b` in the block of
    the point with batch `b` and row tile `r / 512`. -/
theorem acover2_7 (i : S8x4096x64.Idx) :
    ∃ t : Fin cfg2.N, (cfg2.win 7).flush t = true ∧ i ∈ ((cfg2.win 7).blk t).view.set := by
  have hi0 : (i 0).val < 8 := (i 0).isLt
  have hi1 : (i 1).val < 4096 := (i 1).isLt
  have hi2 : (i 2).val < 64 := (i 2).isLt
  obtain ⟨t, ht⟩ := idx2_7_onto ⟨(i 0).val, hi0⟩ ⟨(i 1).val / 512, by omega⟩
  have q0 : win2_7.index t (0 : Fin 3) = (i 0).val := congrFun ht 0
  have q1 : win2_7.index t (1 : Fin 3) = (i 1).val / 512 := congrFun ht 1
  have q2 : win2_7.index t (2 : Fin 3) = 0 := congrFun ht 2
  refine ⟨t, flush2_7 t, ?_⟩
  rw [mem_blk2_7]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 512 ≤ (i 1).val ∧ (i 1).val < win2_7.index t (1 : Fin 3) * 512 + 512; omega
  | ⟨2, _⟩ => show win2_7.index t (2 : Fin 3) * 64 ≤ (i 2).val ∧ (i 2).val < win2_7.index t (2 : Fin 3) * 64 + 64; omega

/-! ## The array the region leaves -/

/-- The output array after the region's write-backs is an array of reals when the arrays the region reads are: every
    element is covered by a written-back block, and every written-back element is an entry of `out2_7` of real
    blocks. -/
theorem arr2_7_real (c : Dev nD) (hA : AllReal (V c main_v27_1 : S8x4096x4096.Idx → EReal))
    (hE : AllReal (V c main_v36 : S8x4096x64.Idx → EReal))
    (hW1 : AllReal (V c main_v38 : S64x64.Idx → EReal)) (hB1 : AllReal (V c main_v40 : S1x64.Idx → EReal))
    (hW2 : AllReal (V c main_v42 : S64x64.Idx → EReal)) (hB2 : AllReal (V c main_v44 : S1x64.Idx → EReal)) :
    AllReal ((dat2 (F := Ideal) V c).arrAt 7 cfg2.N : S8x4096x64.Idx → EReal) := by
  intro i
  refine (dat2 (F := Ideal) V c).arrAt_forall_of_cover 7 (fun _ v => ∃ r : ℝ, (v : EReal) = ((r : ℝ) : EReal)) ?_ (acover2_7) i
  intro t _ y
  show ∃ r : ℝ, ((cfg2.win 7).cut (grid2.coords t) ((dat2 (F := Ideal) V c).after 7 t) y : EReal) = ((r : ℝ) : EReal)
  rw [after2_7]
  exact out2_7_real _ _ _ _ _ _ _ (iblk2_0_real V c t hA) (iblk2_1_real V c t hE) (iblk2_2_real V c t hE)
    (iblk2_3_real V c t hW1) (iblk2_4_real V c t hB1) (iblk2_5_real V c t hW2) (iblk2_6_real V c t hB2) y

end Array2

end Cert.KernelIdeal.Hand

end
-- ==== Proof.Val.HostOps.lean ====
/-
  Arrays of reals under the host operations.

  Each host operation the two programs apply to float arrays takes arrays of reals to arrays of reals. A gather, a
  transpose, a slice and a concatenation only re-index: every entry of the result is an entry of an operand. A choice
  between two arrays takes each entry from one of them, whatever the condition. A sum along axes is the initial value
  plus a finite sum of entries, and a finite sum of reals is real. A float constant whose exponent field is not all
  ones denotes a real number.
-/
import proofs.«117840_j78494822302010_2_alg».proof.Proof.Val.Real

noncomputable section

namespace Cert.Val

open Idealize.ShloMosaic Cert.RealLift

namespace AllReal

variable {s t : Shape} {φ : FTy}

/-- An equal array. -/
theorem of_eq {ι : Type} {A B : ι → EReal} (e : A = B) (h : AllReal B) : AllReal A := e ▸ h

/-- A gather reads every entry of its result off the operand, wherever the indices point. -/
theorem gather {si : Shape} {w : Nat} (d : GatherDims s si t) {x : s.Idx → EReal} (hx : AllReal x) (idx : IVec si w) :
    AllReal (Host.gather d x idx) := fun _ => hx _

/-- A transpose re-indexes. -/
theorem transpose {x : s.Idx → EReal} (hx : AllReal x) (perm : List (Fin s.rank)) (h : s.Transposes perm t) :
    AllReal (Idealize.ShloMosaic.transpose t perm x h) := fun _ => hx _

/-- A slice re-indexes. -/
theorem extractStridedSlice {x : s.Idx → EReal} (hx : AllReal x) (off : Fin s.rank → Nat) (h : s.Slices off t) :
    AllReal (Idealize.ShloMosaic.extractStridedSlice t off x h) := fun _ => hx _

/-- A concatenation reads every entry of its result off one of the parts. -/
theorem concatenate (a : Fin t.rank) (xs : List ((s : Shape) × (s.Idx → EReal)))
    (h : Shape.Concatenates (xs.map (·.1)) t a) (hx : ∀ p ∈ xs, AllReal p.2) :
    AllReal (Idealize.ShloMosaic.concatenate t a xs h) := by
  intro j
  unfold Idealize.ShloMosaic.concatenate
  exact hx _ (List.getElem_mem _) _

/-- The concatenation of two arrays of reals. -/
theorem concatenate2 {s₁ s₂ : Shape} (a : Fin t.rank) {A : s₁.Idx → EReal} {B : s₂.Idx → EReal} (hA : AllReal A)
    (hB : AllReal B) (h : Shape.Concatenates [s₁, s₂] t a) :
    AllReal (Idealize.ShloMosaic.concatenate t a [⟨s₁, A⟩, ⟨s₂, B⟩] h) :=
  concatenate a [⟨s₁, A⟩, ⟨s₂, B⟩] h (by
    intro p hp
    simp only [List.mem_cons, List.mem_nil_iff, or_false] at hp
    rcases hp with rfl | rfl
    · exact hA
    · exact hB)

/-- A choice between two arrays of reals, entry by entry, under any condition. -/
theorem select {c : IVec s 1} {A B : s.Idx → EReal} (hA : AllReal A) (hB : AllReal B) :
    AllReal (Idealize.ShloMosaic.select c A B) := by
  intro i
  show ∃ r : ℝ, Scalar.select (c i) (A i) (B i) = ((r : ℝ) : EReal)
  unfold Scalar.select
  split
  · exact hA i
  · exact hB i

/-- The host's sum along axes of an array of reals from a real initial value: the initial value plus a finite sum of
    entries. -/
theorem hostReduceAdd {u : Shape} {axes : List (Fin s.rank)} {x : FVec Ideal s φ} {init : u.Idx → Ideal φ}
    (hx : AllReal x) (hi : AllReal init) (h : s.ReducesTo axes t) (hu : 0 < u.numel) :
    AllReal (Host.reduceAdd x init h hu) := by
  obtain ⟨a, ha⟩ := hx.isR
  obtain ⟨r, hr⟩ := hi (Shape.Idx.first hu)
  intro j
  refine ⟨r + ∑ i ∈ Finset.univ.filter (fun i => h.drop i = j), a i, ?_⟩
  show Ideal.hostReduceAdd h x (init (Shape.Idx.first hu)) j = _
  unfold Ideal.hostReduceAdd
  rw [hr, sum_coe _ _ a ha, EReal.coe_add]

end AllReal

/-- A pattern whose exponent field is not all ones denotes a real number. -/
theorem ieee_real (e m : Nat) {w : Nat} (b : BitVec w) (h : (b.extractLsb' m e).toNat ≠ 2 ^ e - 1) :
    ∃ r : ℝ, Ideal.ieee e m b = ((r : ℝ) : EReal) := by
  unfold Ideal.ieee
  simp only [if_neg h]
  split
  · exact ⟨_, rfl⟩
  · exact ⟨_, rfl⟩

/-- A single-precision constant whose exponent field is not all ones is an array of reals. -/
theorem AllReal.constant_f32 {s : Shape} (b : BitVec 32) (h : (b.extractLsb' 23 8).toNat ≠ 2 ^ 8 - 1) :
    AllReal (Idealize.ShloMosaic.constant (F := Ideal) s .f32 b) := by
  obtain ⟨r, hr⟩ := ieee_real 8 23 b h
  exact AllReal.constant (φ := .f32) (b := b) hr

/-- The zero constant. -/
theorem AllReal.constant_zero {s : Shape} : AllReal (Idealize.ShloMosaic.constant (F := Ideal) s .f32 0x00000000#32) :=
  AllReal.constant_f32 _ (by decide)

/-- The constant 0x3C23D70A (the slope of the leaky rectifier): its exponent field is 0x78. -/
theorem AllReal.constant_slope {s : Shape} : AllReal (Idealize.ShloMosaic.constant (F := Ideal) s .f32 0x3C23D70A#32) :=
  AllReal.constant_f32 _ (by decide)

end Cert.Val

end
-- ==== Proof.Val.Tail.lean ====
/-
  The closing stretch is zero on reals.

  Both programs end with a log-softmax along the last axis of the score array, whose extent there is one. Along an axis
  of extent one a reduction combines the initial value with the single entry: the maximum of minus infinity and x is x,
  and zero plus y is y. So for a real entry x the shifted value x - max(-inf, x) is 0, its exponential is 1, the sum of
  the exponentials is 0 + 1, its logarithm is 0, and the result 0 - 0 is 0, at every index.
-/
import proofs.«117840_j78494822302010_2_alg».proof.Proof.Val.Real

noncomputable section

namespace Cert.Val

open Idealize.ShloMosaic

local notation "S0" => (⟨0, ![]⟩ : Shape)
local notation "S2" => (⟨2, ![8, 2048]⟩ : Shape)
local notation "S3" => (⟨3, ![8, 2048, 1]⟩ : Shape)

/-- Two indices of the score array with the same first two coordinates are equal: the last axis has extent one. -/
theorem drop_injective_unit (hr : Shape.ReducesTo S3 [2] S2) (i i' : Shape.Idx S3) (e : hr.drop i' = hr.drop i) : i' = i := by
  have h : Shape.Reduces S3 [2] S2 := by decide
  have e' : h.drop i' = h.drop i := e
  have h2 : i' (2 : Fin 3) = i (2 : Fin 3) := Fin.ext (by
    have a : (i' (2 : Fin 3)).val < 1 := (i' (2 : Fin 3)).isLt
    have b : (i (2 : Fin 3)).val < 1 := (i (2 : Fin 3)).isLt
    omega)
  have l' := h.lift_drop i'
  have l := h.lift_drop i
  rw [← l', ← l, e', h2]

/-- The indices reducing to the place of i: i alone. -/
theorem filter_drop_unit (hr : Shape.ReducesTo S3 [2] S2) (i : Shape.Idx S3) :
    (Finset.univ.filter fun i' : Shape.Idx S3 => hr.drop i' = hr.drop i) = {i} := by
  ext i'
  simp only [Finset.mem_filter, Finset.mem_univ, true_and, Finset.mem_singleton]
  exact ⟨drop_injective_unit hr i i', fun e => e ▸ rfl⟩

/-- The broadcast back along the last axis reads the reduced array at the place of i. -/
theorem bcast_unit_apply {α : Type} (hb1 : Shape.BroadcastsInDim S2 S3 (![0, 1] : Fin 2 → Fin (Shape.rank S3))) (hr : Shape.ReducesTo S3 [2] S2)
    (A : Shape.Idx S2 → α) (i : Shape.Idx S3) : broadcastInDim S3 ![0, 1] hb1 A i = A (hr.drop i) := by
  unfold broadcastInDim
  congr 1
  funext a
  fin_cases a
  · exact Fin.ext rfl
  · exact Fin.ext rfl

/-- Minus infinity. -/
theorem ofBits_neg_inf : Ideal.ofBits .f32 0xFF800000#32 = (⊥ : EReal) := by simp [Ideal.ofBits, Ideal.ieee]

/-- The maximum along the last axis from minus infinity, read at the place of i: the entry itself. -/
theorem reduce_max_unit (hr : Shape.ReducesTo S3 [2] S2) (h0 : 0 < Shape.numel S0) (x : FVec Ideal S3 .f32) (i : Shape.Idx S3) :
    Host.reduce FloatOps.maximumf x (constant S0 .f32 0xFF800000#32) hr h0 (hr.drop i) = x i := by
  rw [Host.reduce_eq_fold, filter_drop_unit hr i, Finset.fold_singleton]
  show max (x i) (Ideal.ofBits .f32 0xFF800000#32) = x i
  rw [ofBits_neg_inf]
  exact max_eq_left bot_le

/-- The sum along the last axis from zero, read at the place of i: the entry itself. -/
theorem reduce_add_unit (hr : Shape.ReducesTo S3 [2] S2) (h0 : 0 < Shape.numel S0) (y : FVec Ideal S3 .f32) (i : Shape.Idx S3) :
    Host.reduceAdd y (constant S0 .f32 0x00000000#32) hr h0 (hr.drop i) = y i := by
  show Ideal.hostReduceAdd hr y (Ideal.ofBits .f32 0x00000000#32) (hr.drop i) = y i
  unfold Ideal.hostReduceAdd
  rw [filter_drop_unit hr i, Finset.sum_singleton, Ideal.ofBits_zero_f32, zero_add]

/-- The log-softmax along the unit last axis of an array of reals, spelled as the programs spell it — the maximum along
    the axis from minus infinity, its maximum with a splat of minus infinity, broadcast back, subtracted; the
    exponential, summed along the axis from zero, broadcast back, its logarithm, subtracted — is the zero array. -/
theorem logSoftmax_unit_zero (hb0 : Shape.BroadcastsInDim S0 S2 (![] : Fin 0 → Fin (Shape.rank S2)))
    (hb1 : Shape.BroadcastsInDim S2 S3 (![0, 1] : Fin 2 → Fin (Shape.rank S3))) (hr : Shape.ReducesTo S3 [2] S2)
    (h0 : 0 < Shape.numel S0) (x : FVec Ideal S3 .f32) (hx : AllReal x) :
    subf (subf x (broadcastInDim S3 ![0, 1] hb1 (maximumf (broadcastInDim S2 ![] hb0 (constant S0 .f32 0xFF800000#32))
          (Host.reduce FloatOps.maximumf x (constant S0 .f32 0xFF800000#32) hr h0))))
        (Host.log (broadcastInDim S3 ![0, 1] hb1 (Host.reduceAdd (Host.exp (subf x (broadcastInDim S3 ![0, 1] hb1
          (maximumf (broadcastInDim S2 ![] hb0 (constant S0 .f32 0xFF800000#32))
            (Host.reduce FloatOps.maximumf x (constant S0 .f32 0xFF800000#32) hr h0)))))
          (constant S0 .f32 0x00000000#32) hr h0)))
      = fun _ => (0 : EReal) := by
  have hv4 : subf x (broadcastInDim S3 ![0, 1] hb1 (maximumf (broadcastInDim S2 ![] hb0 (constant S0 .f32 0xFF800000#32))
      (Host.reduce FloatOps.maximumf x (constant S0 .f32 0xFF800000#32) hr h0))) = fun _ => (0 : EReal) := by
    funext i
    obtain ⟨r, hr'⟩ := hx i
    show x i - broadcastInDim S3 ![0, 1] hb1 (maximumf (broadcastInDim S2 ![] hb0 (constant S0 .f32 0xFF800000#32))
      (Host.reduce FloatOps.maximumf x (constant S0 .f32 0xFF800000#32) hr h0)) i = 0
    rw [bcast_unit_apply hb1 hr]
    show x i - max (Ideal.ofBits .f32 0xFF800000#32) (Host.reduce FloatOps.maximumf x (constant S0 .f32 0xFF800000#32) hr h0 (hr.drop i)) = 0
    rw [reduce_max_unit, ofBits_neg_inf, max_eq_right bot_le, hr', ← EReal.coe_sub, sub_self, EReal.coe_zero]
  rw [hv4]
  funext i
  show (0 : EReal) - Ideal.log (broadcastInDim S3 ![0, 1] hb1
    (Host.reduceAdd (F := Ideal) (φ := .f32) (Host.exp (F := Ideal) (fun _ => (0 : EReal) : FVec Ideal S3 .f32)) (constant S0 .f32 0x00000000#32) hr h0) i) = 0
  rw [bcast_unit_apply hb1 hr, reduce_add_unit]
  show (0 : EReal) - Ideal.log (Ideal.exp (0 : EReal)) = 0
  have e1 : Ideal.exp (0 : EReal) = ((1 : ℝ) : EReal) := by
    rw [← EReal.coe_zero]
    show ((Real.exp 0 : ℝ) : EReal) = _
    rw [Real.exp_zero]
  have e2 : Ideal.log ((1 : ℝ) : EReal) = 0 := by
    show (if (1 : ℝ) ≤ 0 then (⊥ : EReal) else ((Real.log 1 : ℝ) : EReal)) = 0
    rw [if_neg (by norm_num), Real.log_one, EReal.coe_zero]
  rw [e1, e2, sub_zero]

end Cert.Val

end
-- ==== Proof.Val.KHost.lean ====
/- The host stretches of the kernel program keep arrays of real numbers real, and its closing stretch is zero on real
   scores. Between its three layer kernels the program only slices, reshapes, transposes, gathers and concatenates
   arrays (each entry of the result is an entry of an operand); after the last kernel it multiplies two halves of the
   embedding array and sums along the feature axis from zero; it ends with a log-softmax along an axis of extent one.
   Every theorem is stated over an arbitrary valuation of the buffers. -/
import proofs.«117840_j78494822302010_2_alg».proof.Proof.Gen.KernelIdeal.Regions
import proofs.«117840_j78494822302010_2_alg».proof.Proof.Val.Real
import proofs.«117840_j78494822302010_2_alg».proof.Proof.Val.HostOps
import proofs.«117840_j78494822302010_2_alg».proof.Proof.Val.Tail
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Val Idealize.ShloMosaic.StableHlo
open Idealize.ShloMosaic Idealize.ShloMosaic.TcCoe

variable (W : Valuation τ sig (Elt Ideal))

/-! # The stretch before region 0: the embedding array (two gathers, concatenated), the stacked weight matrices
    transposed and the stacked bias rows reshaped, and layer 0's slices of them -/

set_option maxHeartbeats 1000000 in
theorem host0_v14_real (h3 : AllReal (W (Proc.devRef .tc main_arg3) : S100000x64.Idx → EReal)) (h4 : AllReal (W (Proc.devRef .tc main_arg4) : S100000x64.Idx → EReal)) :
    AllReal (StableHlo.after (hostOps0 (F := Ideal)) W (Proc.devRef .tc main_v14) : S8x4096x64.Idx → EReal) := by
  show AllReal (StableHlo.after (hostOps0 (F := Ideal)) W (Proc.devRef .tc main_v14) : S8x4096x64.Idx → EReal)
  after_results_simp
  refine AllReal.concatenate2 1 ?_ ?_ concatenates_S8x2048x64_S8x2048x64_S8x4096x64_d1
  · exact AllReal.gather gather_S100000x64_S8x2048x1_S8x2048x64_2_0_n_n_0_2_164 h3 _
  · exact AllReal.gather gather_S100000x64_S8x2048x1_S8x2048x64_2_0_n_n_0_2_164 h4 _

theorem host0_v15_real (h5 : AllReal (W (Proc.devRef .tc main_arg5) : S3x64x64.Idx → EReal)) :
    AllReal (StableHlo.after (hostOps0 (F := Ideal)) W (Proc.devRef .tc main_v15) : S3x64x64.Idx → EReal) := by
  show AllReal (StableHlo.after (hostOps0 (F := Ideal)) W (Proc.devRef .tc main_v15) : S3x64x64.Idx → EReal)
  after_results
  exact h5.transpose _ transposes_S3x64x64_S3x64x64_0_2_1

theorem host0_v16_real (h7 : AllReal (W (Proc.devRef .tc main_arg7) : S3x64x64.Idx → EReal)) :
    AllReal (StableHlo.after (hostOps0 (F := Ideal)) W (Proc.devRef .tc main_v16) : S3x64x64.Idx → EReal) := by
  show AllReal (StableHlo.after (hostOps0 (F := Ideal)) W (Proc.devRef .tc main_v16) : S3x64x64.Idx → EReal)
  after_results
  exact h7.transpose _ transposes_S3x64x64_S3x64x64_0_2_1

theorem host0_v17_real (h6 : AllReal (W (Proc.devRef .tc main_arg6) : S3x64.Idx → EReal)) :
    AllReal (StableHlo.after (hostOps0 (F := Ideal)) W (Proc.devRef .tc main_v17) : S3x1x64.Idx → EReal) := by
  show AllReal (StableHlo.after (hostOps0 (F := Ideal)) W (Proc.devRef .tc main_v17) : S3x1x64.Idx → EReal)
  after_results
  exact h6.shapeCast shapeCasts_S3x64_S3x1x64

theorem host0_v18_real (h8 : AllReal (W (Proc.devRef .tc main_arg8) : S3x64.Idx → EReal)) :
    AllReal (StableHlo.after (hostOps0 (F := Ideal)) W (Proc.devRef .tc main_v18) : S3x1x64.Idx → EReal) := by
  show AllReal (StableHlo.after (hostOps0 (F := Ideal)) W (Proc.devRef .tc main_v18) : S3x1x64.Idx → EReal)
  after_results
  exact h8.shapeCast shapeCasts_S3x64_S3x1x64

theorem host0_v20_real (h5 : AllReal (W (Proc.devRef .tc main_arg5) : S3x64x64.Idx → EReal)) :
    AllReal (StableHlo.after (hostOps0 (F := Ideal)) W (Proc.devRef .tc main_v20) : S64x64.Idx → EReal) := by
  show AllReal (StableHlo.after (hostOps0 (F := Ideal)) W (Proc.devRef .tc main_v20) : S64x64.Idx → EReal)
  after_results
  exact ((h5.transpose _ transposes_S3x64x64_S3x64x64_0_2_1).extractStridedSlice _ slices_S3x64x64_S1x64x64_0_0_0).shapeCast shapeCasts_S1x64x64_S64x64

theorem host0_v24_real (h7 : AllReal (W (Proc.devRef .tc main_arg7) : S3x64x64.Idx → EReal)) :
    AllReal (StableHlo.after (hostOps0 (F := Ideal)) W (Proc.devRef .tc main_v24) : S64x64.Idx → EReal) := by
  show AllReal (StableHlo.after (hostOps0 (F := Ideal)) W (Proc.devRef .tc main_v24) : S64x64.Idx → EReal)
  after_results
  exact ((h7.transpose _ transposes_S3x64x64_S3x64x64_0_2_1).extractStridedSlice _ slices_S3x64x64_S1x64x64_0_0_0).shapeCast shapeCasts_S1x64x64_S64x64

theorem host0_v22_real (h6 : AllReal (W (Proc.devRef .tc main_arg6) : S3x64.Idx → EReal)) :
    AllReal (StableHlo.after (hostOps0 (F := Ideal)) W (Proc.devRef .tc main_v22) : S1x64.Idx → EReal) := by
  show AllReal (StableHlo.after (hostOps0 (F := Ideal)) W (Proc.devRef .tc main_v22) : S1x64.Idx → EReal)
  after_results
  exact ((h6.shapeCast shapeCasts_S3x64_S3x1x64).extractStridedSlice _ slices_S3x1x64_S1x1x64_0_0_0).shapeCast shapeCasts_S1x1x64_S1x64

theorem host0_v26_real (h8 : AllReal (W (Proc.devRef .tc main_arg8) : S3x64.Idx → EReal)) :
    AllReal (StableHlo.after (hostOps0 (F := Ideal)) W (Proc.devRef .tc main_v26) : S1x64.Idx → EReal) := by
  show AllReal (StableHlo.after (hostOps0 (F := Ideal)) W (Proc.devRef .tc main_v26) : S1x64.Idx → EReal)
  after_results
  exact ((h8.shapeCast shapeCasts_S3x64_S3x1x64).extractStridedSlice _ slices_S3x1x64_S1x1x64_0_0_0).shapeCast shapeCasts_S1x1x64_S1x64

/-! # The stretch before region 1: layer 1's two weight matrices and two bias rows, each a slice of a stacked array
    with its unit axis dropped -/

theorem host1_v29_real (h15 : AllReal (W (Proc.devRef .tc main_v15) : S3x64x64.Idx → EReal)) :
    AllReal (StableHlo.after (hostOps1 (F := Ideal)) W (Proc.devRef .tc main_v29) : S64x64.Idx → EReal) := by
  show AllReal (StableHlo.after (hostOps1 (F := Ideal)) W (Proc.devRef .tc main_v29) : S64x64.Idx → EReal)
  after_results
  exact (h15.extractStridedSlice _ slices_S3x64x64_S1x64x64_1_0_0).shapeCast shapeCasts_S1x64x64_S64x64

theorem host1_v31_real (h17 : AllReal (W (Proc.devRef .tc main_v17) : S3x1x64.Idx → EReal)) :
    AllReal (StableHlo.after (hostOps1 (F := Ideal)) W (Proc.devRef .tc main_v31) : S1x64.Idx → EReal) := by
  show AllReal (StableHlo.after (hostOps1 (F := Ideal)) W (Proc.devRef .tc main_v31) : S1x64.Idx → EReal)
  after_results
  exact (h17.extractStridedSlice _ slices_S3x1x64_S1x1x64_1_0_0).shapeCast shapeCasts_S1x1x64_S1x64

theorem host1_v33_real (h16 : AllReal (W (Proc.devRef .tc main_v16) : S3x64x64.Idx → EReal)) :
    AllReal (StableHlo.after (hostOps1 (F := Ideal)) W (Proc.devRef .tc main_v33) : S64x64.Idx → EReal) := by
  show AllReal (StableHlo.after (hostOps1 (F := Ideal)) W (Proc.devRef .tc main_v33) : S64x64.Idx → EReal)
  after_results
  exact (h16.extractStridedSlice _ slices_S3x64x64_S1x64x64_1_0_0).shapeCast shapeCasts_S1x64x64_S64x64

theorem host1_v35_real (h18 : AllReal (W (Proc.devRef .tc main_v18) : S3x1x64.Idx → EReal)) :
    AllReal (StableHlo.after (hostOps1 (F := Ideal)) W (Proc.devRef .tc main_v35) : S1x64.Idx → EReal) := by
  show AllReal (StableHlo.after (hostOps1 (F := Ideal)) W (Proc.devRef .tc main_v35) : S1x64.Idx → EReal)
  after_results
  exact (h18.extractStridedSlice _ slices_S3x1x64_S1x1x64_1_0_0).shapeCast shapeCasts_S1x1x64_S1x64

/-! # The stretch before region 2: layer 2's two weight matrices and two bias rows, each a slice of a stacked array
    with its unit axis dropped -/

theorem host2_v38_real (h15 : AllReal (W (Proc.devRef .tc main_v15) : S3x64x64.Idx → EReal)) :
    AllReal (StableHlo.after (hostOps2 (F := Ideal)) W (Proc.devRef .tc main_v38) : S64x64.Idx → EReal) := by
  show AllReal (StableHlo.after (hostOps2 (F := Ideal)) W (Proc.devRef .tc main_v38) : S64x64.Idx → EReal)
  after_results
  exact (h15.extractStridedSlice _ slices_S3x64x64_S1x64x64_2_0_0).shapeCast shapeCasts_S1x64x64_S64x64

theorem host2_v40_real (h17 : AllReal (W (Proc.devRef .tc main_v17) : S3x1x64.Idx → EReal)) :
    AllReal (StableHlo.after (hostOps2 (F := Ideal)) W (Proc.devRef .tc main_v40) : S1x64.Idx → EReal) := by
  show AllReal (StableHlo.after (hostOps2 (F := Ideal)) W (Proc.devRef .tc main_v40) : S1x64.Idx → EReal)
  after_results
  exact (h17.extractStridedSlice _ slices_S3x1x64_S1x1x64_2_0_0).shapeCast shapeCasts_S1x1x64_S1x64

theorem host2_v42_real (h16 : AllReal (W (Proc.devRef .tc main_v16) : S3x64x64.Idx → EReal)) :
    AllReal (StableHlo.after (hostOps2 (F := Ideal)) W (Proc.devRef .tc main_v42) : S64x64.Idx → EReal) := by
  show AllReal (StableHlo.after (hostOps2 (F := Ideal)) W (Proc.devRef .tc main_v42) : S64x64.Idx → EReal)
  after_results
  exact (h16.extractStridedSlice _ slices_S3x64x64_S1x64x64_2_0_0).shapeCast shapeCasts_S1x64x64_S64x64

theorem host2_v44_real (h18 : AllReal (W (Proc.devRef .tc main_v18) : S3x1x64.Idx → EReal)) :
    AllReal (StableHlo.after (hostOps2 (F := Ideal)) W (Proc.devRef .tc main_v44) : S1x64.Idx → EReal) := by
  show AllReal (StableHlo.after (hostOps2 (F := Ideal)) W (Proc.devRef .tc main_v44) : S1x64.Idx → EReal)
  after_results
  exact (h18.extractStridedSlice _ slices_S3x1x64_S1x1x64_2_0_0).shapeCast shapeCasts_S1x1x64_S1x64

/-! # The stretch after region 2, up to the scores: two halves of the embedding array, their product, its sum along
    the feature axis from zero, and an added unit axis -/

theorem host3_real (h45 : AllReal (W (Proc.devRef .tc main_v45) : S8x4096x64.Idx → EReal)) :
    AllReal (StableHlo.after (hostOps3 (F := Ideal)) W (Proc.devRef .tc main_v50) : S8x2048x1.Idx → EReal) := by
  show AllReal (StableHlo.after (hostOps3 (F := Ideal)) W (Proc.devRef .tc main_v50) : S8x2048x1.Idx → EReal)
  after_results
  exact AllReal.broadcastInDim
    (AllReal.hostReduceAdd
      (AllReal.mulf (h45.extractStridedSlice _ slices_S8x4096x64_S8x2048x64_0_0_0)
        (h45.extractStridedSlice _ slices_S8x4096x64_S8x2048x64_0_2048_0))
      AllReal.constant_zero reducesTo_S8x2048x64_S8x2048_d2 h_S_) _ bcast_S8x2048_S8x2048x1_0_1

/-! # The closing stretch: the log-softmax of the scores along their unit last axis, then a reshape -/

/-- Contents carried to a typed reference's buffer and back are the contents. -/
theorem ofBuf_toBuf {T : BufTy} (x : StableHlo.TRef sig T) (v : T.Contents (Elt Ideal)) : x.ofBuf (x.toBuf v) = v := by
  obtain ⟨r, h, h1, h2⟩ := x
  subst h
  rfl

/-- On real scores the closing stretch leaves the zero array: the log-softmax along an axis of extent one is zero at
    every real entry, and the reshape only re-indexes. -/
theorem tail_zero (h50 : AllReal (W (Proc.devRef .tc main_v50) : S8x2048x1.Idx → EReal)) :
    @Eq (S16384x1.Idx → EReal) (StableHlo.after (hostOps3_2 (F := Ideal)) (StableHlo.after (hostOps3_1 (F := Ideal)) W) (Proc.devRef .tc main_v52)) (fun _ => 0) := by
  after_results
  simp only [ofBuf_toBuf]
  have hx : AllReal ((StableHlo.TRef.of main_v50 : StableHlo.TRef sig ⟨S8x2048x1, .f32⟩).ofBuf (W (Proc.devRef .tc main_v50)) : S8x2048x1.Idx → EReal) := h50
  have hz := logSoftmax_unit_zero bcast_S_S8x2048 bcast_S8x2048_S8x2048x1_0_1 reducesTo_S8x2048x1_S8x2048_d2 h_S_ _ hx
  rw [hz]
  rfl

end Cert.KernelIdeal.Hand

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Val.Pre.lean ====
/-
  The precondition read: every float argument array is an array of reals.

  The printed precondition is the conjunction, over the seven float arguments, of "every entry's absolute value compares
  below +∞". At the ideal instance an extended real whose absolute value is below +∞ is a real number.
-/
import proofs.«117840_j78494822302010_2_alg».proof.Pre_finite_inputs
import proofs.«117840_j78494822302010_2_alg».proof.Proof.LibFiniteInputs
import proofs.«117840_j78494822302010_2_alg».proof.Proof.Val.Real
import Idealize.ShloMosaic.Lib.Affine

noncomputable section

namespace Cert.Val

open Idealize.ShloMosaic Idealize.ShloMosaic.ValueIdx Cert.Pre_finite_inputs

variable [Cert.Pre_finite_inputs.Facts]

/-- The precondition's seven conjuncts, one per float argument. -/
theorem pre_real (a0 a1 : IVec S8x2048 32) (a2 : FVec Ideal S8x4096x4096 .f32) (a3 a4 : FVec Ideal S100000x64 .f32)
    (a5 : FVec Ideal S3x64x64 .f32) (a6 : FVec Ideal S3x64 .f32) (a7 : FVec Ideal S3x64x64 .f32) (a8 : FVec Ideal S3x64 .f32)
    (h : Cert.Pre_finite_inputs.fn (F := Ideal) a0 a1 a2 a3 a4 a5 a6 a7 a8 = fun _ => 1#1) :
    AllReal a2 ∧ AllReal a3 ∧ AllReal a4 ∧ AllReal a5 ∧ AllReal a6 ∧ AllReal a7 ∧ AllReal a8 := by
  have e := congrFun h ix0
  dsimp only [Cert.Pre_finite_inputs.fn, Cert.Pre_finite_inputs.fn_part1, andi] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e2, e3⟩ := IntOp.andi_eq_one.1 e
  exact ⟨Cert.FiniteInputs.all_real a2 _ _ _ e2, Cert.FiniteInputs.all_real a3 _ _ _ e3, Cert.FiniteInputs.all_real a4 _ _ _ e4,
    Cert.FiniteInputs.all_real a5 _ _ _ e5, Cert.FiniteInputs.all_real a6 _ _ _ e6, Cert.FiniteInputs.all_real a7 _ _ _ e7,
    Cert.FiniteInputs.all_real a8 _ _ _ e8⟩

end Cert.Val

end
-- ==== Proof.Val.Assemble.lean ====
/-
  The value claim from its two halves.

  For finite inputs the idealized kernel program and the idealized reference both end with the zero array as their
  result (every score is a real number, and a log-softmax along an axis of extent one of a real is zero), so their
  results are equal; the arguments end unchanged by the frames. This module takes the two halves — each program's
  result buffer holds the zero array when the float arguments are arrays of reals — and states the claim.
-/
import proofs.«117840_j78494822302010_2_alg».proof.Defs
import proofs.«117840_j78494822302010_2_alg».proof.Proof.KI.Claim
import proofs.«117840_j78494822302010_2_alg».proof.Proof.RefRun
import proofs.«117840_j78494822302010_2_alg».proof.Proof.Val.Pre

noncomputable section

namespace Cert.Val

open Idealize.ShloMosaic Idealize.ShloMosaic.TcCoe Idealize.SL.Sem

/-- The zero array of the result's shape. -/
abbrev zeroRes : Cert.KernelIdeal.S16384x1.Idx → EReal := fun _ => 0

/-- The seven float arguments of a memory of the kernel program are arrays of reals, on core `c`. -/
def KArgsReal (m : (ℓ : Loc Cert.KernelIdeal.nD Cert.KernelIdeal.τ Cert.KernelIdeal.sig) → Buf (Elt Ideal) ℓ) (c : Dev Cert.KernelIdeal.nD) : Prop :=
  AllReal (m ((c.tc : Thread Cert.KernelIdeal.nD Cert.KernelIdeal.τ).loc Cert.KernelIdeal.main_arg2) : Cert.KernelIdeal.S8x4096x4096.Idx → EReal)
  ∧ AllReal (m ((c.tc : Thread Cert.KernelIdeal.nD Cert.KernelIdeal.τ).loc Cert.KernelIdeal.main_arg3) : Cert.KernelIdeal.S100000x64.Idx → EReal)
  ∧ AllReal (m ((c.tc : Thread Cert.KernelIdeal.nD Cert.KernelIdeal.τ).loc Cert.KernelIdeal.main_arg4) : Cert.KernelIdeal.S100000x64.Idx → EReal)
  ∧ AllReal (m ((c.tc : Thread Cert.KernelIdeal.nD Cert.KernelIdeal.τ).loc Cert.KernelIdeal.main_arg5) : Cert.KernelIdeal.S3x64x64.Idx → EReal)
  ∧ AllReal (m ((c.tc : Thread Cert.KernelIdeal.nD Cert.KernelIdeal.τ).loc Cert.KernelIdeal.main_arg6) : Cert.KernelIdeal.S3x64.Idx → EReal)
  ∧ AllReal (m ((c.tc : Thread Cert.KernelIdeal.nD Cert.KernelIdeal.τ).loc Cert.KernelIdeal.main_arg7) : Cert.KernelIdeal.S3x64x64.Idx → EReal)
  ∧ AllReal (m ((c.tc : Thread Cert.KernelIdeal.nD Cert.KernelIdeal.τ).loc Cert.KernelIdeal.main_arg8) : Cert.KernelIdeal.S3x64.Idx → EReal)

/-- The same for a memory of the reference. -/
def RArgsReal (m : (ℓ : Loc Cert.ReferenceIdeal.nD Cert.ReferenceIdeal.τ Cert.ReferenceIdeal.sig) → Buf (Elt Ideal) ℓ) (c : Dev Cert.ReferenceIdeal.nD) : Prop :=
  AllReal (m ((c.tc : Thread Cert.ReferenceIdeal.nD Cert.ReferenceIdeal.τ).loc Cert.ReferenceIdeal.main_arg2) : Cert.ReferenceIdeal.S8x4096x4096.Idx → EReal)
  ∧ AllReal (m ((c.tc : Thread Cert.ReferenceIdeal.nD Cert.ReferenceIdeal.τ).loc Cert.ReferenceIdeal.main_arg3) : Cert.ReferenceIdeal.S100000x64.Idx → EReal)
  ∧ AllReal (m ((c.tc : Thread Cert.ReferenceIdeal.nD Cert.ReferenceIdeal.τ).loc Cert.ReferenceIdeal.main_arg4) : Cert.ReferenceIdeal.S100000x64.Idx → EReal)
  ∧ AllReal (m ((c.tc : Thread Cert.ReferenceIdeal.nD Cert.ReferenceIdeal.τ).loc Cert.ReferenceIdeal.main_arg5) : Cert.ReferenceIdeal.S3x64x64.Idx → EReal)
  ∧ AllReal (m ((c.tc : Thread Cert.ReferenceIdeal.nD Cert.ReferenceIdeal.τ).loc Cert.ReferenceIdeal.main_arg6) : Cert.ReferenceIdeal.S3x64.Idx → EReal)
  ∧ AllReal (m ((c.tc : Thread Cert.ReferenceIdeal.nD Cert.ReferenceIdeal.τ).loc Cert.ReferenceIdeal.main_arg7) : Cert.ReferenceIdeal.S3x64x64.Idx → EReal)
  ∧ AllReal (m ((c.tc : Thread Cert.ReferenceIdeal.nD Cert.ReferenceIdeal.τ).loc Cert.ReferenceIdeal.main_arg8) : Cert.ReferenceIdeal.S3x64.Idx → EReal)

/-- The precondition gives the kernel program's float arguments as arrays of reals on every core. -/
theorem kargs_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) : KArgsReal m c :=
  letI := Cert.Pre_finite_inputs.Gen.facts
  pre_real _ _ _ _ _ _ _ _ _ (h c)

/-- THE VALUE CLAIM from the two halves. -/
theorem algebraic_of
    (hk : ∀ (m : (ℓ : Loc Cert.KernelIdeal.nD Cert.KernelIdeal.τ Cert.KernelIdeal.sig) → Buf (Elt Ideal) ℓ) (c : Dev Cert.KernelIdeal.nD),
      KArgsReal m c → (Cert.KernelIdeal.Gen.V9 m (Cert.KernelIdeal.Hand.outs m) c (Proc.devRef .tc Cert.KernelIdeal.main_v52) : Cert.KernelIdeal.S16384x1.Idx → EReal) = zeroRes)
    (hr : ∀ (m : (ℓ : Loc Cert.ReferenceIdeal.nD Cert.ReferenceIdeal.τ Cert.ReferenceIdeal.sig) → Buf (Elt Ideal) ℓ) (c : Dev Cert.ReferenceIdeal.nD),
      RArgsReal m c → (StableHlo.after (Cert.ReferenceIdeal.HandRun.ops (F := Ideal)) (fun b => m (c, b)) (Proc.devRef .tc Cert.ReferenceIdeal.main_v84) : Cert.ReferenceIdeal.S16384x1.Idx → EReal) = zeroRes) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  have hK : ∀ c, KArgsReal m c := kargs_of_pre m hpre
  have hR : ∀ c, RArgsReal m' c := fun c => by
    obtain ⟨h2, h3, h4, h5, h6, h7, h8⟩ := hK c
    obtain ⟨-, -, e2, e3, e4, e5, e6, e7, e8⟩ := hagree c
    unfold RArgsReal
    rw [e2, e3, e4, e5, e6, e7, e8]
    exact ⟨h2, h3, h4, h5, h6, h7, h8⟩
  refine ⟨fun _ => zeroRes, ?_, ?_⟩
  · refine (θ_run Cert.KernelIdeal.defs _ _).mono (fun r h c => ⟨?_, (h c).2⟩) (Cert.KernelIdeal.Hand.run_args (F := Ideal) m ρ)
    exact ((h c).1 _ (Cert.KernelIdeal.Hand.mem_uc Cert.KernelIdeal.main_v52 (by decide))).trans (hk m c (hK c))
  · refine (θ_run Cert.ReferenceIdeal.defs _ _).mono (fun r h c => ⟨(h c Cert.ReferenceIdeal.main_v84).trans (hr m' c (hR c)),
      (h c _).trans (Cert.ReferenceIdeal.HandRun.kept_main_arg0 m' c), (h c _).trans (Cert.ReferenceIdeal.HandRun.kept_main_arg1 m' c),
      (h c _).trans (Cert.ReferenceIdeal.HandRun.kept_main_arg2 m' c), (h c _).trans (Cert.ReferenceIdeal.HandRun.kept_main_arg3 m' c),
      (h c _).trans (Cert.ReferenceIdeal.HandRun.kept_main_arg4 m' c), (h c _).trans (Cert.ReferenceIdeal.HandRun.kept_main_arg5 m' c),
      (h c _).trans (Cert.ReferenceIdeal.HandRun.kept_main_arg6 m' c), (h c _).trans (Cert.ReferenceIdeal.HandRun.kept_main_arg7 m' c),
      (h c _).trans (Cert.ReferenceIdeal.HandRun.kept_main_arg8 m' c)⟩) (Cert.ReferenceIdeal.HandRun.run_all (F := Ideal) m' ρ')

end Cert.Val

end
-- ==== Proof.Val.KVal.lean ====
/-
  The idealized kernel program returns the zero column on finite inputs.

  Along the fold of buffer contents: the host operations before the first region gather, concatenate, transpose, slice
  and reshape arrays of reals into arrays of reals; each region's output array is covered by the blocks its grid points
  write back, and every written block is an array of reals when the region's input arrays are; the host operations
  between regions only slice and reshape; the closing stretch forms a row-wise product sum (real) and its log-softmax
  along an axis of extent one, which is zero.
-/
import proofs.«117840_j78494822302010_2_alg».proof.Proof.KI.Frame
import proofs.«117840_j78494822302010_2_alg».proof.Proof.Val.K0
import proofs.«117840_j78494822302010_2_alg».proof.Proof.Val.K12
import proofs.«117840_j78494822302010_2_alg».proof.Proof.Val.KHost
import proofs.«117840_j78494822302010_2_alg».proof.Proof.Val.Assemble

noncomputable section

namespace Cert.KernelIdeal.Hand

open Cert.KernelIdeal Cert.KernelIdeal.Gen Cert.Val
open Idealize.ShloMosaic Idealize.ShloMosaic.TcCoe Idealize.SL.Sem

variable (m : (ℓ : Loc nD τ sig) → Buf (Elt Ideal) ℓ) (c : Dev nD)

/-! ## The fold at the buffers an item leaves alone -/

section Fold

variable (o : Outs (F := Ideal))

theorem V3_v27_1 : V3 m o c (Proc.devRef .tc main_v27_1) = o 2 main_v27_1 c :=
  (V3_of m o c main_v27_1 (by decide)).trans (V2_v27_1 m o c)
theorem V3_v27_0 : V3 m o c (Proc.devRef .tc main_v27_0) = o 2 main_v27_0 c :=
  (V3_of m o c main_v27_0 (by decide)).trans (V2_v27_0 m o c)
theorem V5_v27_1 : V5 m o c (Proc.devRef .tc main_v27_1) = o 2 main_v27_1 c :=
  (V5_of m o c main_v27_1 (by decide)).trans ((V4_of m o c main_v27_1 (by decide)).trans (V3_v27_1 m c o))
theorem V5_v36 : V5 m o c (Proc.devRef .tc main_v36) = o 4 main_v36 c :=
  (V5_of m o c main_v36 (by decide)).trans (V4_v36 m o c)

/-- A buffer the first host stretch wrote and no region changes is still at its contents when the second stretch starts, -/
theorem V2_keep (r : Ref sig .tc) (h : r ∉ ([main_v27_0, main_v27_1] : List (Ref sig .tc))) :
    V2 m o c (Proc.devRef .tc r) = V1 m c (Proc.devRef .tc r) := V2_of m o c r h
/-- and when the third starts. -/
theorem V4_keep (r : Ref sig .tc) (h2 : r ∉ ([main_v27_0, main_v27_1] : List (Ref sig .tc))) (h3 : r ∉ hostOps1_W)
    (h4 : r ∉ ([main_v36] : List (Ref sig .tc))) : V4 m o c (Proc.devRef .tc r) = V1 m c (Proc.devRef .tc r) :=
  (V4_of m o c r h4).trans ((V3_of m o c r h3).trans (V2_of m o c r h2))

end Fold

/-! ## The arrays of reals along the fold -/

section Reals

variable (h : KArgsReal m c)

include h

/-- The launch contents of the seven float arguments, as the first host stretch finds them. -/
theorem arg2_real : AllReal (V1 m c (Proc.devRef .tc main_arg2) : S8x4096x4096.Idx → EReal) := by
  rw [V1_of m c main_arg2 (by decide)]; exact h.1

theorem v14_real : AllReal (V1 m c (Proc.devRef .tc main_v14) : S8x4096x64.Idx → EReal) := host0_v14_real (V0 m c) h.2.1 h.2.2.1
theorem v15_real : AllReal (V1 m c (Proc.devRef .tc main_v15) : S3x64x64.Idx → EReal) := host0_v15_real (V0 m c) h.2.2.2.1
theorem v16_real : AllReal (V1 m c (Proc.devRef .tc main_v16) : S3x64x64.Idx → EReal) := host0_v16_real (V0 m c) h.2.2.2.2.2.1
theorem v17_real : AllReal (V1 m c (Proc.devRef .tc main_v17) : S3x1x64.Idx → EReal) := host0_v17_real (V0 m c) h.2.2.2.2.1
theorem v18_real : AllReal (V1 m c (Proc.devRef .tc main_v18) : S3x1x64.Idx → EReal) := host0_v18_real (V0 m c) h.2.2.2.2.2.2
theorem v20_real : AllReal (V1 m c (Proc.devRef .tc main_v20) : S64x64.Idx → EReal) := host0_v20_real (V0 m c) h.2.2.2.1
theorem v22_real : AllReal (V1 m c (Proc.devRef .tc main_v22) : S1x64.Idx → EReal) := host0_v22_real (V0 m c) h.2.2.2.2.1
theorem v24_real : AllReal (V1 m c (Proc.devRef .tc main_v24) : S64x64.Idx → EReal) := host0_v24_real (V0 m c) h.2.2.2.2.2.1
theorem v26_real : AllReal (V1 m c (Proc.devRef .tc main_v26) : S1x64.Idx → EReal) := host0_v26_real (V0 m c) h.2.2.2.2.2.2

/-- The first region leaves arrays of reals: the new node embeddings, -/
theorem a0_real : AllReal (a0 m c : S8x4096x64.Idx → EReal) :=
  arr0_7_real (Vr (V1 m)) c (arg2_real m c h) (v14_real m c h) (v20_real m c h) (v22_real m c h) (v24_real m c h) (v26_real m c h)
/-- and the narrowed adjacency. -/
theorem b0_real : AllReal (b0 m c : S8x4096x4096.Idx → EReal) := arr0_8_real (Vr (V1 m)) c (arg2_real m c h)

/-- The second region leaves an array of reals. -/
theorem x36_real : AllReal (x36 m c : S8x4096x64.Idx → EReal) := by
  refine arr1_7_real (Vr (V3 m (outsA m))) c ?_ ?_ ?_ ?_ ?_ ?_
  · show AllReal (V3 m (outsA m) c (Proc.devRef .tc main_v27_1) : S8x4096x4096.Idx → EReal)
    rw [V3_v27_1, show outsA m 2 main_v27_1 c = b0 m c from mkOuts_v27_1 m _ _ _ _ 2 c]; exact b0_real m c h
  · show AllReal (V3 m (outsA m) c (Proc.devRef .tc main_v27_0) : S8x4096x64.Idx → EReal)
    rw [V3_v27_0, show outsA m 2 main_v27_0 c = a0 m c from mkOuts_v27_0 m _ _ _ _ 2 c]; exact a0_real m c h
  · exact host1_v29_real (V2 m (outsA m) c) (by rw [V2_keep m c _ main_v15 (by decide)]; exact v15_real m c h)
  · exact host1_v31_real (V2 m (outsA m) c) (by rw [V2_keep m c _ main_v17 (by decide)]; exact v17_real m c h)
  · exact host1_v33_real (V2 m (outsA m) c) (by rw [V2_keep m c _ main_v16 (by decide)]; exact v16_real m c h)
  · exact host1_v35_real (V2 m (outsA m) c) (by rw [V2_keep m c _ main_v18 (by decide)]; exact v18_real m c h)

/-- The third region leaves an array of reals. -/
theorem x45_real : AllReal (x45 m c : S8x4096x64.Idx → EReal) := by
  refine arr2_7_real (Vr (V5 m (outsB m))) c ?_ ?_ ?_ ?_ ?_ ?_
  · show AllReal (V5 m (outsB m) c (Proc.devRef .tc main_v27_1) : S8x4096x4096.Idx → EReal)
    rw [V5_v27_1, show outsB m 2 main_v27_1 c = b0 m c from mkOuts_v27_1 m _ _ _ _ 2 c]; exact b0_real m c h
  · show AllReal (V5 m (outsB m) c (Proc.devRef .tc main_v36) : S8x4096x64.Idx → EReal)
    rw [V5_v36, show outsB m 4 main_v36 c = x36 m c from mkOuts_v36 m _ _ _ _ 4 c]; exact x36_real m c h
  · exact host2_v38_real (V4 m (outsB m) c) (by rw [V4_keep m c _ main_v15 (by decide) (by decide) (by decide)]; exact v15_real m c h)
  · exact host2_v40_real (V4 m (outsB m) c) (by rw [V4_keep m c _ main_v17 (by decide) (by decide) (by decide)]; exact v17_real m c h)
  · exact host2_v42_real (V4 m (outsB m) c) (by rw [V4_keep m c _ main_v16 (by decide) (by decide) (by decide)]; exact v16_real m c h)
  · exact host2_v44_real (V4 m (outsB m) c) (by rw [V4_keep m c _ main_v18 (by decide) (by decide) (by decide)]; exact v18_real m c h)

/-- The result buffer holds the zero column. -/
theorem kernel_zero : (V9 m (outs m) c (Proc.devRef .tc main_v52) : S16384x1.Idx → EReal) = zeroRes := by
  refine tail_zero (V7 m (outs m) c) (host3_real (V6 m (outs m) c) ?_)
  rw [V6_v45, show outs m 6 main_v45 c = x45 m c from mkOuts_v45 m _ _ _ _ 6 c]; exact x45_real m c h

end Reals

end Cert.KernelIdeal.Hand

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.Val.Ref.lean ====
/-
  The reference's result is the zero array when its float inputs are arrays of reals.

  The reference is a line of 138 operations, each writing a buffer of its own once, after the buffers it reads. So
  after the line every buffer holds its operation's function of what the line leaves in that operation's operands, and
  the contents can be read one buffer at a time in program order. Read that way, every float buffer before the closing
  log-softmax holds an array of reals: the gathered rows and their concatenation are entries of the real tables; each of
  the three layers takes sums of products, sums, products and a choice between two arrays of reals; the score is a
  product of two slices summed along one axis from zero. The closing log-softmax runs along an axis of extent one, so on
  an array of reals it is the zero array, and the final reshape of the zero array is the zero array.
-/
import proofs.«117840_j78494822302010_2_alg».proof.Proof.RefRun
import proofs.«117840_j78494822302010_2_alg».proof.Proof.Val.HostOps
import proofs.«117840_j78494822302010_2_alg».proof.Proof.Val.Tail
import proofs.«117840_j78494822302010_2_alg».proof.Proof.LibHostRead

noncomputable section

namespace Cert.Val.Ref

open Cert.ReferenceIdeal Cert.ReferenceIdeal.Gen Cert.ReferenceIdeal.HandRun Idealize.ShloMosaic Idealize.ShloMosaic.TcCoe
  Idealize.SL.Sem Idealize.ShloMosaic.StableHlo HostRead Cert.Val

/-! ## Reading a line whose operations each write one buffer once -/

section Read

variable {sig : RefSig} {τ : Topo} {Val : EltTy → Type} {l : List (HloOp τ sig Val)} {ys : List (Ref sig .tc)}

/-- A constant's buffer holds the constant after the line. -/
theorem at_nullary (h : Outs l ys) (V : Valuation τ sig Val) (k : Nat) (y : Ref sig .tc) {v : y.ty.Contents Val} {hy}
    (hk : l[k]? = some (nullary y v hy)) (hy' : y ∉ ys.drop (k + 1)) :
    after l V (Proc.devRef .tc y) = v := by
  rw [after_at h k _ y hk hy' V, nullary_result]

/-- A one-operand operation's buffer holds, after the line, its function of what the line leaves in the operand. -/
theorem at_unary (h : Outs l ys) (V : Valuation τ sig Val) (k : Nat) (x y : Ref sig .tc) {f : x.ty.Contents Val → y.ty.Contents Val}
    {hx hy} (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- The same for two operands. -/
theorem at_binary (h : Outs l ys) (V : Valuation τ sig Val) (k : Nat) (a b y : Ref sig .tc)
    {f : a.ty.Contents Val → b.ty.Contents Val → y.ty.Contents Val} {ha hb hy}
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- The same for three operands. -/
theorem at_ternary (h : Outs l ys) (V : Valuation τ sig Val) (k : Nat) (c a b y : Ref sig .tc)
    {f : c.ty.Contents Val → a.ty.Contents Val → b.ty.Contents Val → y.ty.Contents Val} {hc ha hb hy}
    (hk : l[k]? = some (ternary c a b y f hc ha hb hy)) (hy' : y ∉ ys.drop (k + 1)) (hc' : c ∉ ys.drop k) (ha' : a ∉ ys.drop k)
    (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

/-- A reshape's buffer holds, after the line, the operand's contents under the other shape. -/
theorem at_reshape (h : Outs l ys) (V : Valuation τ sig Val) (k : Nat) (x y : Ref sig .tc) {he : x.ty.elt = y.ty.elt}
    {hn : x.ty.shape.ShapeCasts y.ty.shape} {hx hy} (hk : l[k]? = some (reshape x y he hn hx hy)) (hy' : y ∉ ys.drop (k + 1))
    (hx' : x ∉ ys.drop k) :
    after l V (Proc.devRef .tc y) = fun i => he ▸ shapeCast y.ty.shape (after l V (Proc.devRef .tc x)) hn i := by
  rw [after_at h k _ y hk hy' V, reshape_result, after_take h k x hx' V]

/-! Operations of a module-local function name their buffers by typed references; read through the typed reference the
    contents need no transport. -/

section TypedRead

variable {Tx Ta Tb Ty : BufTy}

theorem at_tnullary (h : Outs l ys) (V : Valuation τ sig Val) (k : Nat) {y : TRef sig Ty} {v : Ty.Contents Val}
    (hk : l[k]? = some (TRef.nullary y v)) (hy' : y.ref ∉ ys.drop (k + 1)) :
    HEq (after l V (Proc.devRef .tc y.ref)) v := by
  rw [after_at h k _ y.ref hk hy' V]
  exact tnullary_heq y v _

theorem at_tunary (h : Outs l ys) (V : Valuation τ sig Val) (k : Nat) {x : TRef sig Tx} {y : TRef sig Ty}
    {f : Tx.Contents Val → Ty.Contents Val} (hk : l[k]? = some (TRef.unary x y f)) (hy' : y.ref ∉ ys.drop (k + 1))
    (hx' : x.ref ∉ ys.drop k) (vx : Tx.Contents Val) (hx : HEq (after l V (Proc.devRef .tc x.ref)) vx) :
    HEq (after l V (Proc.devRef .tc y.ref)) (f vx) := by
  rw [after_at h k _ y.ref hk hy' V]
  exact tunary_heq x y f _ vx (by rw [← after_take h k x.ref hx' V]; exact hx)

theorem at_tbinary (h : Outs l ys) (V : Valuation τ sig Val) (k : Nat) {a : TRef sig Ta} {b : TRef sig Tb} {y : TRef sig Ty}
    {f : Ta.Contents Val → Tb.Contents Val → Ty.Contents Val} (hk : l[k]? = some (TRef.binary a b y f))
    (hy' : y.ref ∉ ys.drop (k + 1)) (ha' : a.ref ∉ ys.drop k) (hb' : b.ref ∉ ys.drop k)
    (va : Ta.Contents Val) (vb : Tb.Contents Val) (ha : HEq (after l V (Proc.devRef .tc a.ref)) va)
    (hb : HEq (after l V (Proc.devRef .tc b.ref)) vb) :
    HEq (after l V (Proc.devRef .tc y.ref)) (f va vb) := by
  rw [after_at h k _ y.ref hk hy' V]
  exact tbinary_heq a b y f _ va vb (by rw [← after_take h k a.ref ha' V]; exact ha) (by rw [← after_take h k b.ref hb' V]; exact hb)

end TypedRead

end Read

/-! ## The reference's line -/

/-- Each of the 138 operations writes exactly the buffer at its place in the list of written references. -/
theorem outs : Outs (τ := τ) (ops (F := Ideal)) written := by
  repeat' constructor

variable (m : (ℓ : Loc nD τ sig) → Buf (Elt Ideal) ℓ) (c : Dev nD)

/-- What the line leaves in each buffer of the device, from its launch contents. -/
abbrev W : Valuation τ sig (Elt Ideal) := after (ops (F := Ideal)) (fun b => m (c, b))

/-- The seven float arguments hold arrays of reals at launch. -/
structure RealArgs : Prop where
  h2 : AllReal (m ((c.tc : Thread nD τ).loc main_arg2) : S8x4096x4096.Idx → EReal)
  h3 : AllReal (m ((c.tc : Thread nD τ).loc main_arg3) : S100000x64.Idx → EReal)
  h4 : AllReal (m ((c.tc : Thread nD τ).loc main_arg4) : S100000x64.Idx → EReal)
  h5 : AllReal (m ((c.tc : Thread nD τ).loc main_arg5) : S3x64x64.Idx → EReal)
  h6 : AllReal (m ((c.tc : Thread nD τ).loc main_arg6) : S3x64.Idx → EReal)
  h7 : AllReal (m ((c.tc : Thread nD τ).loc main_arg7) : S3x64x64.Idx → EReal)
  h8 : AllReal (m ((c.tc : Thread nD τ).loc main_arg8) : S3x64.Idx → EReal)

/-! The closing log-softmax's thirteen buffers: what the line leaves in each is its operation applied to what the line
    leaves in its operands. -/

theorem eq_main_call6_cst : @Eq (FVec Ideal S_ .f32) (after (ops (F := Ideal)) (fun b => m (c, b)) (Proc.devRef .tc main_call6_cst))
    (constant S_ .f32 0xFF800000#32) :=
  eq_of_heq (at_tnullary outs (fun b => m (c, b)) 124 rfl (by decide))

theorem eq_main_call6_v0 : @Eq (FVec Ideal S8x2048 .f32) (after (ops (F := Ideal)) (fun b => m (c, b)) (Proc.devRef .tc main_call6_v0))
    (Host.reduce FloatOps.maximumf (after (ops (F := Ideal)) (fun b => m (c, b)) (Proc.devRef .tc main_v82) : FVec Ideal S8x2048x1 .f32) (after (ops (F := Ideal)) (fun b => m (c, b)) (Proc.devRef .tc main_call6_cst) : FVec Ideal S_ .f32) reducesTo_S8x2048x1_S8x2048_d2 h_S_) :=
  eq_of_heq (at_tbinary outs (fun b => m (c, b)) 125 rfl (by decide) (by decide) (by decide) (after (ops (F := Ideal)) (fun b => m (c, b)) (Proc.devRef .tc main_v82) : FVec Ideal S8x2048x1 .f32) (after (ops (F := Ideal)) (fun b => m (c, b)) (Proc.devRef .tc main_call6_cst) : FVec Ideal S_ .f32) HEq.rfl HEq.rfl)

theorem eq_main_call6_cst_0 : @Eq (FVec Ideal S_ .f32) (after (ops (F := Ideal)) (fun b => m (c, b)) (Proc.devRef .tc main_call6_cst_0))
    (constant S_ .f32 0xFF800000#32) :=
  eq_of_heq (at_tnullary outs (fun b => m (c, b)) 126 rfl (by decide))

theorem eq_main_call6_v1 : @Eq (FVec Ideal S8x2048 .f32) (after (ops (F := Ideal)) (fun b => m (c, b)) (Proc.devRef .tc main_call6_v1))
    (broadcastInDim S8x2048 ![] bcast_S_S8x2048 (after (ops (F := Ideal)) (fun b => m (c, b)) (Proc.devRef .tc main_call6_cst_0) : FVec Ideal S_ .f32)) :=
  eq_of_heq (at_tunary outs (fun b => m (c, b)) 127 rfl (by decide) (by decide) (after (ops (F := Ideal)) (fun b => m (c, b)) (Proc.devRef .tc main_call6_cst_0) : FVec Ideal S_ .f32) HEq.rfl)

theorem eq_main_call6_v2 : @Eq (FVec Ideal S8x2048 .f32) (after (ops (F := Ideal)) (fun b => m (c, b)) (Proc.devRef .tc main_call6_v2))
    (maximumf (after (ops (F := Ideal)) (fun b => m (c, b)) (Proc.devRef .tc main_call6_v1) : FVec Ideal S8x2048 .f32) (after (ops (F := Ideal)) (fun b => m (c, b)) (Proc.devRef .tc main_call6_v0) : FVec Ideal S8x2048 .f32)) :=
  eq_of_heq (at_tbinary outs (fun b => m (c, b)) 128 rfl (by decide) (by decide) (by decide) (after (ops (F := Ideal)) (fun b => m (c, b)) (Proc.devRef .tc main_call6_v1) : FVec Ideal S8x2048 .f32) (after (ops (F := Ideal)) (fun b => m (c, b)) (Proc.devRef .tc main_call6_v0) : FVec Ideal S8x2048 .f32) HEq.rfl HEq.rfl)

theorem eq_main_call6_v3 : @Eq (FVec Ideal S8x2048x1 .f32) (after (ops (F := Ideal)) (fun b => m (c, b)) (Proc.devRef .tc main_call6_v3))
    (broadcastInDim S8x2048x1 ![0, 1] bcast_S8x2048_S8x2048x1_0_1 (after (ops (F := Ideal)) (fun b => m (c, b)) (Proc.devRef .tc main_call6_v2) : FVec Ideal S8x2048 .f32)) :=
  eq_of_heq (at_tunary outs (fun b => m (c, b)) 129 rfl (by decide) (by decide) (after (ops (F := Ideal)) (fun b => m (c, b)) (Proc.devRef .tc main_call6_v2) : FVec Ideal S8x2048 .f32) HEq.rfl)

theorem eq_main_call6_v4 : @Eq (FVec Ideal S8x2048x1 .f32) (after (ops (F := Ideal)) (fun b => m (c, b)) (Proc.devRef .tc main_call6_v4))
    (subf (after (ops (F := Ideal)) (fun b => m (c, b)) (Proc.devRef .tc main_v82) : FVec Ideal S8x2048x1 .f32) (after (ops (F := Ideal)) (fun b => m (c, b)) (Proc.devRef .tc main_call6_v3) : FVec Ideal S8x2048x1 .f32)) :=
  eq_of_heq (at_tbinary outs (fun b => m (c, b)) 130 rfl (by decide) (by decide) (by decide) (after (ops (F := Ideal)) (fun b => m (c, b)) (Proc.devRef .tc main_v82) : FVec Ideal S8x2048x1 .f32) (after (ops (F := Ideal)) (fun b => m (c, b)) (Proc.devRef .tc main_call6_v3) : FVec Ideal S8x2048x1 .f32) HEq.rfl HEq.rfl)

theorem eq_main_call6_v5 : @Eq (FVec Ideal S8x2048x1 .f32) (after (ops (F := Ideal)) (fun b => m (c, b)) (Proc.devRef .tc main_call6_v5))
    (Host.exp (after (ops (F := Ideal)) (fun b => m (c, b)) (Proc.devRef .tc main_call6_v4) : FVec Ideal S8x2048x1 .f32)) :=
  eq_of_heq (at_tunary outs (fun b => m (c, b)) 131 rfl (by decide) (by decide) (after (ops (F := Ideal)) (fun b => m (c, b)) (Proc.devRef .tc main_call6_v4) : FVec Ideal S8x2048x1 .f32) HEq.rfl)

theorem eq_main_call6_cst_1 : @Eq (FVec Ideal S_ .f32) (after (ops (F := Ideal)) (fun b => m (c, b)) (Proc.devRef .tc main_call6_cst_1))
    (constant S_ .f32 0x00000000#32) :=
  eq_of_heq (at_tnullary outs (fun b => m (c, b)) 132 rfl (by decide))

theorem eq_main_call6_v6 : @Eq (FVec Ideal S8x2048 .f32) (after (ops (F := Ideal)) (fun b => m (c, b)) (Proc.devRef .tc main_call6_v6))
    (Host.reduceAdd (after (ops (F := Ideal)) (fun b => m (c, b)) (Proc.devRef .tc main_call6_v5) : FVec Ideal S8x2048x1 .f32) (after (ops (F := Ideal)) (fun b => m (c, b)) (Proc.devRef .tc main_call6_cst_1) : FVec Ideal S_ .f32) reducesTo_S8x2048x1_S8x2048_d2 h_S_) :=
  eq_of_heq (at_tbinary outs (fun b => m (c, b)) 133 rfl (by decide) (by decide) (by decide) (after (ops (F := Ideal)) (fun b => m (c, b)) (Proc.devRef .tc main_call6_v5) : FVec Ideal S8x2048x1 .f32) (after (ops (F := Ideal)) (fun b => m (c, b)) (Proc.devRef .tc main_call6_cst_1) : FVec Ideal S_ .f32) HEq.rfl HEq.rfl)

theorem eq_main_call6_v7 : @Eq (FVec Ideal S8x2048x1 .f32) (after (ops (F := Ideal)) (fun b => m (c, b)) (Proc.devRef .tc main_call6_v7))
    (broadcastInDim S8x2048x1 ![0, 1] bcast_S8x2048_S8x2048x1_0_1 (after (ops (F := Ideal)) (fun b => m (c, b)) (Proc.devRef .tc main_call6_v6) : FVec Ideal S8x2048 .f32)) :=
  eq_of_heq (at_tunary outs (fun b => m (c, b)) 134 rfl (by decide) (by decide) (after (ops (F := Ideal)) (fun b => m (c, b)) (Proc.devRef .tc main_call6_v6) : FVec Ideal S8x2048 .f32) HEq.rfl)

theorem eq_main_call6_v8 : @Eq (FVec Ideal S8x2048x1 .f32) (after (ops (F := Ideal)) (fun b => m (c, b)) (Proc.devRef .tc main_call6_v8))
    (Host.log (after (ops (F := Ideal)) (fun b => m (c, b)) (Proc.devRef .tc main_call6_v7) : FVec Ideal S8x2048x1 .f32)) :=
  eq_of_heq (at_tunary outs (fun b => m (c, b)) 135 rfl (by decide) (by decide) (after (ops (F := Ideal)) (fun b => m (c, b)) (Proc.devRef .tc main_call6_v7) : FVec Ideal S8x2048x1 .f32) HEq.rfl)

theorem eq_main_v83 : @Eq (FVec Ideal S8x2048x1 .f32) (after (ops (F := Ideal)) (fun b => m (c, b)) (Proc.devRef .tc main_v83))
    (subf (after (ops (F := Ideal)) (fun b => m (c, b)) (Proc.devRef .tc main_call6_v4) : FVec Ideal S8x2048x1 .f32) (after (ops (F := Ideal)) (fun b => m (c, b)) (Proc.devRef .tc main_call6_v8) : FVec Ideal S8x2048x1 .f32)) :=
  eq_of_heq (at_tbinary outs (fun b => m (c, b)) 136 rfl (by decide) (by decide) (by decide) (after (ops (F := Ideal)) (fun b => m (c, b)) (Proc.devRef .tc main_call6_v4) : FVec Ideal S8x2048x1 .f32) (after (ops (F := Ideal)) (fun b => m (c, b)) (Proc.devRef .tc main_call6_v8) : FVec Ideal S8x2048x1 .f32) HEq.rfl HEq.rfl)

variable (H : RealArgs m c)
include H

/-! The arguments are not written: after the line they hold their launch contents. -/

theorem real_main_arg2 : AllReal (W m c (Proc.devRef .tc main_arg2) : S8x4096x4096.Idx → EReal) :=
  AllReal.of_eq (kept_main_arg2 m c) H.h2

theorem real_main_arg3 : AllReal (W m c (Proc.devRef .tc main_arg3) : S100000x64.Idx → EReal) :=
  AllReal.of_eq (kept_main_arg3 m c) H.h3

theorem real_main_arg4 : AllReal (W m c (Proc.devRef .tc main_arg4) : S100000x64.Idx → EReal) :=
  AllReal.of_eq (kept_main_arg4 m c) H.h4

theorem real_main_arg5 : AllReal (W m c (Proc.devRef .tc main_arg5) : S3x64x64.Idx → EReal) :=
  AllReal.of_eq (kept_main_arg5 m c) H.h5

theorem real_main_arg6 : AllReal (W m c (Proc.devRef .tc main_arg6) : S3x64.Idx → EReal) :=
  AllReal.of_eq (kept_main_arg6 m c) H.h6

theorem real_main_arg7 : AllReal (W m c (Proc.devRef .tc main_arg7) : S3x64x64.Idx → EReal) :=
  AllReal.of_eq (kept_main_arg7 m c) H.h7

theorem real_main_arg8 : AllReal (W m c (Proc.devRef .tc main_arg8) : S3x64.Idx → EReal) :=
  AllReal.of_eq (kept_main_arg8 m c) H.h8

/-! Every float buffer up to the score, in program order, each from its operands. -/

theorem real_main_v6 : AllReal (W m c (Proc.devRef .tc main_v6) : S8x2048x64.Idx → EReal) :=
  AllReal.of_eq (at_binary outs (fun b => m (c, b)) 8 main_arg3 main_v5 main_v6 rfl (by decide) (by decide) (by decide))
    (AllReal.gather _ (real_main_arg3 m c H) _)

theorem real_main_v13 : AllReal (W m c (Proc.devRef .tc main_v13) : S8x2048x64.Idx → EReal) :=
  AllReal.of_eq (at_binary outs (fun b => m (c, b)) 17 main_arg4 main_v12 main_v13 rfl (by decide) (by decide) (by decide))
    (AllReal.gather _ (real_main_arg4 m c H) _)

theorem real_main_v14 : AllReal (W m c (Proc.devRef .tc main_v14) : S8x4096x64.Idx → EReal) :=
  AllReal.of_eq (at_binary outs (fun b => m (c, b)) 18 main_v6 main_v13 main_v14 rfl (by decide) (by decide) (by decide))
    (AllReal.concatenate2 _ (real_main_v6 m c H) (real_main_v13 m c H) _)

theorem real_main_v15 : AllReal (W m c (Proc.devRef .tc main_v15) : S8x4096x64.Idx → EReal) :=
  AllReal.of_eq (at_binary outs (fun b => m (c, b)) 19 main_arg2 main_v14 main_v15 rfl (by decide) (by decide) (by decide))
    (AllReal.dotGeneral _ _ (real_main_arg2 m c H) (real_main_v14 m c H))

theorem real_main_v16 : AllReal (W m c (Proc.devRef .tc main_v16) : S1x64x64.Idx → EReal) :=
  AllReal.of_eq (at_unary outs (fun b => m (c, b)) 20 main_arg5 main_v16 rfl (by decide) (by decide))
    (AllReal.extractStridedSlice (real_main_arg5 m c H) _ _)

theorem real_main_v17 : AllReal (W m c (Proc.devRef .tc main_v17) : S64x64.Idx → EReal) :=
  AllReal.of_eq (at_reshape outs (fun b => m (c, b)) 21 main_v16 main_v17 rfl (by decide) (by decide))
    (AllReal.shapeCast (real_main_v16 m c H) _)

theorem real_main_v18 : AllReal (W m c (Proc.devRef .tc main_v18) : S8x4096x64.Idx → EReal) :=
  AllReal.of_eq (at_binary outs (fun b => m (c, b)) 22 main_v15 main_v17 main_v18 rfl (by decide) (by decide) (by decide))
    (AllReal.dotGeneral _ _ (real_main_v15 m c H) (real_main_v17 m c H))

theorem real_main_v19 : AllReal (W m c (Proc.devRef .tc main_v19) : S1x64.Idx → EReal) :=
  AllReal.of_eq (at_unary outs (fun b => m (c, b)) 23 main_arg6 main_v19 rfl (by decide) (by decide))
    (AllReal.extractStridedSlice (real_main_arg6 m c H) _ _)

theorem real_main_v20 : AllReal (W m c (Proc.devRef .tc main_v20) : S64.Idx → EReal) :=
  AllReal.of_eq (at_reshape outs (fun b => m (c, b)) 24 main_v19 main_v20 rfl (by decide) (by decide))
    (AllReal.shapeCast (real_main_v19 m c H) _)

theorem real_main_v21 : AllReal (W m c (Proc.devRef .tc main_v21) : S1x1x64.Idx → EReal) :=
  AllReal.of_eq (at_unary outs (fun b => m (c, b)) 25 main_v20 main_v21 rfl (by decide) (by decide))
    (AllReal.broadcastInDim (real_main_v20 m c H) _ _)

theorem real_main_v22 : AllReal (W m c (Proc.devRef .tc main_v22) : S8x4096x64.Idx → EReal) :=
  AllReal.of_eq (at_unary outs (fun b => m (c, b)) 26 main_v21 main_v22 rfl (by decide) (by decide))
    (AllReal.broadcastInDim (real_main_v21 m c H) _ _)

theorem real_main_v23 : AllReal (W m c (Proc.devRef .tc main_v23) : S8x4096x64.Idx → EReal) :=
  AllReal.of_eq (at_binary outs (fun b => m (c, b)) 27 main_v18 main_v22 main_v23 rfl (by decide) (by decide) (by decide))
    (AllReal.addf (real_main_v18 m c H) (real_main_v22 m c H))

theorem real_main_call0_cst : AllReal (W m c (Proc.devRef .tc main_call0_cst) : S_.Idx → EReal) :=
  AllReal.of_eq (at_nullary outs (fun b => m (c, b)) 28 main_call0_cst rfl (by decide))
    (AllReal.constant_zero)

theorem real_main_call0_v0 : AllReal (W m c (Proc.devRef .tc main_call0_v0) : S8x4096x64.Idx → EReal) :=
  AllReal.of_eq (at_unary outs (fun b => m (c, b)) 29 main_call0_cst main_call0_v0 rfl (by decide) (by decide))
    (AllReal.broadcastInDim (t := S8x4096x64) (real_main_call0_cst m c H) ![] bcast_S_S8x4096x64)

theorem real_main_call0_cst_0 : AllReal (W m c (Proc.devRef .tc main_call0_cst_0) : S_.Idx → EReal) :=
  AllReal.of_eq (at_nullary outs (fun b => m (c, b)) 31 main_call0_cst_0 rfl (by decide))
    (AllReal.constant_slope)

theorem real_main_call0_v2 : AllReal (W m c (Proc.devRef .tc main_call0_v2) : S8x4096x64.Idx → EReal) :=
  AllReal.of_eq (at_unary outs (fun b => m (c, b)) 32 main_call0_cst_0 main_call0_v2 rfl (by decide) (by decide))
    (AllReal.broadcastInDim (t := S8x4096x64) (real_main_call0_cst_0 m c H) ![] bcast_S_S8x4096x64)

theorem real_main_call0_v3 : AllReal (W m c (Proc.devRef .tc main_call0_v3) : S8x4096x64.Idx → EReal) :=
  AllReal.of_eq (at_binary outs (fun b => m (c, b)) 33 main_call0_v2 main_v23 main_call0_v3 rfl (by decide) (by decide) (by decide))
    (AllReal.mulf (real_main_call0_v2 m c H) (real_main_v23 m c H))

theorem real_main_v24 : AllReal (W m c (Proc.devRef .tc main_v24) : S8x4096x64.Idx → EReal) :=
  AllReal.of_eq (at_ternary outs (fun b => m (c, b)) 34 main_call0_v1 main_v23 main_call0_v3 main_v24 rfl (by decide) (by decide) (by decide) (by decide))
    (AllReal.select (c := (W m c (Proc.devRef .tc main_call0_v1) : S8x4096x64.Idx → BitVec 1)) (real_main_v23 m c H) (real_main_call0_v3 m c H))

theorem real_main_v25 : AllReal (W m c (Proc.devRef .tc main_v25) : S8x4096x64.Idx → EReal) :=
  AllReal.of_eq (at_binary outs (fun b => m (c, b)) 35 main_v14 main_v15 main_v25 rfl (by decide) (by decide) (by decide))
    (AllReal.mulf (real_main_v14 m c H) (real_main_v15 m c H))

theorem real_main_v26 : AllReal (W m c (Proc.devRef .tc main_v26) : S1x64x64.Idx → EReal) :=
  AllReal.of_eq (at_unary outs (fun b => m (c, b)) 36 main_arg7 main_v26 rfl (by decide) (by decide))
    (AllReal.extractStridedSlice (real_main_arg7 m c H) _ _)

theorem real_main_v27 : AllReal (W m c (Proc.devRef .tc main_v27) : S64x64.Idx → EReal) :=
  AllReal.of_eq (at_reshape outs (fun b => m (c, b)) 37 main_v26 main_v27 rfl (by decide) (by decide))
    (AllReal.shapeCast (real_main_v26 m c H) _)

theorem real_main_v28 : AllReal (W m c (Proc.devRef .tc main_v28) : S8x4096x64.Idx → EReal) :=
  AllReal.of_eq (at_binary outs (fun b => m (c, b)) 38 main_v25 main_v27 main_v28 rfl (by decide) (by decide) (by decide))
    (AllReal.dotGeneral _ _ (real_main_v25 m c H) (real_main_v27 m c H))

theorem real_main_v29 : AllReal (W m c (Proc.devRef .tc main_v29) : S1x64.Idx → EReal) :=
  AllReal.of_eq (at_unary outs (fun b => m (c, b)) 39 main_arg8 main_v29 rfl (by decide) (by decide))
    (AllReal.extractStridedSlice (real_main_arg8 m c H) _ _)

theorem real_main_v30 : AllReal (W m c (Proc.devRef .tc main_v30) : S64.Idx → EReal) :=
  AllReal.of_eq (at_reshape outs (fun b => m (c, b)) 40 main_v29 main_v30 rfl (by decide) (by decide))
    (AllReal.shapeCast (real_main_v29 m c H) _)

theorem real_main_v31 : AllReal (W m c (Proc.devRef .tc main_v31) : S1x1x64.Idx → EReal) :=
  AllReal.of_eq (at_unary outs (fun b => m (c, b)) 41 main_v30 main_v31 rfl (by decide) (by decide))
    (AllReal.broadcastInDim (real_main_v30 m c H) _ _)

theorem real_main_v32 : AllReal (W m c (Proc.devRef .tc main_v32) : S8x4096x64.Idx → EReal) :=
  AllReal.of_eq (at_unary outs (fun b => m (c, b)) 42 main_v31 main_v32 rfl (by decide) (by decide))
    (AllReal.broadcastInDim (real_main_v31 m c H) _ _)

theorem real_main_v33 : AllReal (W m c (Proc.devRef .tc main_v33) : S8x4096x64.Idx → EReal) :=
  AllReal.of_eq (at_binary outs (fun b => m (c, b)) 43 main_v28 main_v32 main_v33 rfl (by decide) (by decide) (by decide))
    (AllReal.addf (real_main_v28 m c H) (real_main_v32 m c H))

theorem real_main_call1_cst : AllReal (W m c (Proc.devRef .tc main_call1_cst) : S_.Idx → EReal) :=
  AllReal.of_eq (at_nullary outs (fun b => m (c, b)) 44 main_call1_cst rfl (by decide))
    (AllReal.constant_zero)

theorem real_main_call1_v0 : AllReal (W m c (Proc.devRef .tc main_call1_v0) : S8x4096x64.Idx → EReal) :=
  AllReal.of_eq (at_unary outs (fun b => m (c, b)) 45 main_call1_cst main_call1_v0 rfl (by decide) (by decide))
    (AllReal.broadcastInDim (t := S8x4096x64) (real_main_call1_cst m c H) ![] bcast_S_S8x4096x64)

theorem real_main_call1_cst_0 : AllReal (W m c (Proc.devRef .tc main_call1_cst_0) : S_.Idx → EReal) :=
  AllReal.of_eq (at_nullary outs (fun b => m (c, b)) 47 main_call1_cst_0 rfl (by decide))
    (AllReal.constant_slope)

theorem real_main_call1_v2 : AllReal (W m c (Proc.devRef .tc main_call1_v2) : S8x4096x64.Idx → EReal) :=
  AllReal.of_eq (at_unary outs (fun b => m (c, b)) 48 main_call1_cst_0 main_call1_v2 rfl (by decide) (by decide))
    (AllReal.broadcastInDim (t := S8x4096x64) (real_main_call1_cst_0 m c H) ![] bcast_S_S8x4096x64)

theorem real_main_call1_v3 : AllReal (W m c (Proc.devRef .tc main_call1_v3) : S8x4096x64.Idx → EReal) :=
  AllReal.of_eq (at_binary outs (fun b => m (c, b)) 49 main_call1_v2 main_v33 main_call1_v3 rfl (by decide) (by decide) (by decide))
    (AllReal.mulf (real_main_call1_v2 m c H) (real_main_v33 m c H))

theorem real_main_v34 : AllReal (W m c (Proc.devRef .tc main_v34) : S8x4096x64.Idx → EReal) :=
  AllReal.of_eq (at_ternary outs (fun b => m (c, b)) 50 main_call1_v1 main_v33 main_call1_v3 main_v34 rfl (by decide) (by decide) (by decide) (by decide))
    (AllReal.select (c := (W m c (Proc.devRef .tc main_call1_v1) : S8x4096x64.Idx → BitVec 1)) (real_main_v33 m c H) (real_main_call1_v3 m c H))

theorem real_main_v35 : AllReal (W m c (Proc.devRef .tc main_v35) : S8x4096x64.Idx → EReal) :=
  AllReal.of_eq (at_binary outs (fun b => m (c, b)) 51 main_v24 main_v34 main_v35 rfl (by decide) (by decide) (by decide))
    (AllReal.addf (real_main_v24 m c H) (real_main_v34 m c H))

theorem real_main_v36 : AllReal (W m c (Proc.devRef .tc main_v36) : S8x4096x64.Idx → EReal) :=
  AllReal.of_eq (at_binary outs (fun b => m (c, b)) 52 main_arg2 main_v35 main_v36 rfl (by decide) (by decide) (by decide))
    (AllReal.dotGeneral _ _ (real_main_arg2 m c H) (real_main_v35 m c H))

theorem real_main_v37 : AllReal (W m c (Proc.devRef .tc main_v37) : S1x64x64.Idx → EReal) :=
  AllReal.of_eq (at_unary outs (fun b => m (c, b)) 53 main_arg5 main_v37 rfl (by decide) (by decide))
    (AllReal.extractStridedSlice (real_main_arg5 m c H) _ _)

theorem real_main_v38 : AllReal (W m c (Proc.devRef .tc main_v38) : S64x64.Idx → EReal) :=
  AllReal.of_eq (at_reshape outs (fun b => m (c, b)) 54 main_v37 main_v38 rfl (by decide) (by decide))
    (AllReal.shapeCast (real_main_v37 m c H) _)

theorem real_main_v39 : AllReal (W m c (Proc.devRef .tc main_v39) : S8x4096x64.Idx → EReal) :=
  AllReal.of_eq (at_binary outs (fun b => m (c, b)) 55 main_v36 main_v38 main_v39 rfl (by decide) (by decide) (by decide))
    (AllReal.dotGeneral _ _ (real_main_v36 m c H) (real_main_v38 m c H))

theorem real_main_v40 : AllReal (W m c (Proc.devRef .tc main_v40) : S1x64.Idx → EReal) :=
  AllReal.of_eq (at_unary outs (fun b => m (c, b)) 56 main_arg6 main_v40 rfl (by decide) (by decide))
    (AllReal.extractStridedSlice (real_main_arg6 m c H) _ _)

theorem real_main_v41 : AllReal (W m c (Proc.devRef .tc main_v41) : S64.Idx → EReal) :=
  AllReal.of_eq (at_reshape outs (fun b => m (c, b)) 57 main_v40 main_v41 rfl (by decide) (by decide))
    (AllReal.shapeCast (real_main_v40 m c H) _)

theorem real_main_v42 : AllReal (W m c (Proc.devRef .tc main_v42) : S1x1x64.Idx → EReal) :=
  AllReal.of_eq (at_unary outs (fun b => m (c, b)) 58 main_v41 main_v42 rfl (by decide) (by decide))
    (AllReal.broadcastInDim (real_main_v41 m c H) _ _)

theorem real_main_v43 : AllReal (W m c (Proc.devRef .tc main_v43) : S8x4096x64.Idx → EReal) :=
  AllReal.of_eq (at_unary outs (fun b => m (c, b)) 59 main_v42 main_v43 rfl (by decide) (by decide))
    (AllReal.broadcastInDim (real_main_v42 m c H) _ _)

theorem real_main_v44 : AllReal (W m c (Proc.devRef .tc main_v44) : S8x4096x64.Idx → EReal) :=
  AllReal.of_eq (at_binary outs (fun b => m (c, b)) 60 main_v39 main_v43 main_v44 rfl (by decide) (by decide) (by decide))
    (AllReal.addf (real_main_v39 m c H) (real_main_v43 m c H))

theorem real_main_call2_cst : AllReal (W m c (Proc.devRef .tc main_call2_cst) : S_.Idx → EReal) :=
  AllReal.of_eq (at_nullary outs (fun b => m (c, b)) 61 main_call2_cst rfl (by decide))
    (AllReal.constant_zero)

theorem real_main_call2_v0 : AllReal (W m c (Proc.devRef .tc main_call2_v0) : S8x4096x64.Idx → EReal) :=
  AllReal.of_eq (at_unary outs (fun b => m (c, b)) 62 main_call2_cst main_call2_v0 rfl (by decide) (by decide))
    (AllReal.broadcastInDim (t := S8x4096x64) (real_main_call2_cst m c H) ![] bcast_S_S8x4096x64)

theorem real_main_call2_cst_0 : AllReal (W m c (Proc.devRef .tc main_call2_cst_0) : S_.Idx → EReal) :=
  AllReal.of_eq (at_nullary outs (fun b => m (c, b)) 64 main_call2_cst_0 rfl (by decide))
    (AllReal.constant_slope)

theorem real_main_call2_v2 : AllReal (W m c (Proc.devRef .tc main_call2_v2) : S8x4096x64.Idx → EReal) :=
  AllReal.of_eq (at_unary outs (fun b => m (c, b)) 65 main_call2_cst_0 main_call2_v2 rfl (by decide) (by decide))
    (AllReal.broadcastInDim (t := S8x4096x64) (real_main_call2_cst_0 m c H) ![] bcast_S_S8x4096x64)

theorem real_main_call2_v3 : AllReal (W m c (Proc.devRef .tc main_call2_v3) : S8x4096x64.Idx → EReal) :=
  AllReal.of_eq (at_binary outs (fun b => m (c, b)) 66 main_call2_v2 main_v44 main_call2_v3 rfl (by decide) (by decide) (by decide))
    (AllReal.mulf (real_main_call2_v2 m c H) (real_main_v44 m c H))

theorem real_main_v45 : AllReal (W m c (Proc.devRef .tc main_v45) : S8x4096x64.Idx → EReal) :=
  AllReal.of_eq (at_ternary outs (fun b => m (c, b)) 67 main_call2_v1 main_v44 main_call2_v3 main_v45 rfl (by decide) (by decide) (by decide) (by decide))
    (AllReal.select (c := (W m c (Proc.devRef .tc main_call2_v1) : S8x4096x64.Idx → BitVec 1)) (real_main_v44 m c H) (real_main_call2_v3 m c H))

theorem real_main_v46 : AllReal (W m c (Proc.devRef .tc main_v46) : S8x4096x64.Idx → EReal) :=
  AllReal.of_eq (at_binary outs (fun b => m (c, b)) 68 main_v35 main_v36 main_v46 rfl (by decide) (by decide) (by decide))
    (AllReal.mulf (real_main_v35 m c H) (real_main_v36 m c H))

theorem real_main_v47 : AllReal (W m c (Proc.devRef .tc main_v47) : S1x64x64.Idx → EReal) :=
  AllReal.of_eq (at_unary outs (fun b => m (c, b)) 69 main_arg7 main_v47 rfl (by decide) (by decide))
    (AllReal.extractStridedSlice (real_main_arg7 m c H) _ _)

theorem real_main_v48 : AllReal (W m c (Proc.devRef .tc main_v48) : S64x64.Idx → EReal) :=
  AllReal.of_eq (at_reshape outs (fun b => m (c, b)) 70 main_v47 main_v48 rfl (by decide) (by decide))
    (AllReal.shapeCast (real_main_v47 m c H) _)

theorem real_main_v49 : AllReal (W m c (Proc.devRef .tc main_v49) : S8x4096x64.Idx → EReal) :=
  AllReal.of_eq (at_binary outs (fun b => m (c, b)) 71 main_v46 main_v48 main_v49 rfl (by decide) (by decide) (by decide))
    (AllReal.dotGeneral _ _ (real_main_v46 m c H) (real_main_v48 m c H))

theorem real_main_v50 : AllReal (W m c (Proc.devRef .tc main_v50) : S1x64.Idx → EReal) :=
  AllReal.of_eq (at_unary outs (fun b => m (c, b)) 72 main_arg8 main_v50 rfl (by decide) (by decide))
    (AllReal.extractStridedSlice (real_main_arg8 m c H) _ _)

theorem real_main_v51 : AllReal (W m c (Proc.devRef .tc main_v51) : S64.Idx → EReal) :=
  AllReal.of_eq (at_reshape outs (fun b => m (c, b)) 73 main_v50 main_v51 rfl (by decide) (by decide))
    (AllReal.shapeCast (real_main_v50 m c H) _)

theorem real_main_v52 : AllReal (W m c (Proc.devRef .tc main_v52) : S1x1x64.Idx → EReal) :=
  AllReal.of_eq (at_unary outs (fun b => m (c, b)) 74 main_v51 main_v52 rfl (by decide) (by decide))
    (AllReal.broadcastInDim (real_main_v51 m c H) _ _)

theorem real_main_v53 : AllReal (W m c (Proc.devRef .tc main_v53) : S8x4096x64.Idx → EReal) :=
  AllReal.of_eq (at_unary outs (fun b => m (c, b)) 75 main_v52 main_v53 rfl (by decide) (by decide))
    (AllReal.broadcastInDim (real_main_v52 m c H) _ _)

theorem real_main_v54 : AllReal (W m c (Proc.devRef .tc main_v54) : S8x4096x64.Idx → EReal) :=
  AllReal.of_eq (at_binary outs (fun b => m (c, b)) 76 main_v49 main_v53 main_v54 rfl (by decide) (by decide) (by decide))
    (AllReal.addf (real_main_v49 m c H) (real_main_v53 m c H))

theorem real_main_call3_cst : AllReal (W m c (Proc.devRef .tc main_call3_cst) : S_.Idx → EReal) :=
  AllReal.of_eq (at_nullary outs (fun b => m (c, b)) 77 main_call3_cst rfl (by decide))
    (AllReal.constant_zero)

theorem real_main_call3_v0 : AllReal (W m c (Proc.devRef .tc main_call3_v0) : S8x4096x64.Idx → EReal) :=
  AllReal.of_eq (at_unary outs (fun b => m (c, b)) 78 main_call3_cst main_call3_v0 rfl (by decide) (by decide))
    (AllReal.broadcastInDim (t := S8x4096x64) (real_main_call3_cst m c H) ![] bcast_S_S8x4096x64)

theorem real_main_call3_cst_0 : AllReal (W m c (Proc.devRef .tc main_call3_cst_0) : S_.Idx → EReal) :=
  AllReal.of_eq (at_nullary outs (fun b => m (c, b)) 80 main_call3_cst_0 rfl (by decide))
    (AllReal.constant_slope)

theorem real_main_call3_v2 : AllReal (W m c (Proc.devRef .tc main_call3_v2) : S8x4096x64.Idx → EReal) :=
  AllReal.of_eq (at_unary outs (fun b => m (c, b)) 81 main_call3_cst_0 main_call3_v2 rfl (by decide) (by decide))
    (AllReal.broadcastInDim (t := S8x4096x64) (real_main_call3_cst_0 m c H) ![] bcast_S_S8x4096x64)

theorem real_main_call3_v3 : AllReal (W m c (Proc.devRef .tc main_call3_v3) : S8x4096x64.Idx → EReal) :=
  AllReal.of_eq (at_binary outs (fun b => m (c, b)) 82 main_call3_v2 main_v54 main_call3_v3 rfl (by decide) (by decide) (by decide))
    (AllReal.mulf (real_main_call3_v2 m c H) (real_main_v54 m c H))

theorem real_main_v55 : AllReal (W m c (Proc.devRef .tc main_v55) : S8x4096x64.Idx → EReal) :=
  AllReal.of_eq (at_ternary outs (fun b => m (c, b)) 83 main_call3_v1 main_v54 main_call3_v3 main_v55 rfl (by decide) (by decide) (by decide) (by decide))
    (AllReal.select (c := (W m c (Proc.devRef .tc main_call3_v1) : S8x4096x64.Idx → BitVec 1)) (real_main_v54 m c H) (real_main_call3_v3 m c H))

theorem real_main_v56 : AllReal (W m c (Proc.devRef .tc main_v56) : S8x4096x64.Idx → EReal) :=
  AllReal.of_eq (at_binary outs (fun b => m (c, b)) 84 main_v45 main_v55 main_v56 rfl (by decide) (by decide) (by decide))
    (AllReal.addf (real_main_v45 m c H) (real_main_v55 m c H))

theorem real_main_v57 : AllReal (W m c (Proc.devRef .tc main_v57) : S8x4096x64.Idx → EReal) :=
  AllReal.of_eq (at_binary outs (fun b => m (c, b)) 85 main_arg2 main_v56 main_v57 rfl (by decide) (by decide) (by decide))
    (AllReal.dotGeneral _ _ (real_main_arg2 m c H) (real_main_v56 m c H))

theorem real_main_v58 : AllReal (W m c (Proc.devRef .tc main_v58) : S1x64x64.Idx → EReal) :=
  AllReal.of_eq (at_unary outs (fun b => m (c, b)) 86 main_arg5 main_v58 rfl (by decide) (by decide))
    (AllReal.extractStridedSlice (real_main_arg5 m c H) _ _)

theorem real_main_v59 : AllReal (W m c (Proc.devRef .tc main_v59) : S64x64.Idx → EReal) :=
  AllReal.of_eq (at_reshape outs (fun b => m (c, b)) 87 main_v58 main_v59 rfl (by decide) (by decide))
    (AllReal.shapeCast (real_main_v58 m c H) _)

theorem real_main_v60 : AllReal (W m c (Proc.devRef .tc main_v60) : S8x4096x64.Idx → EReal) :=
  AllReal.of_eq (at_binary outs (fun b => m (c, b)) 88 main_v57 main_v59 main_v60 rfl (by decide) (by decide) (by decide))
    (AllReal.dotGeneral _ _ (real_main_v57 m c H) (real_main_v59 m c H))

theorem real_main_v61 : AllReal (W m c (Proc.devRef .tc main_v61) : S1x64.Idx → EReal) :=
  AllReal.of_eq (at_unary outs (fun b => m (c, b)) 89 main_arg6 main_v61 rfl (by decide) (by decide))
    (AllReal.extractStridedSlice (real_main_arg6 m c H) _ _)

theorem real_main_v62 : AllReal (W m c (Proc.devRef .tc main_v62) : S64.Idx → EReal) :=
  AllReal.of_eq (at_reshape outs (fun b => m (c, b)) 90 main_v61 main_v62 rfl (by decide) (by decide))
    (AllReal.shapeCast (real_main_v61 m c H) _)

theorem real_main_v63 : AllReal (W m c (Proc.devRef .tc main_v63) : S1x1x64.Idx → EReal) :=
  AllReal.of_eq (at_unary outs (fun b => m (c, b)) 91 main_v62 main_v63 rfl (by decide) (by decide))
    (AllReal.broadcastInDim (real_main_v62 m c H) _ _)

theorem real_main_v64 : AllReal (W m c (Proc.devRef .tc main_v64) : S8x4096x64.Idx → EReal) :=
  AllReal.of_eq (at_unary outs (fun b => m (c, b)) 92 main_v63 main_v64 rfl (by decide) (by decide))
    (AllReal.broadcastInDim (real_main_v63 m c H) _ _)

theorem real_main_v65 : AllReal (W m c (Proc.devRef .tc main_v65) : S8x4096x64.Idx → EReal) :=
  AllReal.of_eq (at_binary outs (fun b => m (c, b)) 93 main_v60 main_v64 main_v65 rfl (by decide) (by decide) (by decide))
    (AllReal.addf (real_main_v60 m c H) (real_main_v64 m c H))

theorem real_main_call4_cst : AllReal (W m c (Proc.devRef .tc main_call4_cst) : S_.Idx → EReal) :=
  AllReal.of_eq (at_nullary outs (fun b => m (c, b)) 94 main_call4_cst rfl (by decide))
    (AllReal.constant_zero)

theorem real_main_call4_v0 : AllReal (W m c (Proc.devRef .tc main_call4_v0) : S8x4096x64.Idx → EReal) :=
  AllReal.of_eq (at_unary outs (fun b => m (c, b)) 95 main_call4_cst main_call4_v0 rfl (by decide) (by decide))
    (AllReal.broadcastInDim (t := S8x4096x64) (real_main_call4_cst m c H) ![] bcast_S_S8x4096x64)

theorem real_main_call4_cst_0 : AllReal (W m c (Proc.devRef .tc main_call4_cst_0) : S_.Idx → EReal) :=
  AllReal.of_eq (at_nullary outs (fun b => m (c, b)) 97 main_call4_cst_0 rfl (by decide))
    (AllReal.constant_slope)

theorem real_main_call4_v2 : AllReal (W m c (Proc.devRef .tc main_call4_v2) : S8x4096x64.Idx → EReal) :=
  AllReal.of_eq (at_unary outs (fun b => m (c, b)) 98 main_call4_cst_0 main_call4_v2 rfl (by decide) (by decide))
    (AllReal.broadcastInDim (t := S8x4096x64) (real_main_call4_cst_0 m c H) ![] bcast_S_S8x4096x64)

theorem real_main_call4_v3 : AllReal (W m c (Proc.devRef .tc main_call4_v3) : S8x4096x64.Idx → EReal) :=
  AllReal.of_eq (at_binary outs (fun b => m (c, b)) 99 main_call4_v2 main_v65 main_call4_v3 rfl (by decide) (by decide) (by decide))
    (AllReal.mulf (real_main_call4_v2 m c H) (real_main_v65 m c H))

theorem real_main_v66 : AllReal (W m c (Proc.devRef .tc main_v66) : S8x4096x64.Idx → EReal) :=
  AllReal.of_eq (at_ternary outs (fun b => m (c, b)) 100 main_call4_v1 main_v65 main_call4_v3 main_v66 rfl (by decide) (by decide) (by decide) (by decide))
    (AllReal.select (c := (W m c (Proc.devRef .tc main_call4_v1) : S8x4096x64.Idx → BitVec 1)) (real_main_v65 m c H) (real_main_call4_v3 m c H))

theorem real_main_v67 : AllReal (W m c (Proc.devRef .tc main_v67) : S8x4096x64.Idx → EReal) :=
  AllReal.of_eq (at_binary outs (fun b => m (c, b)) 101 main_v56 main_v57 main_v67 rfl (by decide) (by decide) (by decide))
    (AllReal.mulf (real_main_v56 m c H) (real_main_v57 m c H))

theorem real_main_v68 : AllReal (W m c (Proc.devRef .tc main_v68) : S1x64x64.Idx → EReal) :=
  AllReal.of_eq (at_unary outs (fun b => m (c, b)) 102 main_arg7 main_v68 rfl (by decide) (by decide))
    (AllReal.extractStridedSlice (real_main_arg7 m c H) _ _)

theorem real_main_v69 : AllReal (W m c (Proc.devRef .tc main_v69) : S64x64.Idx → EReal) :=
  AllReal.of_eq (at_reshape outs (fun b => m (c, b)) 103 main_v68 main_v69 rfl (by decide) (by decide))
    (AllReal.shapeCast (real_main_v68 m c H) _)

theorem real_main_v70 : AllReal (W m c (Proc.devRef .tc main_v70) : S8x4096x64.Idx → EReal) :=
  AllReal.of_eq (at_binary outs (fun b => m (c, b)) 104 main_v67 main_v69 main_v70 rfl (by decide) (by decide) (by decide))
    (AllReal.dotGeneral _ _ (real_main_v67 m c H) (real_main_v69 m c H))

theorem real_main_v71 : AllReal (W m c (Proc.devRef .tc main_v71) : S1x64.Idx → EReal) :=
  AllReal.of_eq (at_unary outs (fun b => m (c, b)) 105 main_arg8 main_v71 rfl (by decide) (by decide))
    (AllReal.extractStridedSlice (real_main_arg8 m c H) _ _)

theorem real_main_v72 : AllReal (W m c (Proc.devRef .tc main_v72) : S64.Idx → EReal) :=
  AllReal.of_eq (at_reshape outs (fun b => m (c, b)) 106 main_v71 main_v72 rfl (by decide) (by decide))
    (AllReal.shapeCast (real_main_v71 m c H) _)

theorem real_main_v73 : AllReal (W m c (Proc.devRef .tc main_v73) : S1x1x64.Idx → EReal) :=
  AllReal.of_eq (at_unary outs (fun b => m (c, b)) 107 main_v72 main_v73 rfl (by decide) (by decide))
    (AllReal.broadcastInDim (real_main_v72 m c H) _ _)

theorem real_main_v74 : AllReal (W m c (Proc.devRef .tc main_v74) : S8x4096x64.Idx → EReal) :=
  AllReal.of_eq (at_unary outs (fun b => m (c, b)) 108 main_v73 main_v74 rfl (by decide) (by decide))
    (AllReal.broadcastInDim (real_main_v73 m c H) _ _)

theorem real_main_v75 : AllReal (W m c (Proc.devRef .tc main_v75) : S8x4096x64.Idx → EReal) :=
  AllReal.of_eq (at_binary outs (fun b => m (c, b)) 109 main_v70 main_v74 main_v75 rfl (by decide) (by decide) (by decide))
    (AllReal.addf (real_main_v70 m c H) (real_main_v74 m c H))

theorem real_main_call5_cst : AllReal (W m c (Proc.devRef .tc main_call5_cst) : S_.Idx → EReal) :=
  AllReal.of_eq (at_nullary outs (fun b => m (c, b)) 110 main_call5_cst rfl (by decide))
    (AllReal.constant_zero)

theorem real_main_call5_v0 : AllReal (W m c (Proc.devRef .tc main_call5_v0) : S8x4096x64.Idx → EReal) :=
  AllReal.of_eq (at_unary outs (fun b => m (c, b)) 111 main_call5_cst main_call5_v0 rfl (by decide) (by decide))
    (AllReal.broadcastInDim (t := S8x4096x64) (real_main_call5_cst m c H) ![] bcast_S_S8x4096x64)

theorem real_main_call5_cst_0 : AllReal (W m c (Proc.devRef .tc main_call5_cst_0) : S_.Idx → EReal) :=
  AllReal.of_eq (at_nullary outs (fun b => m (c, b)) 113 main_call5_cst_0 rfl (by decide))
    (AllReal.constant_slope)

theorem real_main_call5_v2 : AllReal (W m c (Proc.devRef .tc main_call5_v2) : S8x4096x64.Idx → EReal) :=
  AllReal.of_eq (at_unary outs (fun b => m (c, b)) 114 main_call5_cst_0 main_call5_v2 rfl (by decide) (by decide))
    (AllReal.broadcastInDim (t := S8x4096x64) (real_main_call5_cst_0 m c H) ![] bcast_S_S8x4096x64)

theorem real_main_call5_v3 : AllReal (W m c (Proc.devRef .tc main_call5_v3) : S8x4096x64.Idx → EReal) :=
  AllReal.of_eq (at_binary outs (fun b => m (c, b)) 115 main_call5_v2 main_v75 main_call5_v3 rfl (by decide) (by decide) (by decide))
    (AllReal.mulf (real_main_call5_v2 m c H) (real_main_v75 m c H))

theorem real_main_v76 : AllReal (W m c (Proc.devRef .tc main_v76) : S8x4096x64.Idx → EReal) :=
  AllReal.of_eq (at_ternary outs (fun b => m (c, b)) 116 main_call5_v1 main_v75 main_call5_v3 main_v76 rfl (by decide) (by decide) (by decide) (by decide))
    (AllReal.select (c := (W m c (Proc.devRef .tc main_call5_v1) : S8x4096x64.Idx → BitVec 1)) (real_main_v75 m c H) (real_main_call5_v3 m c H))

theorem real_main_v77 : AllReal (W m c (Proc.devRef .tc main_v77) : S8x4096x64.Idx → EReal) :=
  AllReal.of_eq (at_binary outs (fun b => m (c, b)) 117 main_v66 main_v76 main_v77 rfl (by decide) (by decide) (by decide))
    (AllReal.addf (real_main_v66 m c H) (real_main_v76 m c H))

theorem real_main_v78 : AllReal (W m c (Proc.devRef .tc main_v78) : S8x2048x64.Idx → EReal) :=
  AllReal.of_eq (at_unary outs (fun b => m (c, b)) 118 main_v77 main_v78 rfl (by decide) (by decide))
    (AllReal.extractStridedSlice (real_main_v77 m c H) _ _)

theorem real_main_v79 : AllReal (W m c (Proc.devRef .tc main_v79) : S8x2048x64.Idx → EReal) :=
  AllReal.of_eq (at_unary outs (fun b => m (c, b)) 119 main_v77 main_v79 rfl (by decide) (by decide))
    (AllReal.extractStridedSlice (real_main_v77 m c H) _ _)

theorem real_main_v80 : AllReal (W m c (Proc.devRef .tc main_v80) : S8x2048x64.Idx → EReal) :=
  AllReal.of_eq (at_binary outs (fun b => m (c, b)) 120 main_v78 main_v79 main_v80 rfl (by decide) (by decide) (by decide))
    (AllReal.mulf (real_main_v78 m c H) (real_main_v79 m c H))

theorem real_main_cst : AllReal (W m c (Proc.devRef .tc main_cst) : S_.Idx → EReal) :=
  AllReal.of_eq (at_nullary outs (fun b => m (c, b)) 121 main_cst rfl (by decide))
    (AllReal.constant_zero)

theorem real_main_v81 : AllReal (W m c (Proc.devRef .tc main_v81) : S8x2048.Idx → EReal) :=
  AllReal.of_eq (at_binary outs (fun b => m (c, b)) 122 main_v80 main_cst main_v81 rfl (by decide) (by decide) (by decide))
    (AllReal.hostReduceAdd (real_main_v80 m c H) (real_main_cst m c H) _ _)

theorem real_main_v82 : AllReal (W m c (Proc.devRef .tc main_v82) : S8x2048x1.Idx → EReal) :=
  AllReal.of_eq (at_unary outs (fun b => m (c, b)) 123 main_v81 main_v82 rfl (by decide) (by decide))
    (AllReal.broadcastInDim (real_main_v81 m c H) _ _)

/-! The closing log-softmax, read back to the score, and the final reshape. -/

/-- The log-softmax's result buffer holds the zero array: its thirteen operations composed are the log-softmax along
    the unit last axis of the score, which is an array of reals. -/
theorem zero_main_v83 : @Eq (S8x2048x1.Idx → EReal) (after (ops (F := Ideal)) (fun b => m (c, b)) (Proc.devRef .tc main_v83)) (fun _ => 0) := by
  rw [eq_main_v83 m c, eq_main_call6_v8 m c, eq_main_call6_v7 m c, eq_main_call6_v6 m c, eq_main_call6_cst_1 m c, eq_main_call6_v5 m c, eq_main_call6_v4 m c, eq_main_call6_v3 m c, eq_main_call6_v2 m c, eq_main_call6_v1 m c, eq_main_call6_cst_0 m c, eq_main_call6_v0 m c, eq_main_call6_cst m c]
  exact logSoftmax_unit_zero bcast_S_S8x2048 bcast_S8x2048_S8x2048x1_0_1 reducesTo_S8x2048x1_S8x2048_d2 h_S_ (after (ops (F := Ideal)) (fun b => m (c, b)) (Proc.devRef .tc main_v82) : FVec Ideal S8x2048x1 .f32) (real_main_v82 m c H)

/-- The result buffer holds the zero array: a reshape of the zero array. -/
theorem zero_main_v84 : @Eq (S16384x1.Idx → EReal) (after (ops (F := Ideal)) (fun b => m (c, b)) (Proc.devRef .tc main_v84)) (fun _ => 0) := by
  rw [at_reshape outs (fun b => m (c, b)) 137 main_v83 main_v84 rfl (by decide) (by decide), zero_main_v83 m c H]
  rfl

omit H in
/-- From launch contents whose seven float arguments are arrays of reals, the reference leaves the zero array in its
    result buffer. -/
theorem ref_zero (m : (ℓ : Loc nD τ sig) → Buf (Elt Ideal) ℓ) (c : Dev nD)
    (h2 : AllReal (m ((c.tc : Thread nD τ).loc main_arg2) : S8x4096x4096.Idx → EReal))
    (h3 : AllReal (m ((c.tc : Thread nD τ).loc main_arg3) : S100000x64.Idx → EReal))
    (h4 : AllReal (m ((c.tc : Thread nD τ).loc main_arg4) : S100000x64.Idx → EReal))
    (h5 : AllReal (m ((c.tc : Thread nD τ).loc main_arg5) : S3x64x64.Idx → EReal))
    (h6 : AllReal (m ((c.tc : Thread nD τ).loc main_arg6) : S3x64.Idx → EReal))
    (h7 : AllReal (m ((c.tc : Thread nD τ).loc main_arg7) : S3x64x64.Idx → EReal))
    (h8 : AllReal (m ((c.tc : Thread nD τ).loc main_arg8) : S3x64.Idx → EReal)) :
    @Eq (S16384x1.Idx → EReal)
      (StableHlo.after (Cert.ReferenceIdeal.HandRun.ops (F := Ideal)) (fun b => m (c, b)) (Proc.devRef .tc main_v84)) (fun _ => 0) :=
  zero_main_v84 m c ⟨h2, h3, h4, h5, h6, h7, h8⟩

end Cert.Val.Ref

end
-- ==== Proof.Val.Algebraic.lean ====
/-
  The value claim: both idealized programs return the zero column on finite inputs, so their results are equal.
-/
import proofs.«117840_j78494822302010_2_alg».proof.Proof.Val.KVal
import proofs.«117840_j78494822302010_2_alg».proof.Proof.Val.Ref

noncomputable section

namespace Cert.Val

/-- The idealized kernel program and the idealized reference, run from memories that agree on the arguments, end with
    equal results and unchanged arguments: for finite inputs both results are the zero column. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of (fun m c h => Cert.KernelIdeal.Hand.kernel_zero m c h)
    (fun m c h => Cert.Val.Ref.ref_zero m c h.1 h.2.1 h.2.2.1 h.2.2.2.1 h.2.2.2.2.1 h.2.2.2.2.2.1 h.2.2.2.2.2.2)

end Cert.Val

end
-- ==== Proof.lean ====
/- The certificate of a three-layer graph-convolution kernel program against its plain reference.

   The kernel program gathers user and item embeddings into one node array, then applies three layers — each one kernel
   region over row tiles of the adjacency: the tile's product with all node embeddings, two 64×64 products with biases,
   a leaky rectifier on each, their sum — and ends with a row-wise product sum of the user and item halves and a
   log-softmax along an axis of extent one. The reference does the same with whole-array host operations.

   Frames. Each region's windows are laid over the fold of buffer contents through the host program; the node array is
   read by two input windows of every region (whole, and by row tile), which hold its left and right half share; the
   regions' body obligations are run symbolically; the reference is one list of host operations. So all three programs
   terminate without fault and leave their nine arguments unchanged.

   Values. The ideal pass rewrote nothing, so the idealized kernel program is the kernel program read at the extended
   reals. For finite inputs every array either program computes before the closing log-softmax is an array of real
   numbers, and the log-softmax of a real along an axis of extent one is zero: both programs return the zero column. -/
import proofs.«117840_j78494822302010_2_alg».proof.Defs
import proofs.«117840_j78494822302010_2_alg».proof.Proof.Gen.Kernel
import proofs.«117840_j78494822302010_2_alg».proof.Proof.Gen.KernelIdeal
import proofs.«117840_j78494822302010_2_alg».proof.Proof.Gen.ReferenceIdeal
import proofs.«117840_j78494822302010_2_alg».proof.Proof.Gen.Pre_finite_inputs
import proofs.«117840_j78494822302010_2_alg».proof.Proof.K.Claim
import proofs.«117840_j78494822302010_2_alg».proof.Proof.KI.Claim
import proofs.«117840_j78494822302010_2_alg».proof.Proof.RefRun
import proofs.«117840_j78494822302010_2_alg».proof.Proof.Val.Algebraic

noncomputable section

namespace Cert.Proof

theorem claim : Cert.Claim := ⟨Cert.Kernel.Gen.facts, Cert.KernelIdeal.Gen.facts, Cert.ReferenceIdeal.Gen.facts, Cert.Pre_finite_inputs.Gen.facts,
  Cert.Kernel.Hand.frame, Cert.KernelIdeal.Hand.frame, Cert.ReferenceIdeal.HandRun.frame, trivial, Cert.Val.algebraic⟩

end Cert.Proof

end
